-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x16 : Shape := ⟨2, ![8192, 16]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_

variable [Facts]

def fn {F : FTy → Type} [FloatOps F] (main_arg0 : FVec F S8192x128 .f32) (main_arg1 : FVec F S8192x16 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x16 .f32 := Host.absf main_arg1
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  main_v8
-- ==== Kernel.lean ====
abbrev S8192x128 : Shape := ⟨2, ![8192, 128]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1024x128 : Shape := ⟨2, ![1024, 128]⟩
abbrev S512x128 : Shape := ⟨2, ![512, 128]⟩
abbrev S1024x16 : Shape := ⟨2, ![1024, 16]⟩
abbrev S512x16 : Shape := ⟨2, ![512, 16]⟩
abbrev S1024x1 : Shape := ⟨2, ![1024, 1]⟩
abbrev S1x512 : Shape := ⟨2, ![1, 512]⟩
abbrev S1024x512 : Shape := ⟨2, ![1024, 512]⟩
abbrev S128x512 : Shape := ⟨2, ![128, 512]⟩
abbrev S16x512 : Shape := ⟨2, ![16, 512]⟩
abbrev S1024 : Shape := ⟨1, ![1024]⟩

abbrev nBuf : Space → Nat
  | .hbm => 33
  | .vmem => 18
  | .smem => 0
  | _ => 0

abbrev bufTy : (tb : Table) → Fin (tcTables nBuf tb) → BufTy
  | .hbm, ⟨0, _⟩ => ⟨S8192x128, .f32⟩
  | .hbm, ⟨1, _⟩ => ⟨S8192x16, .f32⟩
  | .hbm, ⟨2, _⟩ => ⟨S8192x16, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x16, .f32⟩
  | .hbm, ⟨11, _⟩ => ⟨S8192x16, .f32⟩
  | .hbm, ⟨12, _⟩ => ⟨S8192x128, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S1x8192, .f32⟩
  | .hbm, ⟨17, _⟩ => ⟨S8192x1, .f32⟩
  | .hbm, ⟨18, _⟩ => ⟨S8192x1, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S8192, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .i1⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S512x128, .f32⟩
  | .local _ .vmem, ⟨3, _⟩ => ⟨S512x128, .f32⟩
  | .local _ .vmem, ⟨4, _⟩ => ⟨S1024x16, .f32⟩
  | .local _ .vmem, ⟨5, _⟩ => ⟨S1024x16, .f32⟩
  | .local _ .vmem, ⟨6, _⟩ => ⟨S512x16, .f32⟩
  | .local _ .vmem, ⟨7, _⟩ => ⟨S512x16, .f32⟩
  | .local _ .vmem, ⟨8, _⟩ => ⟨S1024x1, .f32⟩
  | .local _ .vmem, ⟨9, _⟩ => ⟨S1024x1, .f32⟩
  | .local _ .vmem, ⟨10, _⟩ => ⟨S1x512, .f32⟩
  | .local _ .vmem, ⟨11, _⟩ => ⟨S1x512, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | .local _ .vmem, ⟨17, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_call1_v0 : Ref sig .tc := ⟨.hbm, 31, rfl⟩
abbrev main_v17 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v62 : BitVec 1 := Scalar.cmpi .eq arg1 c15_i32
  let v63 : BitVec 32 := Scalar.extui v62
  let c0_i32_30 : BitVec 32 := 0#32
  let v64 : BitVec 1 := Scalar.cmpi .ne v63 c0_i32_30
  v64

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  reducesTo_S8192x16_S8192_d1 : S8192x16.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x16_0_1 : S8192x1.BroadcastsInDim S8192x16 (![0, 1] : Fin 2 → Fin S8192x16.rank)
  reducesTo_S8192x128_S8192_d1 : S8192x128.ReducesTo [1] S8192
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1_d0_w32 : S1024x1.Iotas .tc 32 [0]
  iota_S1x512_d1_w32 : S1x512.Iotas .tc 32 [1]
  broadcasts_S1024x1_S1024x512 : S1024x1.Broadcasts S1024x512
  broadcasts_S1x512_S1024x512 : S1x512.Broadcasts S1024x512
  inb_S1024x128_S1024x128_0_0 : ∀ a, (![0, 0] : Fin 2 → Nat) a + S1024x128.size a ≤ S1024x128.size a
  h_S1024x128 : 0 < S1024x128.numel
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  transposes_S512x128_p1_0_S128x512 : S512x128.Transposes [1, 0] S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S512x16_S512x16_0_0 : ∀ a, (![0, 0] : Fin 2 → Nat) a + S512x16.size a ≤ S512x16.size a
  h_S512x16 : 0 < S512x16.numel
  shapeCasts_S512x16_S512x16 : S512x16.ShapeCasts S512x16
  transposes_S512x16_p1_0_S16x512 : S512x16.Transposes [1, 0] S16x512
  reduces_S1024x512_S1024 : S1024x512.Reduces [1] S1024
  shapeCasts_S1024_S1024x1 : S1024.ShapeCasts S1024x1
  natLt_1_32 : 1 < 32
  shapeCasts_S8192x1_S8192 : S8192x1.ShapeCasts S8192
  reducesTo_S8192_S_d0 : S8192.ReducesTo [0] S_
  dot_S1024x128_S128x512_S1024x512_1_0_0_1_n_n_wf : DotDims.WF S1024x128 S128x512 S1024x512 [1] [0] [0] [1] [] []
  dot_S1024x16_S16x512_S1024x512_1_0_0_1_n_n_wf : DotDims.WF S1024x16 S16x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S8192x16.size a
  hwx0_2 : ∀ i : grid0.Coords, EltTy.bits .f32 = 32 ∨ (Rect.block (s := S8192x16) S1024x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x16.size a ≤ S8192x16.size a
  hwx0_3 : ∀ i : grid0.Coords, EltTy.bits .f32 = 32 ∨ (Rect.block (s := S8192x16) S512x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .f32 = 32 ∨ (Rect.block (s := S1x8192) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S8192x1.size a
  hwx0_7 : ∀ i : grid0.Coords, EltTy.bits .f32 = 32 ∨ (Rect.block (s := S8192x1) S1024x1.size (cc0_transform_7 i) (hinb0_7 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x16_S16x512_S1024x512_1_0_0_1_n_n : DotDims S1024x16 S16x512 S1024x512 where
  lhsContracting := [1]
  rhsContracting := [0]
  lhsNonContracting := [0]
  rhsNonContracting := [1]
  lhsBatch := []
  rhsBatch := []
  wf := dot_S1024x16_S16x512_S1024x512_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S1024x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S1024x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S16x8192 : Shape := ⟨2, ![16, 8192]⟩
abbrev S8192x8192 : Shape := ⟨2, ![8192, 8192]⟩
abbrev S1x8192 : Shape := ⟨2, ![1, 8192]⟩
abbrev S128x8192 : Shape := ⟨2, ![128, 8192]⟩

abbrev nBuf : Space → Nat
  | .hbm => 95
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x16, .f32⟩
  | .hbm, ⟨2, _⟩ => ⟨S8192x16, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x16, .f32⟩
  | .hbm, ⟨11, _⟩ => ⟨S8192x16, .f32⟩
  | .hbm, ⟨12, _⟩ => ⟨S16x8192, .f32⟩
  | .hbm, ⟨13, _⟩ => ⟨S8192x8192, .f32⟩
  | .hbm, ⟨14, _⟩ => ⟨S8192x128, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S128x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .i32⟩
  | .hbm, ⟨33, _⟩ => ⟨S8192x8192, .i32⟩
  | .hbm, ⟨34, _⟩ => ⟨S_, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S_, .f32⟩
  | .hbm, ⟨39, _⟩ => ⟨S8192x8192, .f32⟩
  | .hbm, ⟨40, _⟩ => ⟨S8192x8192, .i1⟩
  | .hbm, ⟨41, _⟩ => ⟨S8192x8192, .i1⟩
  | .hbm, ⟨42, _⟩ => ⟨S8192x8192, .i1⟩
  | .hbm, ⟨43, _⟩ => ⟨S_, .f32⟩
  | .hbm, ⟨44, _⟩ => ⟨S8192x8192, .f32⟩
  | .hbm, ⟨45, _⟩ => ⟨S8192x8192, .i1⟩
  | .hbm, ⟨46, _⟩ => ⟨S8192x8192, .i1⟩
  | .hbm, ⟨47, _⟩ => ⟨S8192x8192, .i1⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192, .f32⟩
  | .hbm, ⟨53, _⟩ => ⟨S_, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S8192, .f32⟩
  | .hbm, ⟨58, _⟩ => ⟨S_, .i1⟩
  | .hbm, ⟨59, _⟩ => ⟨S8192, .i1⟩
  | .hbm, ⟨60, _⟩ => ⟨S_, .i1⟩
  | .hbm, ⟨61, _⟩ => ⟨S8192, .i1⟩
  | .hbm, ⟨62, _⟩ => ⟨S8192, .i1⟩
  | .hbm, ⟨63, _⟩ => ⟨S_, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S_, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S8192, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .i1⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_call1_v0 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_cst_7 : Ref sig .tc := ⟨.hbm, 53, rfl⟩
abbrev main_call2_v0 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_c_9 : Ref sig .tc := ⟨.hbm, 58, rfl⟩
abbrev main_v39 : Ref sig .tc := ⟨.hbm, 59, rfl⟩
abbrev main_c_10 : Ref sig .tc := ⟨.hbm, 60, rfl⟩
abbrev main_v40 : Ref sig .tc := ⟨.hbm, 61, rfl⟩
abbrev main_v41 : Ref sig .tc := ⟨.hbm, 62, rfl⟩
abbrev main_cst_11 : Ref sig .tc := ⟨.hbm, 63, rfl⟩
abbrev main_call3_v0 : Ref sig .tc := ⟨.hbm, 64, rfl⟩
abbrev main_call3_v1 : Ref sig .tc := ⟨.hbm, 65, rfl⟩
abbrev main_v42 : Ref sig .tc := ⟨.hbm, 66, rfl⟩
abbrev main_cst_12 : Ref sig .tc := ⟨.hbm, 67, rfl⟩
abbrev main_call4_v0 : Ref sig .tc := ⟨.hbm, 68, rfl⟩
abbrev main_call4_v1 : Ref sig .tc := ⟨.hbm, 69, rfl⟩
abbrev main_v43 : Ref sig .tc := ⟨.hbm, 70, rfl⟩
abbrev main_v44 : Ref sig .tc := ⟨.hbm, 71, rfl⟩
abbrev main_cst_13 : Ref sig .tc := ⟨.hbm, 72, rfl⟩
abbrev main_v45 : Ref sig .tc := ⟨.hbm, 73, rfl⟩
abbrev main_v46 : Ref sig .tc := ⟨.hbm, 74, rfl⟩
abbrev main_cst_14 : Ref sig .tc := ⟨.hbm, 75, rfl⟩
abbrev main_v47 : Ref sig .tc := ⟨.hbm, 76, rfl⟩
abbrev main_v48 : Ref sig .tc := ⟨.hbm, 77, rfl⟩
abbrev main_cst_15 : Ref sig .tc := ⟨.hbm, 78, rfl⟩
abbrev main_call5_v0 : Ref sig .tc := ⟨.hbm, 79, rfl⟩
abbrev main_call5_v1 : Ref sig .tc := ⟨.hbm, 80, rfl⟩
abbrev main_v49 : Ref sig .tc := ⟨.hbm, 81, rfl⟩
abbrev main_v50 : Ref sig .tc := ⟨.hbm, 82, rfl⟩
abbrev main_cst_16 : Ref sig .tc := ⟨.hbm, 83, rfl⟩
abbrev main_v51 : Ref sig .tc := ⟨.hbm, 84, rfl⟩
abbrev main_cst_17 : Ref sig .tc := ⟨.hbm, 85, rfl⟩
abbrev main_v52 : Ref sig .tc := ⟨.hbm, 86, rfl⟩
abbrev main_cst_18 : Ref sig .tc := ⟨.hbm, 87, rfl⟩
abbrev main_v53 : Ref sig .tc := ⟨.hbm, 88, rfl⟩
abbrev main_cst_19 : Ref sig .tc := ⟨.hbm, 89, rfl⟩
abbrev main_v54 : Ref sig .tc := ⟨.hbm, 90, rfl⟩
abbrev main_v55 : Ref sig .tc := ⟨.hbm, 91, rfl⟩
abbrev main_cst_20 : Ref sig .tc := ⟨.hbm, 92, rfl⟩
abbrev main_call6_v0 : Ref sig .tc := ⟨.hbm, 93, rfl⟩
abbrev main_v56 : Ref sig .tc := ⟨.hbm, 94, rfl⟩

abbrev nD : Nat := 1
abbrev τ : Topo := Topo.v7x

variable {F : FTy → Type} [FloatOps F]

class Facts₀ : Prop where
  reducesTo_S8192x16_S8192_d1 : S8192x16.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x16_0_1 : S8192x1.BroadcastsInDim S8192x16 (![0, 1] : Fin 2 → Fin S8192x16.rank)
  transposes_S8192x16_S16x8192_1_0 : S8192x16.Transposes [1, 0] S16x8192
  reducesTo_S8192x128_S8192_d1 : S8192x128.ReducesTo [1] S8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x16_S16x8192_S8192x8192_1_0_0_1_n_n_wf : DotDims.WF S8192x16 S16x8192 S8192x8192 [1] [0] [0] [1] [] []
  dot_S8192x128_S128x8192_S8192x8192_1_0_0_1_n_n_wf : DotDims.WF S8192x128 S128x8192 S8192x8192 [1] [0] [0] [1] [] []

variable [Facts₀]

def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.BShared.lean ====
/-
  What the runs of the kernel body share: the contents of the TensorCore's buffers when the region is entered
  (after the host operations that compute the normalised weights and the squared norms), each window's block at a
  grid point read off its array, the two conditions of the body decided over the grid (the first column tile
  resets the two running extrema, the last one writes the row losses out), where the output windows are idle,
  and the staging and scratch memrefs the body is called with.
-/
import proofs.«137539_j22351009809014_2_alg».proof.Proof.Gen.Kernel.Launch
import proofs.«137539_j22351009809014_2_alg».proof.Proof.Gen.Kernel.Skeleton
import proofs.«137539_j22351009809014_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffer contents when the region is entered: after the fifteen host operations before it. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first column tile of a row block: the body resets the running maximum and minimum. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The last column tile of a row block: the body writes the row losses and the validity flags out. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
/-- One staging buffer of each output window, through which its contents are stated. -/
abbrev VO0_6 : View sig .tc .vmem S1024x1 .f32 := (Memref.whole cc0_stg6_0 : Memref sig .tc .vmem S1024x1 .f32).view
abbrev VO0_7 : View sig .tc .vmem S1024x1 .f32 := (Memref.whole cc0_stg7_0 : Memref sig .tc .vmem S1024x1 .f32).view
/-- The two scratch operands: the running maximum and the running minimum of a row block. -/
abbrev scM0_0 : Memref sig .tc .vmem S1024x1 .f32 := Memref.whole cc0_scratch0
abbrev scM0_1 : Memref sig .tc .vmem S1024x1 .f32 := Memref.whole cc0_scratch1
abbrev VS0_0 : View sig .tc .vmem S1024x1 .f32 := scM0_0.view
abbrev VS0_1 : View sig .tc .vmem S1024x1 .f32 := scM0_1.view

/-- The region's plain invariant with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.BRunB.lean ====
/-
  The body of the kernel at a column tile that is neither the first nor the last of its row block: both running
  extrema are read, joined with the tile's masked maximum and minimum of the squared distances, and stored back;
  nothing is written to the two output windows.
-/
import proofs.«137539_j22351009809014_2_alg».proof.Proof.BShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple in the middle case, the pieces each scratch buffer ends with found by the run. -/
noncomputable def kernelRun0_B (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) :
    Σ' (L6 : List (View.Piece (Elt F) S1024x1 .f32)) (L7 : List (View.Piece (Elt F) S1024x1 .f32)) (LS0 : List (View.Piece (Elt F) S1024x1 .f32)), { LS1 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; iexact HS0
    iexists _; iexact HS1

end Cert.Kernel.Hand

end
-- ==== Proof.BRunA.lean ====
/-
  The body of the kernel at the first column tile of a row block: the running maximum is reset to minus infinity
  and the running minimum to plus infinity, then both are joined with the tile's masked extrema of the squared
  distances; nothing is written to the two output windows.
-/
import proofs.«137539_j22351009809014_2_alg».proof.Proof.BRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple in the first case, the pieces each scratch buffer ends with found by the run. -/
noncomputable def kernelRun0_A (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x16 .f32) (x3 : Vec F S512x16 .f32) (x4 : Vec F S1024x1 .f32) (x5 : Vec F S1x512 .f32) :
    Σ' (L6 : List (View.Piece (Elt F) S1024x1 .f32)) (L7 : List (View.Piece (Elt F) S1024x1 .f32)) (LS0 : List (View.Piece (Elt F) S1024x1 .f32)), { LS1 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; iexact HS0
    iexists _; iexact HS1

end Cert.Kernel.Hand

end
-- ==== Proof.BRunC.lean ====
/-
  The body of the kernel at the last column tile of a row block: the running extrema are joined with the tile's
  masked extrema and stored back, and then read again to write out, per row, the hinge loss of the square roots of
  the clamped extrema and the 0/1 validity flag.
-/
import proofs.«137539_j22351009809014_2_alg».proof.Proof.BRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple in the last case, the pieces each output and scratch buffer ends with found by the run. -/
noncomputable def kernelRun0_C (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) :
    Σ' (L6 : List (View.Piece (Elt F) S1024x1 .f32)) (L7 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; iexact H7
    isplitl [HS0]
    · iexists _; iexact HS0
    iexists _; iexact HS1

end Cert.Kernel.Hand

end
-- ==== Proof.BFrame.lean ====
/-
  The proof data of the kernel region and its body obligation. After the body at a grid point the two scratch
  buffers hold the running maximum and minimum of the masked squared distances over the column tiles seen so far in
  the current row block; at the last column tile the two output windows hold the row losses and the validity flags.
  The invariant carries the scratch contents from point to point; the body obligation is the case's run.
-/
import proofs.«137539_j22351009809014_2_alg».proof.Proof.BRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A's pieces for scratch 0 cover it. -/
theorem scover0_A_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x16 .f32) (x3 : Vec F S512x16 .f32) (x4 : Vec F S1024x1 .f32) (x5 : Vec F S1x512 .f32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.1 S1024x1.size (by sl_kernel_rfl) y

/-- What case A leaves in scratch 0: its pieces read back. -/
def sout0_A_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x16 .f32) (x3 : Vec F S512x16 .f32) (x4 : Vec F S1024x1 .f32) (x5 : Vec F S1x512 .f32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5).2.2.1)

/-- Case A's pieces for scratch 1 cover it. -/
theorem scover0_A_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x16 .f32) (x3 : Vec F S512x16 .f32) (x4 : Vec F S1024x1 .f32) (x5 : Vec F S1x512 .f32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.2.1 S1024x1.size (by sl_kernel_rfl) y

/-- What case A leaves in scratch 1: its pieces read back. -/
def sout0_A_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x16 .f32) (x3 : Vec F S512x16 .f32) (x4 : Vec F S1024x1 .f32) (x5 : Vec F S1x512 .f32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4 x5).2.2.2.1)

/-- Case B's pieces for scratch 0 cover it. -/
theorem scover0_B_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.1 S1024x1.size (by sl_kernel_rfl) y

/-- What case B leaves in scratch 0: its pieces read back. -/
def sout0_B_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case B's pieces for scratch 1 cover it. -/
theorem scover0_B_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S1024x1.size (by sl_kernel_rfl) y

/-- What case B leaves in scratch 1: its pieces read back. -/
def sout0_B_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- Case C's pieces for scratch 0 cover it. -/
theorem scover0_C_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1 S1024x1.size (by sl_kernel_rfl) y

/-- What case C leaves in scratch 0: its pieces read back. -/
def sout0_C_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's pieces for scratch 1 cover it. -/
theorem scover0_C_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S1024x1.size (by sl_kernel_rfl) y

/-- What case C leaves in scratch 1: its pieces read back. -/
def sout0_C_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- Case C's pieces for output window 6 cover its block. -/
theorem cover0_C_6 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1 S1024x1.size (by sl_kernel_rfl) y

/-- What case C leaves in output window 6's staging buffer: its pieces read back. -/
def out0_C_6 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) : Vec F S1024x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1)

/-- Case C's pieces for output window 7 cover its block. -/
theorem cover0_C_7 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1 S1024x1.size (by sl_kernel_rfl) y

/-- What case C leaves in output window 7's staging buffer: its pieces read back. -/
def out0_C_7 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) : Vec F S1024x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1)

/-- A placeholder for an output window at a point where the body stores nothing into it (never consulted). -/
def junk6 : Vec F S1024x1 .f32 := VO0_6.read (Elt F) VO0_6.junk
def junk7 : Vec F S1024x1 .f32 := VO0_7.read (Elt F) VO0_7.junk

/-! ## What the buffers hold after each point -/

/-- After the body at position `n`: output window 6's and 7's staging buffers and the two scratch buffers. The case is
    selected by the column tile (`n % 16`); from the second tile of a row block on the scratch buffers are read at
    what the point before left. -/
def outsAt0 (c : Dev nD) : (n : ℕ) → n < cfg0.N → Vec F S1024x1 .f32 × Vec F S1024x1 .f32 × Vec F S1024x1 .f32 × Vec F S1024x1 .f32
  | 0, hn => (junk6, junk7, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 16 = 0 then
      if h1 : (n + 1) % 16 = 15 then
        False.elim (by omega)
      else
        (junk6, junk7, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 16 = 15 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2)
      else
        (junk6, junk7, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 16 = 0) (h1 : ¬t.val % 16 = 15) :
    outsAt0 m c t.val t.isLt = (junk6, junk7, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = (junk6, junk7, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the start the region's plain invariant (both scratch buffers at anything); afterwards the two
    scratch buffers at what the point before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The proof data -/

/-- The proof data of the pipeline on core `c`: the arrays as the region finds them; after the body each input's buffer
    at its block, the outputs' at `outsAt0`; the tracking invariant; nothing owed. The two windows that read the
    embeddings share their array half and half, and so do the two windows that read the normalised weights. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point: the inputs' memrefs hold their blocks; the column tile says which case the point is in; the
    invariant hands the body the two scratch buffers at what the point before left (at anything at the first point) and
    takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h0 : t.val % 16 = 0
  · have h1 : ¬t.val % 16 = 15 := by omega
    rw [Dat.leavesExact_idle (dats m 0 c) 6 t (idleAt0_6 t (fun h => h1 ((hcond0_1 t).mp h))) (noFlush0_6 t (fun h => h1 ((hcond0_1 t).mp h)))]
    rw [Dat.leavesExact_idle (dats m 0 c) 7 t (idleAt0_7 t (fun h => h1 ((hcond0_1 t).mp h))) (noFlush0_7 t (fun h => h1 ((hcond0_1 t).mp h)))]
    rw [outsAt0_A m c t h0 h1]
    unfold sout0_A_0 sout0_A_1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ )
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ )
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := fun e => h0 (by rw [e])
    by_cases h1 : t.val % 16 = 15
    · rw [show (dats m 0 c).leavesExact 6 t = owns (c : Thread nD τ) (ms0_6 t) fullShare ((dats m 0 c).after 6 t) from by
        unfold Dat.leavesExact; rw [liveAt0_6 t ((hcond0_1 t).mpr h1)], after0_6]
      rw [show (dats m 0 c).leavesExact 7 t = owns (c : Thread nD τ) (ms0_7 t) fullShare ((dats m 0 c).after 7 t) from by
        unfold Dat.leavesExact; rw [liveAt0_7 t ((hcond0_1 t).mpr h1)], after0_7]
      rw [outsAt0_C m c t h0 h1]
      unfold out0_C_6 out0_C_7 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ )
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ )
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ )
    ·
      rw [Dat.leavesExact_idle (dats m 0 c) 6 t (idleAt0_6 t (fun h => h1 ((hcond0_1 t).mp h))) (noFlush0_6 t (fun h => h1 ((hcond0_1 t).mp h)))]
      rw [Dat.leavesExact_idle (dats m 0 c) 7 t (idleAt0_7 t (fun h => h1 ((hcond0_1 t).mp h))) (noFlush0_7 t (fun h => h1 ((hcond0_1 t).mp h)))]
      rw [outsAt0_B m c t h0 h1]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ )
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the plain one back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

end Cert.Kernel.Hand

end
-- ==== Proof.BLaunchShared.lean ====
/-
  The launch of the kernel region when two windows read one array.

  The pallas_call hands its first argument to windows 0 and 1 and the normalised weights to windows 2 and 3, so the
  eight windows stand on six distinct buffers.  The full share of each of the two shared buffers is dealt in halves
  between the two input windows on it; the other four are held whole.  Since an input array is never written, both
  windows on a shared buffer read the contents the region found there, and the halves rejoin when the region is left.

  Contents: the six buffers at the full share are the proof data's arrays at the windows' shares, as an equation
  (`arrBufs_eq_arrays`), which serves the entry into the region and both directions at its exit; the buffers'
  contents at the exit (`exit_arr`, `exit_rest`); @main as host lines, the region, host lines (`hmain_shared`), and
  that the later lines touch unscoped buffers only, allocate nothing and write no array; the later lines run from the
  region's exit (`tail_shared`); and the run of @main (`run_region`), whose postcondition gives every array at what
  the proof data computes and every other unscoped buffer at what the later lines leave.  Everything is stated for
  any float instance.
-/
import proofs.«137539_j22351009809014_2_alg».proof.Proof.BShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' shares

Windows 0 and 1 read one array and windows 2 and 3 another: the full share of each of the two is dealt in halves
between the windows on it; the other four arrays are held whole. -/

section Shares

variable {c : Dev nD} (dat : Dat τ (Elt F) Unit ℕ (UR sig nD τ) ℕ cfg0 c)

theorem share_0 : dat.share 0 = dat.q 0 := by unfold Dat.share; exact if_neg (by decide)
theorem share_1 : dat.share 1 = dat.q 1 := by unfold Dat.share; exact if_neg (by decide)
theorem share_2 : dat.share 2 = dat.q 2 := by unfold Dat.share; exact if_neg (by decide)
theorem share_3 : dat.share 3 = dat.q 3 := by unfold Dat.share; exact if_neg (by decide)
theorem share_4 : dat.share 4 = dat.q 4 := by unfold Dat.share; exact if_neg (by decide)
theorem share_5 : dat.share 5 = dat.q 5 := by unfold Dat.share; exact if_neg (by decide)
theorem share_6 : dat.share 6 = fullShare := by unfold Dat.share; exact if_pos (by decide)
theorem share_7 : dat.share 7 = fullShare := by unfold Dat.share; exact if_pos (by decide)

/-- Every window's array is a whole buffer: the proof data's arrays are whole buffers at the windows' shares. -/
theorem arrays_whole (G : (w : Fin cfg0.W) → Buf (Elt F) ((cfg0.win w).arr.view.loc (c : Thread nD τ))) :
    (dat.arrays G : sProp 𝕄)
      = bigSep Finset.univ fun w : Fin cfg0.W => ((cfg0.win w).arr.view.loc (c : Thread nD τ) ↦{dat.share w} G w) := by
  unfold Dat.arrays
  exact bigSep_congr fun w _ => by rw [(arr_whole0 w).set_eq_univ]

/-- The proof data's arrays, window by window, each a whole buffer at the window's share. -/
theorem arrays_chain (G : (w : Fin cfg0.W) → Buf (Elt F) ((cfg0.win w).arr.view.loc (c : Thread nD τ))) :
    (dat.arrays G : sProp 𝕄)
      = iprop((((c : Thread nD τ).loc main_arg0) ↦{dat.q 0} G 0) ∗ (((c : Thread nD τ).loc main_arg0) ↦{dat.q 1} G 1)
          ∗ (((c : Thread nD τ).loc main_v4) ↦{dat.q 2} G 2) ∗ (((c : Thread nD τ).loc main_v4) ↦{dat.q 3} G 3)
          ∗ (((c : Thread nD τ).loc main_v7) ↦{dat.q 4} G 4) ∗ (((c : Thread nD τ).loc main_v8) ↦{dat.q 5} G 5)
          ∗ (((c : Thread nD τ).loc main_v9_0) ↦{fullShare} G 6) ∗ (((c : Thread nD τ).loc main_v9_1) ↦{fullShare} G 7)) := by
  rw [arrays_whole, bigSep_W0, share_0, share_1, share_2, share_3, share_4, share_5, share_6, share_7]
  try rfl

/-- The six distinct buffers behind the eight windows' arrays, each whole at the full share. -/
theorem arrBufs_chain (c : Dev nD) (Vb : (b : Ref sig .tc) → Buf (Elt F) ((c : Thread nD τ).loc b)) :
    (Pipeline.arrBufs spec0 c Vb : sProp 𝕄)
      = iprop((((c : Thread nD τ).loc main_arg0) ↦{fullShare} Vb main_arg0) ∗ (((c : Thread nD τ).loc main_v4) ↦{fullShare} Vb main_v4)
          ∗ (((c : Thread nD τ).loc main_v7) ↦{fullShare} Vb main_v7) ∗ (((c : Thread nD τ).loc main_v8) ↦{fullShare} Vb main_v8)
          ∗ (((c : Thread nD τ).loc main_v9_0) ↦{fullShare} Vb main_v9_0) ∗ (((c : Thread nD τ).loc main_v9_1) ↦{fullShare} Vb main_v9_1)) := by
  unfold Pipeline.arrBufs
  rw [bigSep_eq_bigSepL_of_eq [main_arg0, main_v4, main_v7, main_v8, main_v9_0, main_v9_1] (by decide) (by decide)]
  try rfl

/-- A buffer whole at the full share is the same buffer at the two halves of it. -/
theorem pointsTo_halves {ℓ : Loc nD τ sig} (f : Buf (Elt F) ℓ) :
    ((ℓ ↦{fullShare} f : sProp 𝕄)) = iprop((ℓ ↦{fullShare.left} f) ∗ (ℓ ↦{fullShare.right} f)) :=
  BI.equiv_iff.mp ⟨(pointsTo_share (PosShare.mem_left_op_right fullShare)).1, (pointsTo_share (PosShare.mem_left_op_right fullShare)).2⟩

theorem sep_assoc_eq (P Q R : sProp 𝕄) : iprop((P ∗ Q) ∗ R) = iprop(P ∗ Q ∗ R) := by
  have h₁ : iprop((P ∗ Q) ∗ R) ⊢ iprop(P ∗ Q ∗ R) := by
    iintro ⟨⟨HP, HQ⟩, HR⟩
    isplitl [HP]; · iexact HP
    isplitl [HQ]; · iexact HQ
    iexact HR
  have h₂ : iprop(P ∗ Q ∗ R) ⊢ iprop((P ∗ Q) ∗ R) := by
    iintro ⟨HP, HQ, HR⟩
    isplitr [HR]
    · isplitl [HP]; · iexact HP
      iexact HQ
    iexact HR
  exact BI.equiv_iff.mp ⟨h₁, h₂⟩

/-- The buffers behind the arrays, whole at the full share at contents `Vb`, are the proof data's arrays at the same
    contents (`hG`), the two shared arrays dealt in halves (`hq`). -/
theorem arrBufs_eq_arrays
    (hq : dat.q 0 = fullShare.left ∧ dat.q 1 = fullShare.right ∧ dat.q 2 = fullShare.left ∧ dat.q 3 = fullShare.right
      ∧ dat.q 4 = fullShare ∧ dat.q 5 = fullShare)
    (Vb : (b : Ref sig .tc) → Buf (Elt F) ((c : Thread nD τ).loc b))
    (G : (w : Fin cfg0.W) → Buf (Elt F) ((cfg0.win w).arr.view.loc (c : Thread nD τ)))
    (hG : ∀ w, G w = Vb (Pipeline.arrRef spec0 w)) :
    (Pipeline.arrBufs spec0 c Vb : sProp 𝕄) = dat.arrays G := by
  obtain ⟨h0, h1, h2, h3, h4, h5⟩ := hq
  rw [arrays_chain, arrBufs_chain, h0, h1, h2, h3, h4, h5, hG 0, hG 1, hG 2, hG 3, hG 4, hG 5, hG 6, hG 7,
    pointsTo_halves (Vb main_arg0), pointsTo_halves (Vb main_v4), sep_assoc_eq, sep_assoc_eq]
  try rfl

end Shares

/-! ## The buffers' contents when the region is left

The arrays at what the pipeline's write-backs leave, every other buffer as the region found it. Two windows on one
array are both inputs, and an input array is never written: the two read the same contents off it. -/

section Exit

/-- A valuation read at a buffer through an equation of buffers. -/
theorem cast_valuation (f : Valuation τ sig (Elt F)) {b b' : DevRef τ sig} (e : b' = b) :
    cast (congrArg (fun b'' : DevRef τ sig => b''.ty.Contents (Elt F)) e) (f b') = f b := by
  subst e; rfl

/-- `Pipeline.withArrays` at a window's array, the windows on one array agreeing on its contents (`hc`). -/
theorem withArrays_arr_of {gr W : Nat} (win : Fin W → Pipeline.WinSpec sig gr) (c : Dev nD) (Vv : Valuation τ sig (Elt F))
    (A : (w : Fin W) → Buf (Elt F) ((win w).arr.view.loc (c : Thread nD τ))) (w : Fin W)
    (hc : ∀ (w' : Fin W) (e : Proc.devRef (τ := τ) .tc (Pipeline.arrRef win w') = Proc.devRef .tc (Pipeline.arrRef win w)),
      cast (congrArg (fun b' : DevRef τ sig => b'.ty.Contents (Elt F)) e) (A w') = A w) :
    Pipeline.withArrays win c Vv A (Proc.devRef .tc (Pipeline.arrRef win w)) = A w := by
  unfold Pipeline.withArrays
  have h : ∃ w', Proc.devRef .tc (Pipeline.arrRef win w') = Proc.devRef (τ := τ) .tc (Pipeline.arrRef win w) := ⟨w, rfl⟩
  rw [dif_pos h]
  exact hc _ h.choose_spec

/-- An output window is alone on its array. -/
theorem out_alone : ∀ w' w : Fin 8, Pipeline.arrRef spec0 w' = Pipeline.arrRef spec0 w → (win0 w).isOut = true → w' = w := by decide
/-- The windows that share an array with an input window are input windows. -/
theorem in_shared : ∀ w' w : Fin 8, Pipeline.arrRef spec0 w' = Pipeline.arrRef spec0 w → (win0 w).isOut = false → (win0 w').isOut = false := by
  decide

variable {c : Dev nD} (dat : Dat τ (Elt F) Unit ℕ (UR sig nD τ) ℕ cfg0 c)

/-- When the region is left every window's array holds what the proof data computes for the window. -/
theorem exit_arr (hA : ∀ w, dat.A w = V m c (Pipeline.arrRef spec0 w)) (w : Fin cfg0.W) :
    Pipeline.withArrays spec0 c (V0 m c) (fun w => dat.arrAt w cfg0.N) (Proc.devRef .tc (Pipeline.arrRef spec0 w)) = dat.arrAt w cfg0.N := by
  refine withArrays_arr_of spec0 c _ _ w fun w' e => ?_
  have e' : Pipeline.arrRef spec0 w' = Pipeline.arrRef spec0 w := Proc.devRef_injective _ e
  by_cases hw : (win0 w).isOut = true
  · obtain rfl : w' = w := out_alone w' w e' hw
    rfl
  · have hw0 : (win0 w).isOut = false := by simpa using hw
    have hw' : (win0 w').isOut = false := in_shared w' w e' hw0
    rw [dat.arrAt_in w hw0, dat.arrAt_in w' hw', hA w, hA w']
    exact cast_valuation (V0 m c) e

/-- And every buffer that is no window's array what the region found in it. -/
theorem exit_rest (b : Ref sig .tc) (hb : ∀ w, Pipeline.arrRef spec0 w ≠ b) :
    Pipeline.withArrays spec0 c (V0 m c) (fun w => dat.arrAt w cfg0.N) (Proc.devRef .tc b) = V m c b :=
  Pipeline.withArrays_of_ne spec0 c (V0 m c) _ b hb

end Exit

/-! ## @main around the region -/

section Around

theorem fresh_hostOps0 : (hostOps0 : List (HloOp τ sig (Elt F))).Forall fun op => op.fresh = ∅ := by
  simp only [List.Forall]; repeat' constructor
theorem fresh_hostOps0_1 : (hostOps0_1 : List (HloOp τ sig (Elt F))).Forall fun op => op.fresh = ∅ := by
  simp only [List.Forall]; repeat' constructor
theorem fresh_hostOps1 : (hostOps1 : List (HloOp τ sig (Elt F))).Forall fun op => op.fresh = ∅ := by
  simp only [List.Forall]; repeat' constructor
theorem fresh_hostOps1_1 : (hostOps1_1 : List (HloOp τ sig (Elt F))).Forall fun op => op.fresh = ∅ := by
  simp only [List.Forall]; repeat' constructor

/-- @main is the host lines before the region, the region, and the host lines after it: it reduces to the region
    continued by the later lines, at the contents the earlier lines leave. -/
theorem hmain_shared (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0, hostOps0_1] [hostOps1, hostOps1_1]
    (by simp only [List.Forall]; exact ⟨hostOps0_sub, hostOps0_1_sub⟩)
    (by simp only [List.Forall]; exact ⟨fresh_hostOps0, fresh_hostOps0_1⟩) main_chain

/-- The lines after the region touch unscoped TensorCore buffers only. -/
theorem tail_sub : ∀ ops ∈ ([hostOps1, hostOps1_1] : List (List (HloOp τ sig (Elt F)))), ∀ op ∈ ops,
    op.bufs ⊆ Pipeline.ucRefs τ sig := by
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)

/-- They allocate nothing. -/
theorem tail_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp fresh_hostOps1) op hop
  · exact (List.forall_iff_forall_mem.mp fresh_hostOps1_1) op hop

/-- And write no array of the pipeline: each writes its own result buffer, which is no array. -/
theorem tail_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_1, List.mem_cons, List.mem_nil_iff, or_false] at hop
    rcases hop with rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)

variable {c : Dev nD} (dat : Dat τ (Elt F) Unit ℕ (UR sig nD τ) ℕ cfg0 c)

/-- The core's unscoped buffers, held at a valuation that has every window's array at what the proof data computes
    after `n` points, are the proof data's arrays there and the buffers that bypass the region. -/
theorem held_eq_arrays
    (hq : dat.q 0 = fullShare.left ∧ dat.q 1 = fullShare.right ∧ dat.q 2 = fullShare.left ∧ dat.q 3 = fullShare.right
      ∧ dat.q 4 = fullShare ∧ dat.q 5 = fullShare)
    (n : Nat) (Wv : Valuation τ sig (Elt F))
    (hW : ∀ w, Wv (Proc.devRef .tc (Pipeline.arrRef spec0 w)) = dat.arrAt w n) :
    (StableHlo.held (c : Thread nD τ) (Pipeline.ucRefs τ sig) Wv : sProp 𝕄)
      = iprop(dat.arrays (dat.arrAt · n) ∗ Pipeline.unscopedRest spec0 c (fun b => Wv (Proc.devRef .tc b))) := by
  rw [← Pipeline.unscopedBufs_held (Ix := Unit) (Name := ℕ) (U := UR sig nD τ) (Lvl := ℕ) c Wv,
    Pipeline.unscopedBufs_split₀ cfgs (0 : Fin 1) winFacts₀0.arr_unscoped c,
    arrBufs_eq_arrays dat hq _ (dat.arrAt · n) fun w => (hW w).symm]

end Around

/-! ## The run -/

section Run

set_option backward.isDefEq.respectTransparency.types false in
/-- The lines after the region, run from the region's exit: holding the proof data's arrays at their final contents (the
    two shared arrays in halves) and the buffers that bypassed the region as the region found them, the lines run
    within the core's unscoped buffers — the halves rejoined, since both windows on a shared array read the contents the
    region found — and hand back the arrays, dealt as before, and the bypassing buffers at what the lines leave. -/
theorem tail_shared (𝒱₀ : Variants) (c : Dev nD) (dat : Dat τ (Elt F) Unit ℕ (UR sig nD τ) ℕ cfg0 c)
    (hq : dat.q 0 = fullShare.left ∧ dat.q 1 = fullShare.right ∧ dat.q 2 = fullShare.left ∧ dat.q 3 = fullShare.right
      ∧ dat.q 4 = fullShare ∧ dat.q 5 = fullShare)
    (hA : ∀ w, dat.A w = V m c (Pipeline.arrRef spec0 w)) (Q' : PUnit → sProp 𝕄) :
    iprop((iprop(dat.arrays (dat.arrAt · cfg0.N)
              ∗ Pipeline.unscopedRest spec0 c (fun b => StableHlo.after (List.flatten [hostOps1, hostOps1_1])
                  (Pipeline.withArrays spec0 c (V0 m c) fun w => dat.arrAt w cfg0.N) (Proc.devRef .tc b))) -∗ Q' ⟨⟩)
        ∗ boundary (c : Thread nD τ) ∗ dat.arrays (dat.arrAt · cfg0.N) ∗ Pipeline.unscopedRest spec0 c (V m c))
      ⊢ wp frame (wpE (Pipeline.defs (fun q => Cfg.toPCfg (Val := Elt F) (cfgs q)) defs₀) (Variants.lift 𝒱₀) (c : Thread nD τ) none) Set.univ
          (Pipeline.chain ([hostOps1, hostOps1_1].map StableHlo.seq)) Q' := by
  have hW := held_eq_arrays dat hq cfg0.N (Pipeline.withArrays spec0 c (V0 m c) fun w => dat.arrAt w cfg0.N) (exit_arr m dat hA)
  have hR : (Pipeline.unscopedRest spec0 c (fun b => Pipeline.withArrays spec0 c (V0 m c) (fun w => dat.arrAt w cfg0.N) (Proc.devRef .tc b)) : sProp 𝕄)
      = Pipeline.unscopedRest spec0 c (V m c) := by
    unfold Pipeline.unscopedRest
    exact bigSep_congr fun b hb => by
      beta_reduce
      rw [exit_rest m dat b fun w e => (Finset.mem_sdiff.mp hb).2 (Finset.mem_image.mpr ⟨w, Finset.mem_univ _, e⟩)]
  rw [hR] at hW
  have hW' := held_eq_arrays dat hq cfg0.N
    (StableHlo.after (List.flatten [hostOps1, hostOps1_1]) (Pipeline.withArrays spec0 c (V0 m c) fun w => dat.arrAt w cfg0.N))
    (fun w => by
      rw [StableHlo.after_of_forall_not_mem _ _ fun op hop => ?_, exit_arr m dat hA w]
      obtain ⟨ops, hops, hop⟩ := List.mem_flatten.mp hop
      exact tail_keeps ops hops op hop w)
  rw [← List.append_nil ([hostOps1, hostOps1_1].map StableHlo.seq), ← hW]
  iintro ⟨Hk, Hb⟩
  iapply (Pipeline.wp_seqs_then (fun q => Cfg.toPCfg (Val := Elt F) (cfgs q)) defs₀ 𝒱₀ c (Pipeline.ucRefs τ sig) [] [hostOps1, hostOps1_1]
    tail_sub tail_fresh _) $$ Hb
  iintro Hb
  rw [Pipeline.chain_nil, wp_pure, hW']
  imodintro
  iapply Hk
  icases Hb with ⟨-, H⟩
  iexact H

end Run

section Frame

set_option backward.isDefEq.respectTransparency.types false in
/-- THE RUN of @main — host lines, the region, host lines — for proof data that deals the two shared input arrays
    in halves between the windows on them (`hq`), with a tracking invariant (`hin`, `hout`): every weakly fair execution
    terminates, and every final state has every window's array at what the proof data computes and every other
    unscoped buffer at what the lines after the region leave, from the region's exit contents. -/
theorem run_region (𝒱₀ : Variants)
    (dats : Fin 1 → (c : Dev nD) → Dat τ (Elt F) Unit ℕ (UR sig nD τ) ℕ cfg0 c)
    (hq : ∀ c, (dats 0 c).q 0 = fullShare.left ∧ (dats 0 c).q 1 = fullShare.right ∧ (dats 0 c).q 2 = fullShare.left
      ∧ (dats 0 c).q 3 = fullShare.right ∧ (dats 0 c).q 4 = fullShare ∧ (dats 0 c).q 5 = fullShare)
    (hA : ∀ c w, (dats 0 c).A w = V m c (Pipeline.arrRef spec0 w))
    (howed : ∀ c t, (dats 0 c).owed t = 0)
    (hbody : ∀ c, Pipeline.BodyObligationLoose (dats 0 c) defs₀ 𝒱₀ () Set.univ)
    (hin : ∀ c, Pipeline.ΦA spec0 c ⊢ (dats 0 c).Φ 0)
    (hout : ∀ c, (dats 0 c).Φ (Fin.last cfg0.N) ⊢ Pipeline.ΦA spec0 c) :
    θ_run (defs (F := F)) (onTc (τ := τ) (main (F := F))) ⟨m, fun _ => 0, ρ⟩
      (Pipeline.FramePost cfgs dats 0 (Pipeline.afterTail₀ cfgs dats 0 (V0 m) [hostOps1, hostOps1_1])) := by
  classical
  exact Pipeline.θ_run_region_pf_tail (fun p => (cfgs p).toPCfg (Val := Elt F)) (fun p => (cfgs p).toPCfg_adm) dats () cellOf_inj 0
    winFacts₀0 (Pipeline.OwnSemFacts.none spec0) (Pipeline.PreFacts.none _) emb₁ defs₀ 𝒱₀ m ρ main
    (fun _ => Pipeline.chain ([hostOps1, hostOps1_1].map StableHlo.seq)) hbody block_pos0 arr_whole0 stage_whole0 howed
    (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain_shared m 𝒱₀)
    (hsplit := fun c => Entails.of_eq (arrBufs_eq_arrays (dats 0 c) (hq c) _ _ fun w => hA c w))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c
      (Pipeline.afterTail₀ cfgs dats 0 (V0 m) [hostOps1, hostOps1_1] c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => by
      rw [Pipeline.unscopedRestP_none, Pipeline.unscopedRestP_none]
      exact tail_shared m 𝒱₀ c (dats 0 c) (hq c) (hA c) Q')
    (QY := fun c s => ∀ b ∈ Pipeline.restRefsP sig Pipeline.Prefetch.none spec0,
      s.mem ((c : Thread nD τ).loc b) = Pipeline.afterTail₀ cfgs dats 0 (V0 m) [hostOps1, hostOps1_1] c b)
    (hY := fun c s' => by
      iintro ⟨-, HU, HSI⟩
      unfold Pipeline.unscopedRestP
      imodintro
      iapply (pointsTo_read_all (Pipeline.restRefsP sig Pipeline.Prefetch.none spec0) (fun b => (c : Thread nD τ).loc b)
        (Pipeline.afterTail₀ cfgs dats 0 (V0 m) [hostOps1, hostOps1_1] c) s')
      isplitl [HU] <;> iassumption)
    (hQ := fun s h c => ⟨(h c).1, Pipeline.rest_of_restP Pipeline.Prefetch.none spec0 _ c
      (Pipeline.afterTail₀ cfgs dats 0 (V0 m) [hostOps1, hostOps1_1] c) s (fun k => k.elim0) (h c).2.1 (h c).2.2⟩)

end Frame

end Cert.Kernel.Hand

end
-- ==== Proof.BLaunchShared2.lean ====
/-
  The run of @main read at the arguments and the result.

  No host line writes an argument, the first argument is an input array of the region and the second is no array
  of it: both end as launched.  The result is written by the last host line; it holds what the lines after the region
  compute from the region's exit contents, in which the two output arrays hold what the proof data computes for the
  two output windows.
-/
import proofs.«137539_j22351009809014_2_alg».proof.Proof.BLaunchShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The final memory read at the arguments and the result -/

section Read

/-- No host line before the region writes the first argument: the region finds it as launched. -/
theorem entry_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- Nor the second. -/
theorem entry_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- No host line after the region writes the second argument. -/
theorem tail_main_arg1 (Wv : Valuation τ sig (Elt F)) :
    StableHlo.after (List.flatten [hostOps1, hostOps1_1]) Wv (Proc.devRef .tc main_arg1) = Wv (Proc.devRef .tc main_arg1) :=
  StableHlo.after_of_forall_not_mem (b := Proc.devRef .tc main_arg1) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

variable {c : Dev nD} (dat : Dat τ (Elt F) Unit ℕ (UR sig nD τ) ℕ cfg0 c)

/-- When the region is left the first output array holds what the proof data computes for window 6, -/
theorem exit_out0 (hA : ∀ w, dat.A w = V m c (Pipeline.arrRef spec0 w)) :
    Pipeline.withArrays spec0 c (V0 m c) (fun w => dat.arrAt w cfg0.N) (Proc.devRef .tc main_v9_0) = dat.arrAt 6 cfg0.N :=
  exit_arr m dat hA 6

/-- and the second what it computes for window 7. -/
theorem exit_out1 (hA : ∀ w, dat.A w = V m c (Pipeline.arrRef spec0 w)) :
    Pipeline.withArrays spec0 c (V0 m c) (fun w => dat.arrAt w cfg0.N) (Proc.devRef .tc main_v9_1) = dat.arrAt 7 cfg0.N :=
  exit_arr m dat hA 7

/-- The run of @main read at the two arguments and the result: both arguments end as launched, and the result holds
    what the lines after the region compute from the region's exit contents — the two output arrays at what the proof
    data computes for windows 6 and 7 (`exit_out0`, `exit_out1`). -/
theorem run_region_read (𝒱₀ : Variants)
    (dats : Fin 1 → (c : Dev nD) → Dat τ (Elt F) Unit ℕ (UR sig nD τ) ℕ cfg0 c)
    (hq : ∀ c, (dats 0 c).q 0 = fullShare.left ∧ (dats 0 c).q 1 = fullShare.right ∧ (dats 0 c).q 2 = fullShare.left
      ∧ (dats 0 c).q 3 = fullShare.right ∧ (dats 0 c).q 4 = fullShare ∧ (dats 0 c).q 5 = fullShare)
    (hA : ∀ c w, (dats 0 c).A w = V m c (Pipeline.arrRef spec0 w))
    (howed : ∀ c t, (dats 0 c).owed t = 0)
    (hbody : ∀ c, Pipeline.BodyObligationLoose (dats 0 c) defs₀ 𝒱₀ () Set.univ)
    (hin : ∀ c, Pipeline.ΦA spec0 c ⊢ (dats 0 c).Φ 0)
    (hout : ∀ c, (dats 0 c).Φ (Fin.last cfg0.N) ⊢ Pipeline.ΦA spec0 c) :
    θ_run (defs (F := F)) (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v17)
          = StableHlo.after (List.flatten [hostOps1, hostOps1_1])
              (Pipeline.withArrays spec0 c (V0 m c) fun w => (dats 0 c).arrAt w cfg0.N) (Proc.devRef .tc main_v17)) :=
  (θ_run defs _ _).mono (fun _ h c =>
    ⟨((h c).1 0).trans (((dats 0 c).arrAt_in 0 rfl _).trans ((hA c 0).trans (entry_main_arg0 m c))),
     ((h c).2 main_arg1 (Pipeline.mem_restRefs_of main_arg1 rfl (by decide))).trans
       ((tail_main_arg1 _).trans ((exit_rest m (dats 0 c) main_arg1 (by decide)).trans (entry_main_arg1 m c))),
     (h c).2 main_v17 (Pipeline.mem_restRefs_of main_v17 rfl (by decide))⟩)
    (run_region m ρ 𝒱₀ dats hq hA howed hbody hin hout)

end Read

end Cert.Kernel.Hand

end
-- ==== Proof.BFrameRun.lean ====
/-
  The run of @main with the kernel's proof data: the frame, and the result as a function of the two output arrays.

  The launch of the region with two shared input arrays, applied to the proof data of the kernel body: @main runs,
  both arguments end as launched, and the result buffer holds what the fourteen host lines after the region compute
  from the two output arrays — the row losses and the validity flags —: the sum of the losses divided by the number
  of valid rows clamped below at one, and zero when no row is valid.
-/
import proofs.«137539_j22351009809014_2_alg».proof.Proof.BFrame
import proofs.«137539_j22351009809014_2_alg».proof.Proof.BLaunchShared2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run of @main with the proof data of the kernel -/

section Run

-- the launch theorem's implicit arguments are found by unifying its conclusion with this one, which takes unfolding plain
-- definitions in a metavariable's type
set_option backward.isDefEq.respectTransparency.types false in
/-- Every weakly fair execution of @main terminates, and every final state has every array of the pipeline at what the
    proof data computes and every other unscoped buffer as the lines after the region leave it. -/
theorem run_main : θ_run defs (onTc (τ := τ) (main (F := F))) ⟨m, fun _ => 0, ρ⟩
    (Pipeline.FramePost cfgs (dats m) 0 (Pipeline.afterTail₀ cfgs (dats m) 0 (V0 m) [hostOps1, hostOps1_1])) :=
  run_region m ρ Variants.none (dats m) (fun c => ⟨rfl, rfl, rfl, rfl, rfl, rfl⟩) (A_eq m) (fun _ _ => rfl)
    (fun c => (body_obligation m c).loose) (hin m) (hout m)

set_option backward.isDefEq.respectTransparency.types false in
/-- The same run read at the arguments and the result. -/
theorem run_read : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v17)
          = StableHlo.after (List.flatten [hostOps1, hostOps1_1])
              (Pipeline.withArrays spec0 c (V0 m c) fun w => (dats m 0 c).arrAt w cfg0.N) (Proc.devRef .tc main_v17)) :=
  run_region_read m ρ Variants.none (dats m) (fun c => ⟨rfl, rfl, rfl, rfl, rfl, rfl⟩) (A_eq m) (fun _ _ => rfl)
    (fun c => (body_obligation m c).loose) (hin m) (hout m)

/-- THE FRAME: @main runs, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1, (h c).2.1⟩) (run_read m ρ)

end Run

/-! ## The result as a function of the two output arrays -/

section Value

/-- What the lines after the region leave in the result buffer, from the two output arrays: each array summed over
    its rows, the first sum divided by the second clamped below at one, and zero in place of the quotient unless the
    second sum is positive. -/
def tailTerm (L Vd : Vec F S8192x1 .f32) : Vec F S_ .f32 :=
  select
    (cmpf .ogt
      (Host.reduceAdd (fun i => shapeCast S8192 Vd shapeCasts_S8192x1_S8192 i) (constant (F := F) S_ .f32 0x00000000#32) reducesTo_S8192_S_d0 h_S_)
      (constant (F := F) S_ .f32 0x00000000#32))
    (Host.divf
      (Host.reduceAdd (fun i => shapeCast S8192 L shapeCasts_S8192x1_S8192 i) (constant (F := F) S_ .f32 0x00000000#32) reducesTo_S8192_S_d0 h_S_)
      (maximumf
        (Host.reduceAdd (fun i => shapeCast S8192 Vd shapeCasts_S8192x1_S8192 i) (constant (F := F) S_ .f32 0x00000000#32) reducesTo_S8192_S_d0 h_S_)
        (constant (F := F) S_ .f32 0x3F800000#32)))
    (id (constant (F := F) S_ .f32 0x00000000#32))

/-- The lines after the region compute the result from the two output arrays and from nothing else. -/
theorem tail_result (Wv : Valuation τ sig (Elt F)) :
    StableHlo.after (List.flatten [hostOps1, hostOps1_1]) Wv (Proc.devRef .tc main_v17)
      = tailTerm (Wv (Proc.devRef .tc main_v9_0)) (Wv (Proc.devRef .tc main_v9_1)) := by
  simp only [hostOps1, hostOps1_1, List.flatten_cons, List.flatten_nil, List.append_nil, List.cons_append, List.nil_append]
  after_results
  all_goals rfl

/-- THE VALUE RUN: @main runs; the result holds `tailTerm` of what the proof data computes for the two output windows,
    and both argument arrays end as launched. -/
theorem run_value : θ_run defs (onTc (τ := τ) (main (F := F))) ⟨m, fun _ => 0, ρ⟩ (fun r => ∀ c : Dev nD,
      r.2.mem ((c.tc : Thread nD τ).loc main_v17) = tailTerm ((dats m 0 c).arrAt 6 cfg0.N) ((dats m 0 c).arrAt 7 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2.2.trans ((tail_result _).trans (by rw [exit_out0 m (dats m 0 c) (A_eq m c), exit_out1 m (dats m 0 c) (A_eq m c)])),
     (h c).1, (h c).2.1⟩) (run_read m ρ)

end Value

end Cert.Kernel.Hand

end
-- ==== Proof.KShared.lean ====
/-
  What the runs of the kernel body share: the contents of the TensorCore's buffers when the region is entered
  (after the host operations that compute the normalised weights and the squared norms), each window's block at a
  grid point read off its array, the two conditions of the body decided over the grid (the first column tile
  resets the two running extrema, the last one writes the row losses out), where the output windows are idle,
  and the staging and scratch memrefs the body is called with.
-/
import proofs.«137539_j22351009809014_2_alg».proof.Proof.Gen.KernelIdeal.Launch
import proofs.«137539_j22351009809014_2_alg».proof.Proof.Gen.KernelIdeal.Skeleton
import proofs.«137539_j22351009809014_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffer contents when the region is entered: after the fifteen host operations before it. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- The first column tile of a row block: the body resets the running maximum and minimum. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The last column tile of a row block: the body writes the row losses and the validity flags out. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6 : ∀ t : Fin cfg0.N, cond0_1 (grid0.coords t) → cfg0.idle 6 (grid0.coords t) = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The memrefs the body is called with -/

abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1 .f32 := win0_7.stage (cfg0.slots t 7)
abbrev hs0_7 (t : Fin cfg0.N) : (ms0_7 t).IsWhole := hstage0_7 ((cfg0.slots t 7).cast nbuf0_7)
/-- One staging buffer of each output window, through which its contents are stated. -/
abbrev VO0_6 : View sig .tc .vmem S1024x1 .f32 := (Memref.whole cc0_stg6_0 : Memref sig .tc .vmem S1024x1 .f32).view
abbrev VO0_7 : View sig .tc .vmem S1024x1 .f32 := (Memref.whole cc0_stg7_0 : Memref sig .tc .vmem S1024x1 .f32).view
/-- The two scratch operands: the running maximum and the running minimum of a row block. -/
abbrev scM0_0 : Memref sig .tc .vmem S1024x1 .f32 := Memref.whole cc0_scratch0
abbrev scM0_1 : Memref sig .tc .vmem S1024x1 .f32 := Memref.whole cc0_scratch1
abbrev VS0_0 : View sig .tc .vmem S1024x1 .f32 := scM0_0.view
abbrev VS0_1 : View sig .tc .vmem S1024x1 .f32 := scM0_1.view

/-- The region's plain invariant with the two scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KRunB.lean ====
/-
  The body of the kernel at a column tile that is neither the first nor the last of its row block: both running
  extrema are read, joined with the tile's masked maximum and minimum of the squared distances, and stored back;
  nothing is written to the two output windows.
-/
import proofs.«137539_j22351009809014_2_alg».proof.Proof.KShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple in the middle case, the pieces each scratch buffer ends with found by the run. -/
noncomputable def kernelRun0_B (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) :
    Σ' (L6 : List (View.Piece (Elt F) S1024x1 .f32)) (L7 : List (View.Piece (Elt F) S1024x1 .f32)) (LS0 : List (View.Piece (Elt F) S1024x1 .f32)), { LS1 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; iexact HS0
    iexists _; iexact HS1

end Cert.KernelIdeal.Hand

end
-- ==== Proof.KRunA.lean ====
/-
  The body of the kernel at the first column tile of a row block: the running maximum is reset to minus infinity
  and the running minimum to plus infinity, then both are joined with the tile's masked extrema of the squared
  distances; nothing is written to the two output windows.
-/
import proofs.«137539_j22351009809014_2_alg».proof.Proof.KRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple in the first case, the pieces each scratch buffer ends with found by the run. -/
noncomputable def kernelRun0_A (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x16 .f32) (x3 : Vec F S512x16 .f32) (x4 : Vec F S1024x1 .f32) (x5 : Vec F S1x512 .f32) :
    Σ' (L6 : List (View.Piece (Elt F) S1024x1 .f32)) (L7 : List (View.Piece (Elt F) S1024x1 .f32)) (LS0 : List (View.Piece (Elt F) S1024x1 .f32)), { LS1 : List (View.Piece (Elt F) S1024x1 .f32) //
      ∀ (xi6 xi7 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨[], [], ?_, ?_, fun xi6 xi7 E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]
    · iexists _; iexact HS0
    iexists _; iexact HS1

end Cert.KernelIdeal.Hand

end
-- ==== Proof.KRunC.lean ====
/-
  The body of the kernel at the last column tile of a row block: the running extrema are joined with the tile's
  masked extrema and stored back, and then read again to write out, per row, the hinge loss of the square roots of
  the clamped extrema and the 0/1 validity flag.
-/
import proofs.«137539_j22351009809014_2_alg».proof.Proof.KRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's triple in the last case, the pieces each output and scratch buffer ends with found by the run. -/
noncomputable def kernelRun0_C (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) :
    Σ' (L6 : List (View.Piece (Elt F) S1024x1 .f32)) (L7 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1)) -∗ K ⟨⟩))
          ⊢ wp frame (wpE (defs₀ (F := F)) Variants.none c none) E (cc0__triplet_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg10.eq_unread hfs0; obtain rfl := harg11.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    isplitl [H7]
    · iexists _; iexact H7
    isplitl [HS0]
    · iexists _; iexact HS0
    iexists _; iexact HS1

end Cert.KernelIdeal.Hand

end
-- ==== Proof.KFrame.lean ====
/-
  The proof data of the kernel region and its body obligation. After the body at a grid point the two scratch
  buffers hold the running maximum and minimum of the masked squared distances over the column tiles seen so far in
  the current row block; at the last column tile the two output windows hold the row losses and the validity flags.
  The invariant carries the scratch contents from point to point; the body obligation is the case's run.
-/
import proofs.«137539_j22351009809014_2_alg».proof.Proof.KRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A's pieces for scratch 0 cover it. -/
theorem scover0_A_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x16 .f32) (x3 : Vec F S512x16 .f32) (x4 : Vec F S1024x1 .f32) (x5 : Vec F S1x512 .f32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.1 S1024x1.size (by sl_kernel_rfl) y

/-- What case A leaves in scratch 0: its pieces read back. -/
def sout0_A_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x16 .f32) (x3 : Vec F S512x16 .f32) (x4 : Vec F S1024x1 .f32) (x5 : Vec F S1x512 .f32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4 x5).2.2.1)

/-- Case A's pieces for scratch 1 cover it. -/
theorem scover0_A_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x16 .f32) (x3 : Vec F S512x16 .f32) (x4 : Vec F S1024x1 .f32) (x5 : Vec F S1x512 .f32) (y : S1024x1.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4 x5).2.2.2.1 S1024x1.size (by sl_kernel_rfl) y

/-- What case A leaves in scratch 1: its pieces read back. -/
def sout0_A_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x16 .f32) (x3 : Vec F S512x16 .f32) (x4 : Vec F S1024x1 .f32) (x5 : Vec F S1x512 .f32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4 x5).2.2.2.1)

/-- Case B's pieces for scratch 0 cover it. -/
theorem scover0_B_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.1 S1024x1.size (by sl_kernel_rfl) y

/-- What case B leaves in scratch 0: its pieces read back. -/
def sout0_B_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case B's pieces for scratch 1 cover it. -/
theorem scover0_B_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) (y : S1024x1.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S1024x1.size (by sl_kernel_rfl) y

/-- What case B leaves in scratch 1: its pieces read back. -/
def sout0_B_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- Case C's pieces for scratch 0 cover it. -/
theorem scover0_C_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1 S1024x1.size (by sl_kernel_rfl) y

/-- What case C leaves in scratch 0: its pieces read back. -/
def sout0_C_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.1)

/-- Case C's pieces for scratch 1 cover it. -/
theorem scover0_C_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1 S1024x1.size (by sl_kernel_rfl) y

/-- What case C leaves in scratch 1: its pieces read back. -/
def sout0_C_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.2.2.1)

/-- Case C's pieces for output window 6 cover its block. -/
theorem cover0_C_6 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1 S1024x1.size (by sl_kernel_rfl) y

/-- What case C leaves in output window 6's staging buffer: its pieces read back. -/
def out0_C_6 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) : Vec F S1024x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).1)

/-- Case C's pieces for output window 7 cover its block. -/
theorem cover0_C_7 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) (y : S1024x1.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1 S1024x1.size (by sl_kernel_rfl) y

/-- What case C leaves in output window 7's staging buffer: its pieces read back. -/
def out0_C_7 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) : Vec F S1024x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 hc0 hc1 x0 x1 x2 x3 x4 x5 xs0 xs1).2.1)

/-- A placeholder for an output window at a point where the body stores nothing into it (never consulted). -/
def junk6 : Vec F S1024x1 .f32 := VO0_6.read (Elt F) VO0_6.junk
def junk7 : Vec F S1024x1 .f32 := VO0_7.read (Elt F) VO0_7.junk

/-! ## What the buffers hold after each point -/

/-- After the body at position `n`: output window 6's and 7's staging buffers and the two scratch buffers. The case is
    selected by the column tile (`n % 16`); from the second tile of a row block on the scratch buffers are read at
    what the point before left. -/
def outsAt0 (c : Dev nD) : (n : ℕ) → n < cfg0.N → Vec F S1024x1 .f32 × Vec F S1024x1 .f32 × Vec F S1024x1 .f32 × Vec F S1024x1 .f32
  | 0, hn => (junk6, junk7, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 16 = 0 then
      if h1 : (n + 1) % 16 = 15 then
        False.elim (by omega)
      else
        (junk6, junk7, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 16 = 15 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2)
      else
        (junk6, junk7, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 16 = 0) (h1 : ¬t.val % 16 = 15) :
    outsAt0 m c t.val t.isLt = (junk6, junk7, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = (junk6, junk7, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the start the region's plain invariant (both scratch buffers at anything); afterwards the two
    scratch buffers at what the point before left in them, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The proof data -/

/-- The proof data of the pipeline on core `c`: the arrays as the region finds them; after the body each input's buffer
    at its block, the outputs' at `outsAt0`; the tracking invariant; nothing owed. The two windows that read the
    embeddings share their array half and half, and so do the two windows that read the normalised weights. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4800000 in
/-- The body at any point: the inputs' memrefs hold their blocks; the column tile says which case the point is in; the
    invariant hands the body the two scratch buffers at what the point before left (at anything at the first point) and
    takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h0 : t.val % 16 = 0
  · have h1 : ¬t.val % 16 = 15 := by omega
    rw [Dat.leavesExact_idle (dats m 0 c) 6 t (idleAt0_6 t (fun h => h1 ((hcond0_1 t).mp h))) (noFlush0_6 t (fun h => h1 ((hcond0_1 t).mp h)))]
    rw [Dat.leavesExact_idle (dats m 0 c) 7 t (idleAt0_7 t (fun h => h1 ((hcond0_1 t).mp h))) (noFlush0_7 t (fun h => h1 ((hcond0_1 t).mp h)))]
    rw [outsAt0_A m c t h0 h1]
    unfold sout0_A_0 sout0_A_1; (try dsimp only)
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ )
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ )
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7
  · have hz : t.val ≠ 0 := fun e => h0 (by rw [e])
    by_cases h1 : t.val % 16 = 15
    · rw [show (dats m 0 c).leavesExact 6 t = owns (c : Thread nD τ) (ms0_6 t) fullShare ((dats m 0 c).after 6 t) from by
        unfold Dat.leavesExact; rw [liveAt0_6 t ((hcond0_1 t).mpr h1)], after0_6]
      rw [show (dats m 0 c).leavesExact 7 t = owns (c : Thread nD τ) (ms0_7 t) fullShare ((dats m 0 c).after 7 t) from by
        unfold Dat.leavesExact; rw [liveAt0_7 t ((hcond0_1 t).mpr h1)], after0_7]
      rw [outsAt0_C m c t h0 h1]
      unfold out0_C_6 out0_C_7 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ )
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _ _ )
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ )
    ·
      rw [Dat.leavesExact_idle (dats m 0 c) 6 t (idleAt0_6 t (fun h => h1 ((hcond0_1 t).mp h))) (noFlush0_6 t (fun h => h1 ((hcond0_1 t).mp h)))]
      rw [Dat.leavesExact_idle (dats m 0 c) 7 t (idleAt0_7 t (fun h => h1 ((hcond0_1 t).mp h))) (noFlush0_7 t (fun h => h1 ((hcond0_1 t).mp h)))]
      rw [outsAt0_B m c t h0 h1]
      unfold sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ )
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ )
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the plain one back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

end Cert.KernelIdeal.Hand

end
-- ==== Proof.KValue.lean ====
/-
  The values the body leaves, read back from the pieces the runs found: after a column tile the first scratch buffer
  holds the running maximum joined with the tile's masked maximum, the second the running minimum joined with the
  tile's masked minimum; at the first tile of a row block the running values are the two infinities; at the last
  tile the output windows hold the row loss and the validity flag computed from the two scratch buffers.
-/
import proofs.«137539_j22351009809014_2_alg».proof.Proof.KFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

theorem sout_B_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay8 i) (k0_pay9 x0 x1 x4 x5) (k0_pay10 x2 x3) (k0_pay11 (F := F)) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x128) hz, View.ld_unit_zero (S := S512x128) hz, View.ld_unit_zero (S := S1024x16) hz, View.ld_unit_zero (S := S512x16) hz, View.ld_unit_zero (S := S1024x1) hz, View.ld_unit_zero (S := S1x512) hz, View.readCov_unit_zero (S := S1024x1) _ hz]

theorem sout_B_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) :
    sout0_B_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay8 i) (k0_pay9 x0 x1 x4 x5) (k0_pay10 x2 x3) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x128) hz, View.ld_unit_zero (S := S512x128) hz, View.ld_unit_zero (S := S1024x16) hz, View.ld_unit_zero (S := S512x16) hz, View.ld_unit_zero (S := S1024x1) hz, View.ld_unit_zero (S := S1x512) hz, View.readCov_unit_zero (S := S1024x1) _ hz]

theorem sout_C_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 xs0 xs1 = k0_pay1 (k0_pay8 i) (k0_pay9 x0 x1 x4 x5) (k0_pay10 x2 x3) (k0_pay11 (F := F)) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x128) hz, View.ld_unit_zero (S := S512x128) hz, View.ld_unit_zero (S := S1024x16) hz, View.ld_unit_zero (S := S512x16) hz, View.ld_unit_zero (S := S1024x1) hz, View.ld_unit_zero (S := S1x512) hz, View.readCov_unit_zero (S := S1024x1) _ hz]

theorem sout_C_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) :
    sout0_C_1 c i arg2 harg2 arg3 harg3 arg4 harg4 arg5 harg5 arg6 harg6 arg7 harg7 arg8 harg8 arg9 harg9 arg10 harg10 arg11 harg11 hc0 hc1 x0 x1 x2 x3 x4 x5 xs0 xs1 = k0_pay2 (k0_pay8 i) (k0_pay9 x0 x1 x4 x5) (k0_pay10 x2 x3) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x128) hz, View.ld_unit_zero (S := S512x128) hz, View.ld_unit_zero (S := S1024x16) hz, View.ld_unit_zero (S := S512x16) hz, View.ld_unit_zero (S := S1024x1) hz, View.ld_unit_zero (S := S1x512) hz, View.readCov_unit_zero (S := S1024x1) _ hz]

theorem out_C_6 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) :
    out0_C_6 c i arg2 harg2 arg3 harg3 arg4 harg4 arg5 harg5 arg6 harg6 arg7 harg7 arg8 harg8 arg9 harg9 arg10 harg10 arg11 harg11 hc0 hc1 x0 x1 x2 x3 x4 x5 xs0 xs1 = k0_pay4 (k0_pay1 (k0_pay8 i) (k0_pay9 x0 x1 x4 x5) (k0_pay10 x2 x3) (k0_pay11 (F := F)) xs0) (k0_pay2 (k0_pay8 i) (k0_pay9 x0 x1 x4 x5) (k0_pay10 x2 x3) xs1) (k0_pay1 (k0_pay8 i) (k0_pay9 x0 x1 x4 x5) (k0_pay10 x2 x3) (k0_pay11 (F := F)) xs0) (k0_pay2 (k0_pay8 i) (k0_pay9 x0 x1 x4 x5) (k0_pay10 x2 x3) xs1) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x128) hz, View.ld_unit_zero (S := S512x128) hz, View.ld_unit_zero (S := S1024x16) hz, View.ld_unit_zero (S := S512x16) hz, View.ld_unit_zero (S := S1024x1) hz, View.ld_unit_zero (S := S1x512) hz, View.readCov_unit_zero (S := S1024x1) _ hz]

theorem out_C_7 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i)
    (x0 : Vec F S1024x128 .f32) (x1 : Vec F S512x128 .f32) (x2 : Vec F S1024x16 .f32) (x3 : Vec F S512x16 .f32) (x4 : Vec F S1024x1 .f32) (x5 : Vec F S1x512 .f32) (xs0 xs1 : Vec F S1024x1 .f32) :
    out0_C_7 c i arg2 harg2 arg3 harg3 arg4 harg4 arg5 harg5 arg6 harg6 arg7 harg7 arg8 harg8 arg9 harg9 arg10 harg10 arg11 harg11 hc0 hc1 x0 x1 x2 x3 x4 x5 xs0 xs1 = k0_pay5 (k0_pay1 (k0_pay8 i) (k0_pay9 x0 x1 x4 x5) (k0_pay10 x2 x3) (k0_pay11 (F := F)) xs0) (k0_pay2 (k0_pay8 i) (k0_pay9 x0 x1 x4 x5) (k0_pay10 x2 x3) xs1) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 xs0 xs1)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x128) hz, View.ld_unit_zero (S := S512x128) hz, View.ld_unit_zero (S := S1024x16) hz, View.ld_unit_zero (S := S512x16) hz, View.ld_unit_zero (S := S1024x1) hz, View.ld_unit_zero (S := S1x512) hz, View.readCov_unit_zero (S := S1024x1) _ hz]

theorem sout_A_0 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x16 .f32) (x3 : Vec F S512x16 .f32) (x4 : Vec F S1024x1 .f32) (x5 : Vec F S1x512 .f32) :
    sout0_A_0 c i arg2 harg2 arg3 harg3 arg4 harg4 arg5 harg5 arg6 harg6 arg7 harg7 arg8 harg8 arg9 harg9 arg10 harg10 arg11 harg11 hc0 hc1 x0 x1 x2 x3 x4 x5 = k0_pay1 (k0_pay8 i) (k0_pay9 x0 x1 x4 x5) (k0_pay10 x2 x3) (k0_pay11 (F := F)) (k0_pay6 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1024x1) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x128) hz, View.ld_unit_zero (S := S512x128) hz, View.ld_unit_zero (S := S1024x16) hz, View.ld_unit_zero (S := S512x16) hz, View.ld_unit_zero (S := S1024x1) hz, View.ld_unit_zero (S := S1x512) hz, View.readCov_unit_zero (S := S1024x1) _ hz]

theorem sout_A_1 (c : Dev nD) (i : grid0.Coords) (arg2 : Memref sig .tc .vmem S1024x128 .f32) (harg2 : arg2.IsWhole) (arg3 : Memref sig .tc .vmem S512x128 .f32) (harg3 : arg3.IsWhole) (arg4 : Memref sig .tc .vmem S1024x16 .f32) (harg4 : arg4.IsWhole) (arg5 : Memref sig .tc .vmem S512x16 .f32) (harg5 : arg5.IsWhole) (arg6 : Memref sig .tc .vmem S1024x1 .f32) (harg6 : arg6.IsWhole) (arg7 : Memref sig .tc .vmem S1x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i)
    (x0 : Vec F S1024x128 .f32) (x1 : Vec F S512x128 .f32) (x2 : Vec F S1024x16 .f32) (x3 : Vec F S512x16 .f32) (x4 : Vec F S1024x1 .f32) (x5 : Vec F S1x512 .f32) :
    sout0_A_1 c i arg2 harg2 arg3 harg3 arg4 harg4 arg5 harg5 arg6 harg6 arg7 harg7 arg8 harg8 arg9 harg9 arg10 harg10 arg11 harg11 hc0 hc1 x0 x1 x2 x3 x4 x5 = k0_pay2 (k0_pay8 i) (k0_pay9 x0 x1 x4 x5) (k0_pay10 x2 x3) (k0_pay7 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S1024x1) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x128) hz, View.ld_unit_zero (S := S512x128) hz, View.ld_unit_zero (S := S1024x16) hz, View.ld_unit_zero (S := S512x16) hz, View.ld_unit_zero (S := S1024x1) hz, View.ld_unit_zero (S := S1x512) hz, View.readCov_unit_zero (S := S1024x1) _ hz]

end Cert.KernelIdeal.Hand

end
-- ==== Proof.KRecur.lean ====
/-
  The recurrence of the two running extrema over the grid points: at the first column tile of a row block each is the
  tile's masked extremum joined with the infinity it was reset to; at every later tile it is the tile's masked extremum
  joined with what the point before left; and at the last tile the two output windows are computed from the two.
-/
import proofs.«137539_j22351009809014_2_alg».proof.Proof.KValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The running maximum after point `t`. -/
abbrev runMax (c : Dev nD) (t : Fin cfg0.N) : Vec F S1024x1 .f32 := (outsAt0 m c t.val t.isLt).2.2.1
/-- The running minimum after point `t`. -/
abbrev runMin (c : Dev nD) (t : Fin cfg0.N) : Vec F S1024x1 .f32 := (outsAt0 m c t.val t.isLt).2.2.2
/-- The point before `t`. -/
abbrev prevPt (t : Fin cfg0.N) : Fin cfg0.N := ⟨t.val - 1, Nat.lt_of_le_of_lt (Nat.sub_le _ _) t.isLt⟩

theorem runMax_first (c : Dev nD) (t : Fin cfg0.N) (h0 : t.val % 16 = 0) :
    runMax m c t = k0_pay1 (k0_pay8 (grid0.coords t)) (k0_pay9 (iblk m c 0 t) (iblk m c 1 t) (iblk m c 4 t) (iblk m c 5 t)) (k0_pay10 (iblk m c 2 t) (iblk m c 3 t)) (k0_pay11 (F := F)) (k0_pay6 (F := F)) := by
  have h1 : ¬t.val % 16 = 15 := by omega
  unfold runMax
  rw [outsAt0_A m c t h0 h1]
  dsimp only
  rw [sout_A_0]

theorem runMin_first (c : Dev nD) (t : Fin cfg0.N) (h0 : t.val % 16 = 0) :
    runMin m c t = k0_pay2 (k0_pay8 (grid0.coords t)) (k0_pay9 (iblk m c 0 t) (iblk m c 1 t) (iblk m c 4 t) (iblk m c 5 t)) (k0_pay10 (iblk m c 2 t) (iblk m c 3 t)) (k0_pay7 (F := F)) := by
  have h1 : ¬t.val % 16 = 15 := by omega
  unfold runMin
  rw [outsAt0_A m c t h0 h1]
  dsimp only
  rw [sout_A_1]

theorem runMax_next (c : Dev nD) (t : Fin cfg0.N) (h0 : ¬t.val % 16 = 0) :
    runMax m c t = k0_pay1 (k0_pay8 (grid0.coords t)) (k0_pay9 (iblk m c 0 t) (iblk m c 1 t) (iblk m c 4 t) (iblk m c 5 t)) (k0_pay10 (iblk m c 2 t) (iblk m c 3 t)) (k0_pay11 (F := F)) (runMax m c (prevPt t)) := by
  unfold runMax
  by_cases h1 : t.val % 16 = 15
  · rw [outsAt0_C m c t h0 h1]; dsimp only; rw [sout_C_0]
  · rw [outsAt0_B m c t h0 h1]; dsimp only; rw [sout_B_0]

theorem runMin_next (c : Dev nD) (t : Fin cfg0.N) (h0 : ¬t.val % 16 = 0) :
    runMin m c t = k0_pay2 (k0_pay8 (grid0.coords t)) (k0_pay9 (iblk m c 0 t) (iblk m c 1 t) (iblk m c 4 t) (iblk m c 5 t)) (k0_pay10 (iblk m c 2 t) (iblk m c 3 t)) (runMin m c (prevPt t)) := by
  unfold runMin
  by_cases h1 : t.val % 16 = 15
  · rw [outsAt0_C m c t h0 h1]; dsimp only; rw [sout_C_1]
  · rw [outsAt0_B m c t h0 h1]; dsimp only; rw [sout_B_1]

theorem out6_last (c : Dev nD) (t : Fin cfg0.N) (h1 : t.val % 16 = 15) :
    (outsAt0 m c t.val t.isLt).1 = k0_pay4 (runMax m c t) (runMin m c t) (runMax m c t) (runMin m c t) := by
  have h0 : ¬t.val % 16 = 0 := by omega
  unfold runMax runMin
  rw [outsAt0_C m c t h0 h1]
  dsimp only
  rw [out_C_6, sout_C_0, sout_C_1]

theorem out7_last (c : Dev nD) (t : Fin cfg0.N) (h1 : t.val % 16 = 15) :
    (outsAt0 m c t.val t.isLt).2.1 = k0_pay5 (runMax m c t) (runMin m c t) := by
  have h0 : ¬t.val % 16 = 0 := by omega
  unfold runMax runMin
  rw [outsAt0_C m c t h0 h1]
  dsimp only
  rw [out_C_7, sout_C_0, sout_C_1]

end Cert.KernelIdeal.Hand

end
-- ==== Proof.KBlocks.lean ====
/-
  The blocks the pipeline hands the body, read at coordinates. Point `t` of the 8 × 16 grid is row block `t / 16` and
  column tile `t % 16`: the row windows (embeddings, weights, squared norms as a column, and the two outputs) sit at
  rows `1024 (t / 16) + p`, the column windows (embeddings, weights, squared norms as a row) at `512 (t % 16) + q`.
  And the arrays those windows read are what the host operations before the region computed from the two arguments.
-/
import proofs.«137539_j22351009809014_2_alg».proof.Proof.KShared
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-! ## The index maps over the grid -/
theorem idx0_0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
theorem idx0_1 : ∀ t : Fin cfg0.N, win0_1.index t (0 : Fin 2) = t.val % 16 ∧ win0_1.index t (1 : Fin 2) = 0 :=
  (by decide +kernel : ∀ t : Fin grid0.N, win0_1.index t (0 : Fin 2) = t.val % 16 ∧ win0_1.index t (1 : Fin 2) = 0)
theorem idx0_2 : ∀ t : Fin cfg0.N, win0_2.index t (0 : Fin 2) = t.val / 16 ∧ win0_2.index t (1 : Fin 2) = 0 :=
  (by decide +kernel : ∀ t : Fin grid0.N, win0_2.index t (0 : Fin 2) = t.val / 16 ∧ win0_2.index t (1 : Fin 2) = 0)
theorem idx0_3 : ∀ t : Fin cfg0.N, win0_3.index t (0 : Fin 2) = t.val % 16 ∧ win0_3.index t (1 : Fin 2) = 0 :=
  (by decide +kernel : ∀ t : Fin grid0.N, win0_3.index t (0 : Fin 2) = t.val % 16 ∧ win0_3.index t (1 : Fin 2) = 0)
theorem idx0_4 : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)
theorem idx0_5 : ∀ t : Fin cfg0.N, win0_5.index t (0 : Fin 2) = 0 ∧ win0_5.index t (1 : Fin 2) = t.val % 16 :=
  (by decide +kernel : ∀ t : Fin grid0.N, win0_5.index t (0 : Fin 2) = 0 ∧ win0_5.index t (1 : Fin 2) = t.val % 16)
theorem idx0_6 : ∀ t : Fin cfg0.N, win0_6.index t (0 : Fin 2) = t.val / 16 ∧ win0_6.index t (1 : Fin 2) = 0 :=
  (by decide +kernel : ∀ t : Fin grid0.N, win0_6.index t (0 : Fin 2) = t.val / 16 ∧ win0_6.index t (1 : Fin 2) = 0)
theorem idx0_7 : ∀ t : Fin cfg0.N, win0_7.index t (0 : Fin 2) = t.val / 16 ∧ win0_7.index t (1 : Fin 2) = 0 :=
  (by decide +kernel : ∀ t : Fin grid0.N, win0_7.index t (0 : Fin 2) = t.val / 16 ∧ win0_7.index t (1 : Fin 2) = 0)

/-! ## The input blocks at coordinates -/

theorem iblk0_apply (c : Dev nD) (t : Fin cfg0.N) (p : Fin 1024) (d : Fin 128) (r : Fin 8192) (hr : r.val = 1024 * (t.val / 16) + p.val) :
    (iblk m c 0 t : Vec F S1024x128 .f32) (ix2 p d) = (V m c main_arg0 : S8192x128.Idx → Elt F .f32) (ix2 r d) := by
  have hi := idx0_0 t
  unfold iblk
  rw [View.read_apply]
  show V m c main_arg0 _ = V m c main_arg0 _
  congr 1
  funext a
  apply Fin.ext
  match a with
  | ⟨0, _⟩ => show win0_0.index t 0 * 1024 + 1 * p.val = r.val; rw [hi.1, hr]; omega
  | ⟨1, _⟩ => show win0_0.index t 1 * 128 + 1 * d.val = d.val; rw [hi.2]; omega

theorem iblk1_apply (c : Dev nD) (t : Fin cfg0.N) (q : Fin 512) (d : Fin 128) (r : Fin 8192) (hr : r.val = 512 * (t.val % 16) + q.val) :
    (iblk m c 1 t : Vec F S512x128 .f32) (ix2 q d) = (V m c main_arg0 : S8192x128.Idx → Elt F .f32) (ix2 r d) := by
  have hi := idx0_1 t
  unfold iblk
  rw [View.read_apply]
  show V m c main_arg0 _ = V m c main_arg0 _
  congr 1
  funext a
  apply Fin.ext
  match a with
  | ⟨0, _⟩ => show win0_1.index t 0 * 512 + 1 * q.val = r.val; rw [hi.1, hr]; omega
  | ⟨1, _⟩ => show win0_1.index t 1 * 128 + 1 * d.val = d.val; rw [hi.2]; omega

theorem iblk2_apply (c : Dev nD) (t : Fin cfg0.N) (p : Fin 1024) (e : Fin 16) (r : Fin 8192) (hr : r.val = 1024 * (t.val / 16) + p.val) :
    (iblk m c 2 t : Vec F S1024x16 .f32) (ix2 p e) = (V m c main_v4 : S8192x16.Idx → Elt F .f32) (ix2 r e) := by
  have hi := idx0_2 t
  unfold iblk
  rw [View.read_apply]
  show V m c main_v4 _ = V m c main_v4 _
  congr 1
  funext a
  apply Fin.ext
  match a with
  | ⟨0, _⟩ => show win0_2.index t 0 * 1024 + 1 * p.val = r.val; rw [hi.1, hr]; omega
  | ⟨1, _⟩ => show win0_2.index t 1 * 16 + 1 * e.val = e.val; rw [hi.2]; omega

theorem iblk3_apply (c : Dev nD) (t : Fin cfg0.N) (q : Fin 512) (e : Fin 16) (r : Fin 8192) (hr : r.val = 512 * (t.val % 16) + q.val) :
    (iblk m c 3 t : Vec F S512x16 .f32) (ix2 q e) = (V m c main_v4 : S8192x16.Idx → Elt F .f32) (ix2 r e) := by
  have hi := idx0_3 t
  unfold iblk
  rw [View.read_apply]
  show V m c main_v4 _ = V m c main_v4 _
  congr 1
  funext a
  apply Fin.ext
  match a with
  | ⟨0, _⟩ => show win0_3.index t 0 * 512 + 1 * q.val = r.val; rw [hi.1, hr]; omega
  | ⟨1, _⟩ => show win0_3.index t 1 * 16 + 1 * e.val = e.val; rw [hi.2]; omega

theorem iblk4_apply (c : Dev nD) (t : Fin cfg0.N) (p : Fin 1024) (r : Fin 8192) (hr : r.val = 1024 * (t.val / 16) + p.val) :
    (iblk m c 4 t : Vec F S1024x1 .f32) (ix2 p (0 : Fin 1)) = (V m c main_v7 : S8192x1.Idx → Elt F .f32) (ix2 r (0 : Fin 1)) := by
  have hi := idx0_4 t
  unfold iblk
  rw [View.read_apply]
  show V m c main_v7 _ = V m c main_v7 _
  congr 1
  funext a
  apply Fin.ext
  match a with
  | ⟨0, _⟩ => show win0_4.index t 0 * 1024 + 1 * p.val = r.val; rw [hi.1, hr]; omega
  | ⟨1, _⟩ => show win0_4.index t 1 * 1 + 1 * 0 = 0; rw [hi.2]

theorem iblk5_apply (c : Dev nD) (t : Fin cfg0.N) (q : Fin 512) (k : Fin 8192) (hk : k.val = 512 * (t.val % 16) + q.val) :
    (iblk m c 5 t : Vec F S1x512 .f32) (ix2 (0 : Fin 1) q) = (V m c main_v8 : S1x8192.Idx → Elt F .f32) (ix2 (0 : Fin 1) k) := by
  have hi := idx0_5 t
  unfold iblk
  rw [View.read_apply]
  show V m c main_v8 _ = V m c main_v8 _
  congr 1
  funext a
  apply Fin.ext
  match a with
  | ⟨0, _⟩ => show win0_5.index t 0 * 1 + 1 * 0 = 0; rw [hi.1]
  | ⟨1, _⟩ => show win0_5.index t 1 * 512 + 1 * q.val = k.val; rw [hi.2, hk]; omega

/-! ## The arrays the windows read, as the host operations before the region leave them -/

theorem V_main_arg0 (c : Dev nD) : V m c main_arg0 = m ((c : Thread nD τ).loc main_arg0) := by
  dsimp only [V, V0]
  simp only [hostOps0, hostOps0_1, List.flatten_cons, List.flatten_nil, List.append_nil, List.cons_append, List.nil_append]
  after_results

theorem V_main_arg1 (c : Dev nD) : V m c main_arg1 = m ((c : Thread nD τ).loc main_arg1) := by
  dsimp only [V, V0]
  simp only [hostOps0, hostOps0_1, List.flatten_cons, List.flatten_nil, List.append_nil, List.cons_append, List.nil_append]
  after_results

/-- The normalised weights: each row of the second argument divided by the larger of its Euclidean norm and a floor. -/
theorem V_main_v4 (c : Dev nD) :
    (V m c main_v4 : S8192x16.Idx → Elt F .f32)
      = Host.divf (m ((c : Thread nD τ).loc main_arg1))
          (broadcastInDim S8192x16 ![0, 1] bcast_S8192x1_S8192x16_0_1
            (maximumf (Host.sqrt (broadcastInDim S8192x1 ![0] bcast_S8192_S8192x1_0
                (Host.reduceAdd (mulf (m ((c : Thread nD τ).loc main_arg1)) (m ((c : Thread nD τ).loc main_arg1))) (constant (F := F) S_ .f32 0x00000000#32) reducesTo_S8192x16_S8192_d1 h_S_)))
              (broadcastInDim S8192x1 ![] bcast_S_S8192x1 (constant (F := F) S_ .f32 0x322BCC77#32)))) := by
  dsimp only [V, V0]
  simp only [hostOps0, hostOps0_1, List.flatten_cons, List.flatten_nil, List.append_nil, List.cons_append, List.nil_append]
  after_results; rfl

/-- The squared norms of the first argument's rows, as a column. -/
theorem V_main_v7 (c : Dev nD) :
    (V m c main_v7 : S8192x1.Idx → Elt F .f32)
      = shapeCast S8192x1 (Host.reduceAdd (mulf (m ((c : Thread nD τ).loc main_arg0)) (m ((c : Thread nD τ).loc main_arg0))) (constant (F := F) S_ .f32 0x00000000#32) reducesTo_S8192x128_S8192_d1 h_S_) shapeCasts_S8192_S8192x1 := by
  dsimp only [V, V0]
  simp only [hostOps0, hostOps0_1, List.flatten_cons, List.flatten_nil, List.append_nil, List.cons_append, List.nil_append]
  after_results; rfl

/-- The same squared norms, as a row. -/
theorem V_main_v8 (c : Dev nD) :
    (V m c main_v8 : S1x8192.Idx → Elt F .f32)
      = shapeCast S1x8192 (Host.reduceAdd (mulf (m ((c : Thread nD τ).loc main_arg0)) (m ((c : Thread nD τ).loc main_arg0))) (constant (F := F) S_ .f32 0x00000000#32) reducesTo_S8192x128_S8192_d1 h_S_) shapeCasts_S8192_S1x8192 := by
  dsimp only [V, V0]
  simp only [hostOps0, hostOps0_1, List.flatten_cons, List.flatten_nil, List.append_nil, List.cons_append, List.nil_append]
  after_results; rfl

end Cert.KernelIdeal.Hand

end
-- ==== Proof.TripletSpec.lean ====
/-
  Batch-hard triplet mining over expert-weight similarity, as one function of the two argument arrays, on the
  extended reals.

  The arguments are the embeddings `x : [8192, 128]` and the expert weights `w : [8192, 16]`.  Every row `r` of `w` is
  divided by `max ‖w r‖ ε`; `sim r k` is the inner product of two normalised rows (their cosine similarity).  A
  column `k ≠ r` is a POSITIVE of row `r` when `sim r k` is above the upper threshold, a NEGATIVE when it is below the
  lower one.  The distance of two embedding rows is `dist r k = √(max (|x r|² + |x k|² - 2·⟨x r, x k⟩) 0)`.  The hardest
  positive of a row is the largest distance to one of its positives, the hardest negative the smallest distance to one of
  its negatives; a row is VALID when it has at least one of each, and then its loss is
  `max (hardestPos - hardestNeg + margin) 0`.  The result is the mean of the row losses over the valid rows, and `0`
  when no row is valid.

  Nothing here mentions a program: indices are built from coordinates, the two infinities are `⊥` and `⊤`, zero and
  one are the numbers, and the five float literals that are not evaluated anywhere (`ε`, `2`, the two thresholds, the
  margin) stay the binary words the programs print, read as extended reals.
-/
import Idealize.ShloMosaic.PureOps.Ideal
import Idealize.ShloMosaic.Lib.ValueIdx

noncomputable section

open scoped BigOperators

namespace Cert.Triplet.Spec

open Idealize.ShloMosaic Idealize.ShloMosaic.ValueIdx

/-- An embeddings array: 8192 rows of 128 extended reals. -/
abbrev Emb : Type := (⟨2, ![8192, 128]⟩ : Shape).Idx → EReal
/-- An expert-weights array: 8192 rows of 16 extended reals. -/
abbrev Wts : Type := (⟨2, ![8192, 16]⟩ : Shape).Idx → EReal

/-! ## The literals that are never evaluated -/

/-- The floor under a row norm (the float nearest `1e-8`). -/
def eps : EReal := Ideal.ofBits .f32 0x322BCC77#32
/-- The factor of the inner product in a squared distance (the float `2`). -/
def two : EReal := Ideal.ofBits .f32 0x40000000#32
/-- The similarity above which a column is a positive (the float nearest `0.7`). -/
def posThresh : EReal := Ideal.ofBits .f32 0x3F333333#32
/-- The similarity below which a column is a negative (the float nearest `0.3`). -/
def negThresh : EReal := Ideal.ofBits .f32 0x3E99999A#32
/-- The margin of the triplet loss (the float `0.5`). -/
def margin : EReal := Ideal.ofBits .f32 0x3F000000#32

/-- The float pattern of `-∞` is the bottom of the extended reals. -/
theorem negInf_eq_bot : Ideal.ofBits .f32 0xFF800000#32 = (⊥ : EReal) := by simp [Ideal.ofBits, Ideal.ieee]
/-- The float pattern of `+∞` is the top of the extended reals. -/
theorem posInf_eq_top : Ideal.ofBits .f32 0x7F800000#32 = (⊤ : EReal) := by simp [Ideal.ofBits, Ideal.ieee]

/-! ## Cosine similarity of the expert weights -/

/-- The squared Euclidean norm of row `r` of the weights. -/
def normSq (w : Wts) (r : Fin 8192) : EReal := ∑ e : Fin 16, w (ix2 r e) * w (ix2 r e)
/-- The norm of row `r`, kept away from zero by `ε`. -/
def norm (w : Wts) (r : Fin 8192) : EReal := max (Ideal.sqrt (normSq w r)) eps
/-- Entry `e` of the normalised row `r`. -/
def ewn (w : Wts) (r : Fin 8192) (e : Fin 16) : EReal := Ideal.div (w (ix2 r e)) (norm w r)
/-- The similarity of rows `r` and `k`: the inner product of the two normalised rows. -/
def sim (w : Wts) (r k : Fin 8192) : EReal := ∑ e : Fin 16, ewn w r e * ewn w k e

/-! ## Pairwise distances of the embeddings -/

/-- The squared Euclidean norm of row `r` of the embeddings. -/
def sq (x : Emb) (r : Fin 8192) : EReal := ∑ d : Fin 128, x (ix2 r d) * x (ix2 r d)
/-- The inner product of rows `r` and `k` of the embeddings. -/
def dot (x : Emb) (r k : Fin 8192) : EReal := ∑ d : Fin 128, x (ix2 r d) * x (ix2 k d)
/-- The squared distance of rows `r` and `k`, by the polarisation identity. -/
def sd (x : Emb) (r k : Fin 8192) : EReal := sq x r + sq x k - two * dot x r k
/-- The distance of rows `r` and `k`: the root of the squared distance clamped at zero. -/
def dist (x : Emb) (r k : Fin 8192) : EReal := Ideal.sqrt (max (sd x r k) 0)

/-! ## The masks -/

/-- Column `k` is a positive of row `r`: another row, more similar than the upper threshold. -/
def Pos (w : Wts) (r k : Fin 8192) : Prop := posThresh < sim w r k ∧ r ≠ k
/-- Column `k` is a negative of row `r`: another row, less similar than the lower threshold. -/
def Neg (w : Wts) (r k : Fin 8192) : Prop := sim w r k < negThresh ∧ r ≠ k
/-- Row `r` is valid: it has a positive and a negative. -/
def Valid (w : Wts) (r : Fin 8192) : Prop := (∃ k, Pos w r k) ∧ (∃ k, Neg w r k)

/-! ## Mining, row by row -/

open Classical in
/-- The largest distance from row `r` to one of its positives (`⊥` when it has none). -/
def hardestPos (x : Emb) (w : Wts) (r : Fin 8192) : EReal :=
  Finset.univ.sup fun k : Fin 8192 => if Pos w r k then dist x r k else ⊥

open Classical in
/-- The smallest distance from row `r` to one of its negatives (`⊤` when it has none). -/
def hardestNeg (x : Emb) (w : Wts) (r : Fin 8192) : EReal :=
  Finset.univ.inf fun k : Fin 8192 => if Neg w r k then dist x r k else ⊤

open Classical in
/-- The loss of row `r`: the hinge of hardest positive minus hardest negative plus the margin, for a valid row; zero
    for the others. -/
def rowLoss (x : Emb) (w : Wts) (r : Fin 8192) : EReal :=
  if Valid w r then max (hardestPos x w r - hardestNeg x w r + margin) 0 else 0

open Classical in
/-- Validity of row `r` as a number: one for a valid row, zero for the others. -/
def validF (w : Wts) (r : Fin 8192) : EReal := if Valid w r then 1 else 0

/-! ## The mean over the valid rows -/

/-- The number of valid rows. -/
def count (w : Wts) : EReal := ∑ r : Fin 8192, validF w r
/-- The sum of the row losses. -/
def sumLoss (x : Emb) (w : Wts) : EReal := ∑ r : Fin 8192, rowLoss x w r

open Classical in
/-- The triplet loss: the mean row loss over the valid rows (the quotient is the extended reals' division with its
    conventions at zero and the infinities; the divisor is at least one), and zero when no row is valid. -/
def loss (x : Emb) (w : Wts) : EReal :=
  if 0 < count w then Ideal.div (sumLoss x w) (max (count w) 1) else 0

end Cert.Triplet.Spec

end
-- ==== Proof.HostPrelude.lean ====
/-
  The host operations both programs run around the pairwise mining, read at an index on the extended reals.

  Before the mining both programs normalise the expert weights (each row divided by `max ‖row‖ ε`, the norm the
  square root of a row's sum of squares) and sum the squares of each embedding row; after it both take the mean of
  the row losses over the valid rows.  Here each of these is identified with the specification's function of the
  argument arrays: `Spec.ewn`, `Spec.sq`, and the outer shape of `Spec.loss` as a function of the two row vectors.
  The statements take the shape side conditions as arbitrary hypotheses, so they apply to either program's text.
-/
import proofs.«137539_j22351009809014_2_alg».proof.Proof.RefReadP
import proofs.«137539_j22351009809014_2_alg».proof.Proof.TripletSpec
import Idealize.ShloMosaic.Lib.IdealHost
import Idealize.ShloMosaic.PureOps.Ideal.Laws

noncomputable section

open scoped BigOperators

namespace Cert.Triplet.HostPrelude

open Cert.ReferenceIdeal Cert.ReferenceIdeal.Gen Cert.ReferenceIdeal.ReadP Idealize.ShloMosaic Idealize.ShloMosaic.ValueIdx
open Cert.Triplet

/-! ## Index equations: the composed index functions of the stages, at coordinates -/

theorem i_call0_v1 (r : Fin 8192) (e : Fin 16) : idx_main_call0_v1 (ix1 r) e = ix2 r e :=
  funext fun a => Fin.ext (by match a with | ⟨0, _⟩ => rfl | ⟨1, _⟩ => rfl)
theorem i_v3 (r : Fin 8192) (e : Fin 16) : idx_main_call0_v2 (idx_main_v3 (ix2 r e)) = ix1 r :=
  funext fun a => Fin.ext (by match a with | ⟨0, _⟩ => rfl)
theorem i_v8 (r : Fin 8192) (d : Fin 128) : idx_main_v8 (ix1 r) d = ix2 r d :=
  funext fun a => Fin.ext (by match a with | ⟨0, _⟩ => rfl | ⟨1, _⟩ => rfl)

/-! ## The normalised weights and the squared row norms, as stages of the reference -/

/-- A row's sum of squares from the initial value zero is the specification's `normSq`. -/
theorem normSq_eq (x1 : Spec.Wts) (r : Fin 8192) :
    val_main_call0_v1 (F := Ideal) x1 (ix1 r) = Spec.normSq x1 r := by
  rw [val_main_call0_v1_apply]
  simp only [i_call0_v1, val_main_call0_v0_apply, val_main_call0_cst_apply, Ideal.ofBits_def, Ideal.mulf_def,
    Ideal.ofBits_zero_f32, zero_add]
  rfl

/-- The weights divided by the floored row norm are the specification's `ewn`. -/
theorem ewn_eq (x1 : Spec.Wts) (r : Fin 8192) (e : Fin 16) :
    val_main_v4 (F := Ideal) x1 (ix2 r e) = Spec.ewn x1 r e := by
  rw [val_main_v4_apply, val_main_v3_apply, val_main_v2_apply, val_main_v0_apply, val_main_call0_v2_apply, i_v3,
    normSq_eq, val_main_v1_apply, val_main_cst_apply]
  rfl

/-- An embedding row's sum of squares from the initial value zero is the specification's `sq`. -/
theorem sq_eq (x0 : Spec.Emb) (r : Fin 8192) : val_main_v8 (F := Ideal) x0 (ix1 r) = Spec.sq x0 r := by
  rw [val_main_v8_apply]
  simp only [i_v8, val_main_v7_apply, val_main_cst_0_apply, Ideal.ofBits_def, Ideal.mulf_def, Ideal.ofBits_zero_f32,
    zero_add]
  rfl

/-! ## The same, stated on the operations themselves -/

/-- The normalised weights, as the composed host operations at an entry. -/
theorem ewn_ops (a1 : Spec.Wts)
    (hb1 : (⟨2, ![8192, 1]⟩ : Shape).BroadcastsInDim ⟨2, ![8192, 16]⟩ (![0, 1] : Fin 2 → Fin 2))
    (hb2 : (⟨1, ![8192]⟩ : Shape).BroadcastsInDim ⟨2, ![8192, 1]⟩ (![0] : Fin 1 → Fin 2))
    (hb3 : (⟨0, ![]⟩ : Shape).BroadcastsInDim ⟨2, ![8192, 1]⟩ (![] : Fin 0 → Fin 2))
    (hr1 : (⟨2, ![8192, 16]⟩ : Shape).ReducesTo [1] ⟨1, ![8192]⟩) (hS : 0 < (⟨0, ![]⟩ : Shape).numel)
    (r : Fin 8192) (e : Fin 16) :
    Host.divf (F := Ideal) (φ := .f32) a1 (broadcastInDim ⟨2, ![8192, 16]⟩ ![0, 1] hb1
      (maximumf (Host.sqrt (broadcastInDim ⟨2, ![8192, 1]⟩ ![0] hb2
          (Host.reduceAdd (mulf a1 a1) (constant ⟨0, ![]⟩ .f32 0x00000000#32) hr1 hS)))
        (broadcastInDim ⟨2, ![8192, 1]⟩ ![] hb3 (constant ⟨0, ![]⟩ .f32 0x322BCC77#32)))) (ix2 r e)
      = Spec.ewn a1 r e :=
  ewn_eq a1 r e

/-- The squared row norms of the embeddings, as the host's sum at a row. -/
theorem sq_ops (a0 : Spec.Emb)
    (hr2 : (⟨2, ![8192, 128]⟩ : Shape).ReducesTo [1] ⟨1, ![8192]⟩) (hS : 0 < (⟨0, ![]⟩ : Shape).numel) (r : Fin 8192) :
    Host.reduceAdd (F := Ideal) (φ := .f32) (mulf a0 a0) (constant ⟨0, ![]⟩ .f32 0x00000000#32) hr2 hS (ix1 r)
      = Spec.sq a0 r :=
  sq_eq a0 r

/-! ## The mean over the valid rows -/

/-- A rank-1 index set of extent 8192 is its coordinate range … -/
def idxEquiv1 : (⟨1, ![8192]⟩ : Shape).Idx ≃ Fin 8192 where
  toFun j := j 0
  invFun := ix1
  left_inv j := (eq_ix1 j).symm
  right_inv _ := rfl

/-- … so a sum over it is the sum over the coordinate. -/
theorem sum_idx1 (f : (⟨1, ![8192]⟩ : Shape).Idx → EReal) : ∑ j, f j = ∑ r : Fin 8192, f (ix1 r) :=
  (Equiv.sum_comp idxEquiv1.symm f).symm

/-- The host's sum of a vector of 8192 entries into a scalar, from the initial value zero, is the sum of its entries. -/
theorem total_sum (V : (⟨1, ![8192]⟩ : Shape).Idx → EReal)
    (hr3 : (⟨1, ![8192]⟩ : Shape).ReducesTo [0] ⟨0, ![]⟩) (hS : 0 < (⟨0, ![]⟩ : Shape).numel)
    (i : (⟨0, ![]⟩ : Shape).Idx) :
    Host.reduceAdd (F := Ideal) (φ := .f32) V (constant ⟨0, ![]⟩ .f32 0x00000000#32) hr3 hS i
      = ∑ r : Fin 8192, V (ix1 r) := by
  simp only [Host.reduceAdd, Ideal.hostReduceAdd_def]
  rw [Ideal.hostReduceAdd_total hr3 (fun b => b.elim0) V _ i, sum_idx1]
  show Ideal.ofBits .f32 0x00000000#32 + _ = _
  rw [Ideal.ofBits_zero_f32, zero_add]

/-- The host tail both programs end with: from the vector `L` of row losses and the vector `V` of the rows'
    validity as numbers, the quotient of the two sums (the divisor floored at one) when the second sum is positive,
    and zero otherwise. -/
theorem mean_ops (L V : (⟨1, ![8192]⟩ : Shape).Idx → EReal)
    (hr3 : (⟨1, ![8192]⟩ : Shape).ReducesTo [0] ⟨0, ![]⟩) (hS : 0 < (⟨0, ![]⟩ : Shape).numel) :
    select (cmpf (F := Ideal) (φ := .f32) .ogt
        (Host.reduceAdd V (constant ⟨0, ![]⟩ .f32 0x00000000#32) hr3 hS) (constant ⟨0, ![]⟩ .f32 0x00000000#32))
      (Host.divf (F := Ideal) (φ := .f32) (Host.reduceAdd L (constant ⟨0, ![]⟩ .f32 0x00000000#32) hr3 hS)
        (maximumf (Host.reduceAdd V (constant ⟨0, ![]⟩ .f32 0x00000000#32) hr3 hS)
          (constant ⟨0, ![]⟩ .f32 0x3F800000#32)))
      (id (constant (F := Ideal) ⟨0, ![]⟩ .f32 0x00000000#32)) ix0
    = if 0 < ∑ r : Fin 8192, V (ix1 r) then Ideal.div (∑ r : Fin 8192, L (ix1 r)) (max (∑ r : Fin 8192, V (ix1 r)) 1)
      else 0 := by
  show Scalar.select
      (Ideal.cmp .ogt (Host.reduceAdd (F := Ideal) (φ := .f32) V (constant ⟨0, ![]⟩ .f32 0x00000000#32) hr3 hS ix0)
        (Ideal.ofBits .f32 0x00000000#32))
      (Ideal.div (Host.reduceAdd (F := Ideal) (φ := .f32) L (constant ⟨0, ![]⟩ .f32 0x00000000#32) hr3 hS ix0)
        (max (Host.reduceAdd (F := Ideal) (φ := .f32) V (constant ⟨0, ![]⟩ .f32 0x00000000#32) hr3 hS ix0)
          (Ideal.ofBits .f32 0x3F800000#32)))
      (Ideal.ofBits .f32 0x00000000#32) = _
  rw [total_sum, total_sum, Ideal.ofBits_zero_f32, Ideal.ofBits_one_f32]
  by_cases h : 0 < ∑ r : Fin 8192, V (ix1 r)
  · have hc : Ideal.cmp .ogt (∑ r : Fin 8192, V (ix1 r)) 0 = 1#1 := by unfold Ideal.cmp; simp [h]
    rw [if_pos h, hc, select_one]
  · have hc : Ideal.cmp .ogt (∑ r : Fin 8192, V (ix1 r)) 0 = 0#1 := by unfold Ideal.cmp; simp [h]
    rw [if_neg h, hc, select_zero]

end Cert.Triplet.HostPrelude

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.KHost.lean ====
/-
  The arrays the region's windows read, at coordinates, over the extended reals: the array of normalised weights
  holds each weight divided by the larger of its row's Euclidean norm and the floor; the two squared-norm arrays hold,
  as a column and as a row, the sum of squares of each row of the embeddings.
-/
import proofs.«137539_j22351009809014_2_alg».proof.Proof.KBlocks
import proofs.«137539_j22351009809014_2_alg».proof.Proof.HostPrelude
import proofs.«137539_j22351009809014_2_alg».proof.Proof.LibRows
import Idealize.ShloMosaic.Lib.ValueLayout

set_option maxRecDepth 16384

noncomputable section

namespace Cert.KernelIdeal.HandI

open Cert.KernelIdeal Cert.KernelIdeal.Gen Cert.KernelIdeal.Hand
open Idealize.ShloMosaic Idealize.ShloMosaic.TcCoe Idealize.ShloMosaic.ValueIdx
open Idealize.SL.Sem
open Cert.Triplet

variable (m : (ℓ : Loc nD τ sig) → Buf (Elt Ideal) ℓ) (c : Dev nD)

/-- The embeddings and the weights as the program is launched with them. -/
abbrev X0 : Spec.Emb := m ((c : Thread nD τ).loc main_arg0)
abbrev X1 : Spec.Wts := m ((c : Thread nD τ).loc main_arg1)

theorem V_arg0_apply (r : Fin 8192) (d : Fin 128) : (V m c main_arg0 : S8192x128.Idx → EReal) (ix2 r d) = X0 m c (ix2 r d) := by
  rw [V_main_arg0]

theorem V_v4_apply (r : Fin 8192) (e : Fin 16) : (V m c main_v4 : S8192x16.Idx → EReal) (ix2 r e) = Spec.ewn (X1 m c) r e := by
  rw [V_main_v4]
  exact HostPrelude.ewn_ops (X1 m c) _ _ _ _ _ r e

theorem V_v7_apply (r : Fin 8192) : (V m c main_v7 : S8192x1.Idx → EReal) (ix2 r (0 : Fin 1)) = Spec.sq (X0 m c) r := by
  rw [V_main_v7]
  refine (Cert.Rows.cast_col _ _ r).trans ?_
  exact HostPrelude.sq_ops (X0 m c) _ _ r

theorem V_v8_apply (k : Fin 8192) : (V m c main_v8 : S1x8192.Idx → EReal) (ix2 (0 : Fin 1) k) = Spec.sq (X0 m c) k := by
  rw [V_main_v8]
  refine (shapeCast_a_1a_apply _ _ 0 k).trans ?_
  exact HostPrelude.sq_ops (X0 m c) _ _ k

end Cert.KernelIdeal.HandI

end
-- ==== Proof.LibMaskedExtrema.lean ====
import Mathlib
import Idealize.ShloMosaic.PureOps.Ideal

/-!
# One row of batch-hard triplet mining, on the extended reals

For one anchor row we are given, for every column `k`, a squared distance `s k` and two masks
`P k` ("positive") and `N k` ("negative").  Two formulas for the row's loss are compared:

* take the masked maximum / minimum of the *squared* distances (possibly tile by tile, as a
  running maximum / minimum), and take one square root at the end;
* take the square root of every entry first, and then the masked maximum / minimum.

They agree because `x ↦ √(max x 0)` is monotone on all of `EReal` and the masks are nonempty
exactly when the sentinels `⊥` / `⊤` have been overwritten.

This file: real-valuedness facts, maxima in tiles and as folds, the sentinel test.
-/

namespace Cert.Triplet.Math

open Idealize.ShloMosaic

/-! ## Real values inside the extended reals -/

/-- An extended real is *real* when it is the image of a real number. -/
def IsReal (x : EReal) : Prop := ∃ y : ℝ, x = (y : EReal)

theorem isReal_coe (y : ℝ) : IsReal (y : EReal) := ⟨y, rfl⟩

theorem isReal_zero : IsReal (0 : EReal) := ⟨0, rfl⟩

theorem isReal_one : IsReal (1 : EReal) := ⟨1, rfl⟩

theorem isReal_two : IsReal (2 : EReal) := ⟨2, rfl⟩

/-- A real value is not `⊥`. -/
theorem IsReal.ne_bot {x : EReal} (h : IsReal x) : x ≠ ⊥ := by
  obtain ⟨y, rfl⟩ := h; exact EReal.coe_ne_bot y

/-- A real value is not `⊤`. -/
theorem IsReal.ne_top {x : EReal} (h : IsReal x) : x ≠ ⊤ := by
  obtain ⟨y, rfl⟩ := h; exact EReal.coe_ne_top y

/-- Real means: neither of the two infinities. -/
theorem isReal_iff {x : EReal} : IsReal x ↔ x ≠ ⊥ ∧ x ≠ ⊤ := by
  constructor
  · intro h; exact ⟨h.ne_bot, h.ne_top⟩
  · rintro ⟨hb, ht⟩
    induction x using EReal.rec with
    | bot => exact absurd rfl hb
    | coe y => exact ⟨y, rfl⟩
    | top => exact absurd rfl ht

/-- The sum of two reals is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- The negative of a real is real. -/
theorem IsReal.neg {x : EReal} (hx : IsReal x) : IsReal (-x) := by
  obtain ⟨a, rfl⟩ := hx
  exact ⟨-a, (EReal.coe_neg a).symm⟩

/-- The difference of two reals is real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A finite sum of reals is real. -/
theorem isReal_finset_sum {δ : Type*} (t : Finset δ) (f : δ → EReal)
    (h : ∀ d ∈ t, IsReal (f d)) : IsReal (∑ d ∈ t, f d) := by
  classical
  induction t using Finset.induction_on with
  | empty => simpa using isReal_zero
  | insert a t ha ih =>
    rw [Finset.sum_insert ha]
    exact (h a (Finset.mem_insert_self a t)).add
      (ih fun d hd => h d (Finset.mem_insert_of_mem hd))

/-- A finite sum of real terms, over a whole finite type, is real. -/
theorem isReal_sum {δ : Type*} [Fintype δ] (f : δ → EReal) (h : ∀ d, IsReal (f d)) :
    IsReal (∑ d, f d) :=
  isReal_finset_sum Finset.univ f fun d _ => h d

/-- The inner product of two rows of a real matrix is real. -/
theorem isReal_dot {ι δ : Type*} [Fintype δ] (x : ι → δ → EReal)
    (hx : ∀ i d, ∃ y : ℝ, x i d = (y : EReal)) (r k : ι) :
    IsReal (∑ d, x r d * x k d) :=
  isReal_sum _ fun d => IsReal.mul (hx r d) (hx k d)

/-- The squared distance `a + b - t · ⟨x r, x k⟩` assembled from real data is real. -/
theorem isReal_sqdist {ι δ : Type*} [Fintype δ] (x : ι → δ → EReal)
    (hx : ∀ i d, ∃ y : ℝ, x i d = (y : EReal)) (a b t : EReal)
    (ha : ∃ y : ℝ, a = (y : EReal)) (hb : ∃ y : ℝ, b = (y : EReal))
    (ht : ∃ y : ℝ, t = (y : EReal)) (r k : ι) :
    IsReal (a + b - t * ∑ d, x r d * x k d) :=
  (IsReal.add ha hb).sub (IsReal.mul ht (isReal_dot x hx r k))

/-- The squared distance assembled from real data is neither `⊥` nor `⊤`. -/
theorem sqdist_ne_bot_ne_top {ι δ : Type*} [Fintype δ] (x : ι → δ → EReal)
    (hx : ∀ i d, ∃ y : ℝ, x i d = (y : EReal)) (a b t : EReal)
    (ha : ∃ y : ℝ, a = (y : EReal)) (hb : ∃ y : ℝ, b = (y : EReal))
    (ht : ∃ y : ℝ, t = (y : EReal)) (r k : ι) :
    a + b - t * ∑ d, x r d * x k d ≠ ⊥ ∧ a + b - t * ∑ d, x r d * x k d ≠ ⊤ :=
  isReal_iff.mp (isReal_sqdist x hx a b t ha hb ht r k)

/-- The same with the factor `2`. -/
theorem sqdist_two_ne_bot_ne_top {ι δ : Type*} [Fintype δ] (x : ι → δ → EReal)
    (hx : ∀ i d, ∃ y : ℝ, x i d = (y : EReal)) (a b : EReal)
    (ha : ∃ y : ℝ, a = (y : EReal)) (hb : ∃ y : ℝ, b = (y : EReal)) (r k : ι) :
    a + b - 2 * ∑ d, x r d * x k d ≠ ⊥ ∧ a + b - 2 * ∑ d, x r d * x k d ≠ ⊤ :=
  sqdist_ne_bot_ne_top x hx a b 2 ha hb isReal_two r k

/-! ## Maxima and minima in tiles -/

section Tiles
variable {κ μ ι : Type*} [Fintype κ] [Fintype μ] [Fintype ι]

/-- The maximum over a product of index sets is the maximum of the tile maxima. -/
theorem sup_tiles (f : κ × μ → EReal) :
    (Finset.univ.sup fun j => Finset.univ.sup fun l => f (j, l)) = Finset.univ.sup f := by
  rw [← Finset.univ_product_univ, Finset.sup_product_left]

/-- The minimum over a product of index sets is the minimum of the tile minima. -/
theorem inf_tiles (f : κ × μ → EReal) :
    (Finset.univ.inf fun j => Finset.univ.inf fun l => f (j, l)) = Finset.univ.inf f := by
  rw [← Finset.univ_product_univ, Finset.inf_product_left]

/-- A maximum over a finite type may be reindexed along a bijection. -/
theorem sup_reindex (e : κ ≃ ι) (f : ι → EReal) :
    (Finset.univ.sup fun k => f (e k)) = Finset.univ.sup f := by
  rw [← Finset.map_univ_equiv e, Finset.sup_map]; rfl

/-- A minimum over a finite type may be reindexed along a bijection. -/
theorem inf_reindex (e : κ ≃ ι) (f : ι → EReal) :
    (Finset.univ.inf fun k => f (e k)) = Finset.univ.inf f := by
  rw [← Finset.map_univ_equiv e, Finset.inf_map]; rfl

/-- Tiles along a bijection `κ × μ ≃ ι`: the maximum of the tile maxima is the whole maximum. -/
theorem sup_tiles_equiv (e : κ × μ ≃ ι) (f : ι → EReal) :
    (Finset.univ.sup fun j => Finset.univ.sup fun l => f (e (j, l))) = Finset.univ.sup f := by
  rw [sup_tiles (fun p => f (e p)), sup_reindex e f]

/-- Tiles along a bijection `κ × μ ≃ ι`: the minimum of the tile minima is the whole minimum. -/
theorem inf_tiles_equiv (e : κ × μ ≃ ι) (f : ι → EReal) :
    (Finset.univ.inf fun j => Finset.univ.inf fun l => f (e (j, l))) = Finset.univ.inf f := by
  rw [inf_tiles (fun p => f (e p)), inf_reindex e f]

end Tiles

/-- Column `l` of tile `j` is column `l + n · j`: `m` tiles of width `n` exhaust `Fin (m * n)`. -/
theorem sup_tiles_fin {m n : ℕ} (f : Fin (m * n) → EReal) :
    (Finset.univ.sup fun j : Fin m => Finset.univ.sup fun l : Fin n =>
      f (finProdFinEquiv (j, l))) = Finset.univ.sup f :=
  sup_tiles_equiv finProdFinEquiv f

theorem inf_tiles_fin {m n : ℕ} (f : Fin (m * n) → EReal) :
    (Finset.univ.inf fun j : Fin m => Finset.univ.inf fun l : Fin n =>
      f (finProdFinEquiv (j, l))) = Finset.univ.inf f :=
  inf_tiles_equiv finProdFinEquiv f

/-! ## Running maxima and minima -/

section Folds

/-- The maximum over `Fin (n + 1)` splits off the last index. -/
theorem sup_fin_succ_last {n : ℕ} (g : Fin (n + 1) → EReal) :
    Finset.univ.sup g
      = max (Finset.univ.sup fun i : Fin n => g i.castSucc) (g (Fin.last n)) := by
  rw [Fin.univ_castSuccEmb, Finset.sup_cons, Finset.sup_map]
  exact sup_comm _ _

/-- The minimum over `Fin (n + 1)` splits off the last index. -/
theorem inf_fin_succ_last {n : ℕ} (g : Fin (n + 1) → EReal) :
    Finset.univ.inf g
      = min (Finset.univ.inf fun i : Fin n => g i.castSucc) (g (Fin.last n)) := by
  rw [Fin.univ_castSuccEmb, Finset.inf_cons, Finset.inf_map]
  exact inf_comm _ _

/-- Folding `max` over `g 0, …, g (n-1)` from `a` gives `max a (maxᵢ g i)`. -/
theorem fin_foldl_max {n : ℕ} (g : Fin n → EReal) (a : EReal) :
    Fin.foldl n (fun acc j => max acc (g j)) a = max a (Finset.univ.sup g) := by
  induction n with
  | zero => simp
  | succ n ih =>
    have h : Fin.foldl n (fun acc j => max acc (g j.castSucc)) a
        = max a (Finset.univ.sup fun i : Fin n => g i.castSucc) := ih _
    simp only [Fin.foldl_succ_last, h, sup_fin_succ_last g, max_assoc]

/-- Folding `min` over `g 0, …, g (n-1)` from `a` gives `min a (minᵢ g i)`. -/
theorem fin_foldl_min {n : ℕ} (g : Fin n → EReal) (a : EReal) :
    Fin.foldl n (fun acc j => min acc (g j)) a = min a (Finset.univ.inf g) := by
  induction n with
  | zero => simp
  | succ n ih =>
    have h : Fin.foldl n (fun acc j => min acc (g j.castSucc)) a
        = min a (Finset.univ.inf fun i : Fin n => g i.castSucc) := ih _
    simp only [Fin.foldl_succ_last, h, inf_fin_succ_last g, min_assoc]

/-- The running maximum started at the sentinel `⊥` is the maximum. -/
theorem fin_foldl_max_bot {n : ℕ} (g : Fin n → EReal) :
    Fin.foldl n (fun acc j => max acc (g j)) ⊥ = Finset.univ.sup g := by
  rw [fin_foldl_max, max_bot_left]

/-- The running minimum started at the sentinel `⊤` is the minimum. -/
theorem fin_foldl_min_top {n : ℕ} (g : Fin n → EReal) :
    Fin.foldl n (fun acc j => min acc (g j)) ⊤ = Finset.univ.inf g := by
  rw [fin_foldl_min, min_top_left]

/-- The same for a list fold over `[g 0, …, g (n-1)]`. -/
theorem list_foldl_max_ofFn {n : ℕ} (g : Fin n → EReal) (a : EReal) :
    List.foldl max a (List.ofFn g) = max a (Finset.univ.sup g) := by
  induction n with
  | zero => simp
  | succ n ih =>
    rw [List.ofFn_succ_last, List.foldl_append, List.foldl_cons, List.foldl_nil, ih,
      sup_fin_succ_last g, max_assoc]

theorem list_foldl_min_ofFn {n : ℕ} (g : Fin n → EReal) (a : EReal) :
    List.foldl min a (List.ofFn g) = min a (Finset.univ.inf g) := by
  induction n with
  | zero => simp
  | succ n ih =>
    rw [List.ofFn_succ_last, List.foldl_append, List.foldl_cons, List.foldl_nil, ih,
      inf_fin_succ_last g, min_assoc]

theorem list_foldl_max_bot_ofFn {n : ℕ} (g : Fin n → EReal) :
    List.foldl max ⊥ (List.ofFn g) = Finset.univ.sup g := by
  rw [list_foldl_max_ofFn, max_bot_left]

theorem list_foldl_min_top_ofFn {n : ℕ} (g : Fin n → EReal) :
    List.foldl min ⊤ (List.ofFn g) = Finset.univ.inf g := by
  rw [list_foldl_min_ofFn, min_top_left]

/-- A maximum over an initial segment of `ℕ`, indexed by `Fin n` instead. -/
theorem sup_range_eq_sup_fin (n : ℕ) (g : ℕ → EReal) :
    (Finset.range n).sup g = Finset.univ.sup fun i : Fin n => g i := by
  induction n with
  | zero => simp
  | succ n ih =>
    rw [Finset.range_add_one, Finset.sup_insert, ih, sup_fin_succ_last]
    simpa using sup_comm _ _

/-- A minimum over an initial segment of `ℕ`, indexed by `Fin n` instead. -/
theorem inf_range_eq_inf_fin (n : ℕ) (g : ℕ → EReal) :
    (Finset.range n).inf g = Finset.univ.inf fun i : Fin n => g i := by
  induction n with
  | zero => simp
  | succ n ih =>
    rw [Finset.range_add_one, Finset.inf_insert, ih, inf_fin_succ_last]
    simpa using inf_comm _ _

/-- One-step recursion: `a 0 = max ⊥ (g 0)` and `a (j+1) = max (a j) (g (j+1))` for `j < m`
    give `a j = max_{i ≤ j} g i` for every `j ≤ m`. -/
theorem running_max_eq_of_le (g a : ℕ → EReal) (m : ℕ) (h0 : a 0 = max ⊥ (g 0))
    (hs : ∀ j, j < m → a (j + 1) = max (a j) (g (j + 1))) :
    ∀ j, j ≤ m → a j = (Finset.range (j + 1)).sup g := by
  intro j
  induction j with
  | zero => intro _; simp [h0]
  | succ j ih =>
    intro hj
    have hr : Finset.range (j + 1 + 1) = insert (j + 1) (Finset.range (j + 1)) :=
      Finset.range_add_one
    rw [hs j hj, ih (Nat.le_of_succ_le hj), hr, Finset.sup_insert]
    exact sup_comm _ _

/-- One-step recursion for a running minimum from the sentinel `⊤`. -/
theorem running_min_eq_of_le (g a : ℕ → EReal) (m : ℕ) (h0 : a 0 = min ⊤ (g 0))
    (hs : ∀ j, j < m → a (j + 1) = min (a j) (g (j + 1))) :
    ∀ j, j ≤ m → a j = (Finset.range (j + 1)).inf g := by
  intro j
  induction j with
  | zero => intro _; simp [h0]
  | succ j ih =>
    intro hj
    have hr : Finset.range (j + 1 + 1) = insert (j + 1) (Finset.range (j + 1)) :=
      Finset.range_add_one
    rw [hs j hj, ih (Nat.le_of_succ_le hj), hr, Finset.inf_insert]
    exact inf_comm _ _

/-- The unbounded form of the one-step recursion. -/
theorem running_max_eq (g a : ℕ → EReal) (h0 : a 0 = max ⊥ (g 0))
    (hs : ∀ j, a (j + 1) = max (a j) (g (j + 1))) (j : ℕ) :
    a j = (Finset.range (j + 1)).sup g :=
  running_max_eq_of_le g a j h0 (fun i _ => hs i) j le_rfl

theorem running_min_eq (g a : ℕ → EReal) (h0 : a 0 = min ⊤ (g 0))
    (hs : ∀ j, a (j + 1) = min (a j) (g (j + 1))) (j : ℕ) :
    a j = (Finset.range (j + 1)).inf g :=
  running_min_eq_of_le g a j h0 (fun i _ => hs i) j le_rfl

/-- After the last of `n + 1` steps the running maximum is the maximum over `Fin (n + 1)`. -/
theorem running_max_last (g a : ℕ → EReal) (n : ℕ) (h0 : a 0 = max ⊥ (g 0))
    (hs : ∀ j, j < n → a (j + 1) = max (a j) (g (j + 1))) :
    a n = Finset.univ.sup fun i : Fin (n + 1) => g i := by
  rw [running_max_eq_of_le g a n h0 hs n le_rfl, sup_range_eq_sup_fin]

theorem running_min_last (g a : ℕ → EReal) (n : ℕ) (h0 : a 0 = min ⊤ (g 0))
    (hs : ∀ j, j < n → a (j + 1) = min (a j) (g (j + 1))) :
    a n = Finset.univ.inf fun i : Fin (n + 1) => g i := by
  rw [running_min_eq_of_le g a n h0 hs n le_rfl, inf_range_eq_inf_fin]

end Folds

/-! ## The sentinel test -/

section Sentinel
variable {ι : Type*} [Fintype ι]

/-- If no entry is `⊥`, the masked maximum exceeds the sentinel `⊥` exactly when the mask is
    nonempty. -/
theorem bot_lt_masked_sup_iff (s : ι → EReal) (P : ι → Prop) [DecidablePred P]
    (hs : ∀ k, s k ≠ ⊥) :
    (⊥ < Finset.univ.sup fun k => if P k then s k else ⊥) ↔ ∃ k, P k := by
  rw [Finset.lt_sup_iff]
  constructor
  · rintro ⟨k, -, hk⟩
    by_cases hP : P k
    · exact ⟨k, hP⟩
    · simp [hP] at hk
  · rintro ⟨k, hP⟩
    refine ⟨k, Finset.mem_univ k, ?_⟩
    rw [if_pos hP]
    exact bot_lt_iff_ne_bot.mpr (hs k)

/-- If no entry is `⊤`, the masked minimum is below the sentinel `⊤` exactly when the mask is
    nonempty. -/
theorem masked_inf_lt_top_iff (s : ι → EReal) (N : ι → Prop) [DecidablePred N]
    (hs : ∀ k, s k ≠ ⊤) :
    (Finset.univ.inf (fun k => if N k then s k else ⊤) < ⊤) ↔ ∃ k, N k := by
  rw [Finset.inf_lt_iff]
  constructor
  · rintro ⟨k, -, hk⟩
    by_cases hN : N k
    · exact ⟨k, hN⟩
    · simp [hN] at hk
  · rintro ⟨k, hN⟩
    refine ⟨k, Finset.mem_univ k, ?_⟩
    rw [if_pos hN]
    exact lt_top_iff_ne_top.mpr (hs k)

/-- The masked maximum is still the sentinel exactly when the mask is empty. -/
theorem masked_sup_eq_bot_iff (s : ι → EReal) (P : ι → Prop) [DecidablePred P]
    (hs : ∀ k, s k ≠ ⊥) :
    (Finset.univ.sup fun k => if P k then s k else ⊥) = ⊥ ↔ ¬ ∃ k, P k := by
  rw [← bot_lt_masked_sup_iff s P hs, bot_lt_iff_ne_bot, not_not]

/-- The masked minimum is still the sentinel exactly when the mask is empty. -/
theorem masked_inf_eq_top_iff (s : ι → EReal) (N : ι → Prop) [DecidablePred N]
    (hs : ∀ k, s k ≠ ⊤) :
    (Finset.univ.inf fun k => if N k then s k else ⊤) = ⊤ ↔ ¬ ∃ k, N k := by
  rw [← masked_inf_lt_top_iff s N hs, lt_top_iff_ne_top, not_not]

end Sentinel

end Cert.Triplet.Math
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibRowMax.lean ====
/-
  The maximum of an `[m, n]` matrix along its second axis, at the exact extended reals and at explicit
  coordinates: at row `r` it is `max` folded over the row's entries `v (r, c)`, `c < n`, from the accumulator's
  value. The device's lane reduction and the host's one-operand reduce with a `max` body both read this way.
-/
import proofs.«137539_j22351009809014_2_alg».proof.Proof.LibRows

noncomputable section

open Idealize.ShloMosaic Idealize.ShloMosaic.ValueIdx

namespace Cert.LibRowMax

/-- Composing with "put column `k` back into row `r`" reads the row's entries. -/
theorem comp_lift_row {α : Type} {m n : ℕ} (v : (⟨2, ![m, n]⟩ : Shape).Idx → α)
    (h : (⟨2, ![m, n]⟩ : Shape).Reduces [1] (⟨1, ![m]⟩ : Shape)) (r : Fin m) :
    (v ∘ h.lift (ix1 r)) = fun k : Fin ((⟨2, ![m, n]⟩ : Shape).size 1) => v (ix2 r (⟨k.val, k.isLt⟩ : Fin n)) :=
  funext fun k => congrArg v (Cert.Rows.lift_row h r k)

/-- The device's maximum along the second axis, at row `r`: `max` folded over the row from the accumulator's value. -/
theorem rowMax_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.maximumf.neutral .f32 hφ)
    (r : Fin m) :
    multiReduction .maximumf [1] (⟨1, ![m]⟩ : Shape) v acc h hφ hacc (ix1 r)
      = (Finset.univ : Finset (Fin n)).fold max (Ideal.ofBits .f32 acc) (fun c => v (ix2 r c)) := by
  rw [Ideal.multiReduction_maximumf_single, comp_lift_row]
  rfl

end Cert.LibRowMax

end
-- ==== Proof.KPayloads.lean ====
import proofs.«137539_j22351009809014_2_alg».proof.Proof.Gen.KernelIdeal.Skeleton
import proofs.«137539_j22351009809014_2_alg».proof.Proof.TripletSpec
import Idealize.ShloMosaic.Lib.ValueIdx
import Idealize.ShloMosaic.Lib.Pipeline.Value
import Idealize.ShloMosaic.Lib.ValueLayout
import Idealize.ShloMosaic.PureOps.Ideal.Laws
import proofs.«137539_j22351009809014_2_alg».proof.Proof.LibMaskedExtrema
import proofs.«137539_j22351009809014_2_alg».proof.Proof.LibPlainMatmul
import proofs.«137539_j22351009809014_2_alg».proof.Proof.LibRowMax

/-!
# The values the tile body computes, entry by entry, on the extended reals

Each named value of the tile body is a chain of vector operations over the values read before it.
Here every one of them is read at an explicit pair of coordinates: the squared distance of a row and
a column of the tile, the inner product of two weight rows, the diagonal test, the two masked row
extrema joined to the running extrema, the validity bit and the row loss of the last step.
-/

noncomputable section

namespace Cert.KernelIdeal.PayIdeal

open Cert.KernelIdeal Cert.KernelIdeal.Gen Idealize.ShloMosaic Idealize.ShloMosaic.ValueIdx
open Cert.Triplet

/-! ## Words and bits -/

/-- A bit made from a Boolean is set exactly when the Boolean is true. -/
theorem ofBool_eq_one (b : Bool) : BitVec.ofBool b = 1#1 ↔ b = true := by
  cases b <;> decide

/-- "Greater than" as a bit: set exactly when the second operand is below the first. -/
theorem cmp_ogt_eq_one (x y : EReal) : Ideal.cmp .ogt x y = 1#1 ↔ y < x := by
  unfold Ideal.cmp
  rw [ofBool_eq_one, decide_eq_true_iff]

/-- "Less than" as a bit: set exactly when the first operand is below the second. -/
theorem cmp_olt_eq_one (x y : EReal) : Ideal.cmp .olt x y = 1#1 ↔ x < y := by
  unfold Ideal.cmp
  rw [ofBool_eq_one, decide_eq_true_iff]

/-- The conjunction of two bits is set exactly when both are. -/
theorem andi_eq_one (a b : BitVec 1) : IntOp.andi a b = 1#1 ↔ a = 1#1 ∧ b = 1#1 := by
  revert a b; decide

/-- A bit flipped by the constant one is set exactly when it was not. -/
theorem xori_one_eq_one (a : BitVec 1) : IntOp.xori a 1#1 = 1#1 ↔ a ≠ 1#1 := by
  revert a; decide

/-- A select on a bit is the conditional on "the bit is set". -/
theorem select_eq_ite {α : Type} (c : BitVec 1) (a b : α) :
    Scalar.select c a b = if c = 1#1 then a else b := rfl

/-! ## Folds of maxima and minima -/

/-- Folding `max` over a finite set from `b` gives `max b` of the set's maximum. -/
theorem fold_max_eq {ι : Type*} (s : Finset ι) (f : ι → EReal) (b : EReal) :
    s.fold max b f = max b (s.sup f) := by
  classical
  induction s using Finset.induction_on with
  | empty => simp
  | insert a s ha ih =>
    rw [Finset.fold_insert ha, ih, Finset.sup_insert]
    exact max_left_comm _ _ _

/-- Folding `min` over a finite set from `b` gives `min b` of the set's minimum. -/
theorem fold_min_eq {ι : Type*} (s : Finset ι) (f : ι → EReal) (b : EReal) :
    s.fold min b f = min b (s.inf f) := by
  classical
  induction s using Finset.induction_on with
  | empty => simp
  | insert a s ha ih =>
    rw [Finset.fold_insert ha, ih, Finset.inf_insert]
    exact min_left_comm _ _ _

/-! ## The constant values -/

/-- The running maximum starts at `⊥`. -/
theorem pay6_apply (p : Fin 1024) : k0_pay6 (F := Ideal) (ix2 p (0 : Fin 1)) = (⊥ : EReal) := by
  have key : k0_pay6 (F := Ideal) (ix2 p (0 : Fin 1)) = Ideal.ofBits .f32 0xFF800000#32 := by
    unfold k0_pay6
    rw [shapeCast_self]
    rfl
  rw [key, Spec.negInf_eq_bot]

/-- The running minimum starts at `⊤`. -/
theorem pay7_apply (p : Fin 1024) : k0_pay7 (F := Ideal) (ix2 p (0 : Fin 1)) = (⊤ : EReal) := by
  have key : k0_pay7 (F := Ideal) (ix2 p (0 : Fin 1)) = Ideal.ofBits .f32 0x7F800000#32 := by
    unfold k0_pay7
    rw [shapeCast_self]
    rfl
  rw [key, Spec.posInf_eq_top]

/-- The upper similarity threshold, at every entry. -/
theorem pay11_apply (p : Fin 1024) (q : Fin 512) :
    k0_pay11 (F := Ideal) (ix2 p q) = Spec.posThresh := rfl

/-! ## The two products -/

/-- The similarity tile: entry `(p, q)` is the inner product of row `p` of the first block of
    weights with row `q` of the second. -/
theorem pay10_apply (v30 : Vec Ideal S1024x16 .f32) (v32 : Vec Ideal S512x16 .f32)
    (p : Fin 1024) (q : Fin 512) :
    k0_pay10 v30 v32 (ix2 p q) = ∑ e : Fin 16, v30 (ix2 p e) * v32 (ix2 q e) := by
  unfold k0_pay10
  refine (Cert.LibPlainMatmul.matmul_zero_apply dot_S1024x16_S16x512_S1024x512_1_0_0_1_n_n
    rfl rfl rfl rfl rfl rfl (some .fp32) _ _ p q).trans ?_
  refine Finset.sum_congr rfl fun e _ => ?_
  rw [shapeCast_self, transpose_ix2_apply, shapeCast_self]

/-- The squared-distance tile: entry `(p, q)` is the row's squared norm plus the column's squared
    norm minus twice the inner product of the two embedding rows. -/
theorem pay9_apply (v14 : Vec Ideal S1024x128 .f32) (v15 : Vec Ideal S512x128 .f32)
    (v20 : Vec Ideal S1024x1 .f32) (v22 : Vec Ideal S1x512 .f32) (p : Fin 1024) (q : Fin 512) :
    k0_pay9 v14 v15 v20 v22 (ix2 p q)
      = v20 (ix2 p (0 : Fin 1)) + v22 (ix2 (0 : Fin 1) q)
        - Spec.two * ∑ d : Fin 128, v14 (ix2 p d) * v15 (ix2 q d) := by
  have hA : broadcastTo S1024x512 (shapeCast S1024x1 v20 shapeCasts_S1024x1_S1024x1)
      broadcasts_S1024x1_S1024x512 (ix2 p q) = v20 (ix2 p (0 : Fin 1)) := by
    rw [shapeCast_self]
    exact Cert.Rows.bcast_col (by decide) v20 _ p q
  have hB : broadcastTo S1024x512 (shapeCast S1x512 v22 shapeCasts_S1x512_S1x512)
      broadcasts_S1x512_S1024x512 (ix2 p q) = v22 (ix2 (0 : Fin 1) q) := by
    rw [shapeCast_self]
    exact broadcastTo_1b_ab_apply v22 _ p q
  have hM : FloatOps.matmul dot_S1024x128_S128x512_S1024x512_1_0_0_1_n_n none
      (truncf .bf16 (v14 : FVec Ideal S1024x128 .f32) bitsLt_bf16_f32)
      (transpose S128x512 [1, 0] (truncf .bf16 (v15 : FVec Ideal S512x128 .f32) bitsLt_bf16_f32)
        transposes_S512x128_p1_0_S128x512)
      (constant (F := Ideal) S1024x512 .f32 0x00000000#32) (ix2 p q)
      = ∑ d : Fin 128, v14 (ix2 p d) * v15 (ix2 q d) := by
    refine (Cert.LibPlainMatmul.matmul_zero_apply dot_S1024x128_S128x512_S1024x512_1_0_0_1_n_n
      rfl rfl rfl rfl rfl rfl none _ _ p q).trans ?_
    refine Finset.sum_congr rfl fun d _ => ?_
    rw [transpose_ix2_apply]
    rfl
  have key : k0_pay9 v14 v15 v20 v22 (ix2 p q)
      = broadcastTo S1024x512 (shapeCast S1024x1 v20 shapeCasts_S1024x1_S1024x1)
          broadcasts_S1024x1_S1024x512 (ix2 p q)
        + broadcastTo S1024x512 (shapeCast S1x512 v22 shapeCasts_S1x512_S1x512)
          broadcasts_S1x512_S1024x512 (ix2 p q)
        - Spec.two * FloatOps.matmul dot_S1024x128_S128x512_S1024x512_1_0_0_1_n_n none
            (truncf .bf16 (v14 : FVec Ideal S1024x128 .f32) bitsLt_bf16_f32)
            (transpose S128x512 [1, 0] (truncf .bf16 (v15 : FVec Ideal S512x128 .f32) bitsLt_bf16_f32)
              transposes_S512x128_p1_0_S128x512)
            (constant (F := Ideal) S1024x512 .f32 0x00000000#32) (ix2 p q) := rfl
  rw [key, hA, hB, hM]

end Cert.KernelIdeal.PayIdeal

end
-- ==== Proof.KPayloads2.lean ====
import proofs.«137539_j22351009809014_2_alg».proof.Proof.KPayloads

/-!
# The values the tile body computes, entry by entry: the row extrema, validity and the row loss
-/

noncomputable section

namespace Cert.KernelIdeal.PayIdeal

open Cert.KernelIdeal Cert.KernelIdeal.Gen Idealize.ShloMosaic Idealize.ShloMosaic.ValueIdx
open Cert.Triplet

/-! ## The last step: validity and the row loss -/

/-- The validity bit of a row is set exactly when both running extrema have left their starting
    values `⊥` and `⊤`. -/
theorem pay3_eq_one_iff (v65 v68 : Vec Ideal S1024x1 .f32) (p : Fin 1024) :
    k0_pay3 v65 v68 (ix2 p (0 : Fin 1)) = 1#1
      ↔ (⊥ < v65 (ix2 p (0 : Fin 1)) ∧ v68 (ix2 p (0 : Fin 1)) < ⊤) := by
  have key : k0_pay3 v65 v68 (ix2 p (0 : Fin 1))
      = IntOp.andi (Ideal.cmp .ogt (v65 (ix2 p (0 : Fin 1))) (Ideal.ofBits .f32 0xFF800000#32))
          (Ideal.cmp .olt (v68 (ix2 p (0 : Fin 1))) (Ideal.ofBits .f32 0x7F800000#32)) := rfl
  rw [key, andi_eq_one, cmp_ogt_eq_one, cmp_olt_eq_one, Spec.negInf_eq_bot, Spec.posInf_eq_top]

/-- The validity of a row as a number: one for a valid row, zero for the others. -/
theorem pay5_apply (v65 v68 : Vec Ideal S1024x1 .f32) (p : Fin 1024) :
    k0_pay5 v65 v68 (ix2 p (0 : Fin 1))
      = if (⊥ < v65 (ix2 p (0 : Fin 1)) ∧ v68 (ix2 p (0 : Fin 1)) < ⊤) then (1 : EReal) else 0 := by
  have key : k0_pay5 v65 v68 (ix2 p (0 : Fin 1))
      = ((((k0_pay3 v65 v68 (ix2 p (0 : Fin 1))).setWidth 32).toInt : ℝ) : EReal) := rfl
  rw [key]
  by_cases hv : (⊥ < v65 (ix2 p (0 : Fin 1)) ∧ v68 (ix2 p (0 : Fin 1)) < ⊤)
  · rw [if_pos hv, (pay3_eq_one_iff v65 v68 p).mpr hv]
    have h1 : ((1#1 : BitVec 1).setWidth 32).toInt = 1 := by decide
    rw [h1]; simp
  · have h0 : k0_pay3 v65 v68 (ix2 p (0 : Fin 1)) = 0#1 :=
      eq_zero_of_ne_one fun h => hv ((pay3_eq_one_iff v65 v68 p).mp h)
    rw [if_neg hv, h0]
    have h1 : ((0#1 : BitVec 1).setWidth 32).toInt = 0 := by decide
    rw [h1]; simp

/-- The loss of a row at the last step: for a valid row the hinge of the root of the clamped running
    maximum minus the root of the clamped running minimum plus the margin; zero for the others.  The
    validity test guards the two running values before the root, and the result after it. -/
theorem pay4_apply (v65 v68 v72 v75 : Vec Ideal S1024x1 .f32) (p : Fin 1024) :
    k0_pay4 v65 v68 v72 v75 (ix2 p (0 : Fin 1))
      = if (⊥ < v65 (ix2 p (0 : Fin 1)) ∧ v68 (ix2 p (0 : Fin 1)) < ⊤) then
          max (Ideal.sqrt (max (if (⊥ < v65 (ix2 p (0 : Fin 1)) ∧ v68 (ix2 p (0 : Fin 1)) < ⊤)
                  then v72 (ix2 p (0 : Fin 1)) else (0 : EReal)) 0)
              - Ideal.sqrt (max (if (⊥ < v65 (ix2 p (0 : Fin 1)) ∧ v68 (ix2 p (0 : Fin 1)) < ⊤)
                  then v75 (ix2 p (0 : Fin 1)) else (0 : EReal)) 0)
              + Spec.margin) 0
        else (0 : EReal) := by
  have key : k0_pay4 v65 v68 v72 v75 (ix2 p (0 : Fin 1))
      = Scalar.select (k0_pay3 v65 v68 (ix2 p (0 : Fin 1)))
          (max (Ideal.sqrt (max (Scalar.select (k0_pay3 v65 v68 (ix2 p (0 : Fin 1)))
                  (v72 (ix2 p (0 : Fin 1))) (Ideal.ofBits .f32 0x00000000#32))
                (Ideal.ofBits .f32 0x00000000#32))
              - Ideal.sqrt (max (Scalar.select (k0_pay3 v65 v68 (ix2 p (0 : Fin 1)))
                  (v75 (ix2 p (0 : Fin 1))) (Ideal.ofBits .f32 0x00000000#32))
                (Ideal.ofBits .f32 0x00000000#32))
              + Spec.margin) (Ideal.ofBits .f32 0x00000000#32))
          (Ideal.ofBits .f32 0x00000000#32) := rfl
  rw [key, Ideal.ofBits_zero_f32]
  by_cases hv : (⊥ < v65 (ix2 p (0 : Fin 1)) ∧ v68 (ix2 p (0 : Fin 1)) < ⊤)
  · rw [(pay3_eq_one_iff v65 v68 p).mpr hv]
    simp only [select_one, if_pos hv]
  · have h0 : k0_pay3 v65 v68 (ix2 p (0 : Fin 1)) = 0#1 :=
      eq_zero_of_ne_one fun h => hv ((pay3_eq_one_iff v65 v68 p).mp h)
    rw [h0]
    simp only [select_zero, if_neg hv]

/-! ## The masked row extrema of a tile, joined to the running extrema -/

/-- The minimum of an `[m, n]` matrix along its second axis, at row `r`: `min` folded over the row's
    entries from the accumulator's value. -/
theorem rowMin_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32)
    (hacc : acc = FKind.minimumf.neutral .f32 hφ) (r : Fin m) :
    multiReduction .minimumf [1] (⟨1, ![m]⟩ : Shape) v acc h hφ hacc (ix1 r)
      = (Finset.univ : Finset (Fin n)).fold min (Ideal.ofBits .f32 acc) (fun c => v (ix2 r c)) := by
  rw [multiReduction_minimumf_eq_fold]
  refine (h.fold_filter_drop_single _ _ v (ix1 r)).trans ?_
  rw [Cert.LibRowMax.comp_lift_row]
  rfl

/-- The maximum of a tile along its columns from `-∞`, at row `p`: the maximum of the row's entries. -/
theorem rowMax_sup (V : FVec Ideal S1024x512 .f32) (p : Fin 1024) :
    multiReduction (F := Ideal) .maximumf [1] S1024 V
      0xFF800000#32 reduces_S1024x512_S1024 (.inl rfl) rfl (ix1 p)
      = Finset.univ.sup fun q : Fin 512 => V (ix2 p q) := by
  refine (Cert.LibRowMax.rowMax_apply _ 0xFF800000#32 reduces_S1024x512_S1024 (.inl rfl) rfl
    p).trans ?_
  rw [fold_max_eq, Spec.negInf_eq_bot, max_bot_left]

/-- The minimum of a tile along its columns from `+∞`, at row `p`: the minimum of the row's entries. -/
theorem rowMin_inf (V : FVec Ideal S1024x512 .f32) (p : Fin 1024) :
    multiReduction (F := Ideal) .minimumf [1] S1024 V
      0x7F800000#32 reduces_S1024x512_S1024 (.inl rfl) rfl (ix1 p)
      = Finset.univ.inf fun q : Fin 512 => V (ix2 p q) := by
  refine (rowMin_apply _ 0x7F800000#32 reduces_S1024x512_S1024 (.inl rfl) rfl p).trans ?_
  rw [fold_min_eq, Spec.posInf_eq_top, min_top_left]

/-- The squared distances of a tile with everything but the positives replaced by `⊥`: an entry
    survives when its similarity exceeds the threshold tile's entry and it is off the diagonal. -/
theorem posMasked_apply (v13 : IVec S1024x512 1) (v29 v35 v36 : FVec Ideal S1024x512 .f32)
    (p : Fin 1024) (q : Fin 512) :
    (select (andi (cmpf .ogt v35 v36) (xori v13 (constantI S1024x512 1 1#1))) v29
      (broadcast S1024x512 (Scalar.ofBits (F := Ideal) .f32 0xFF800000#32)) :
        FVec Ideal S1024x512 .f32) (ix2 p q)
      = if (v36 (ix2 p q) < v35 (ix2 p q) ∧ v13 (ix2 p q) ≠ 1#1) then v29 (ix2 p q)
        else (⊥ : EReal) := by
  have key : (select (andi (cmpf .ogt v35 v36) (xori v13 (constantI S1024x512 1 1#1))) v29
      (broadcast S1024x512 (Scalar.ofBits (F := Ideal) .f32 0xFF800000#32)) :
        FVec Ideal S1024x512 .f32) (ix2 p q)
      = Scalar.select (IntOp.andi (Ideal.cmp .ogt (v35 (ix2 p q)) (v36 (ix2 p q)))
          (IntOp.xori (v13 (ix2 p q)) 1#1)) (v29 (ix2 p q))
          (Ideal.ofBits .f32 0xFF800000#32) := rfl
  rw [key, select_eq_ite, Spec.negInf_eq_bot]
  refine if_congr ?_ rfl rfl
  rw [andi_eq_one, cmp_ogt_eq_one, xori_one_eq_one]

/-- The squared distances of a tile with everything but the negatives replaced by `⊤`: an entry
    survives when its similarity is below the lower threshold and it is off the diagonal. -/
theorem negMasked_apply (v13 : IVec S1024x512 1) (v29 v35 : FVec Ideal S1024x512 .f32)
    (p : Fin 1024) (q : Fin 512) :
    (select (andi (cmpf .olt v35
          (broadcast S1024x512 (Scalar.ofBits (F := Ideal) .f32 0x3E99999A#32)))
        (xori v13 (constantI S1024x512 1 1#1))) v29
      (broadcast S1024x512 (Scalar.ofBits (F := Ideal) .f32 0x7F800000#32)) :
        FVec Ideal S1024x512 .f32) (ix2 p q)
      = if (v35 (ix2 p q) < Spec.negThresh ∧ v13 (ix2 p q) ≠ 1#1) then v29 (ix2 p q)
        else (⊤ : EReal) := by
  have key : (select (andi (cmpf .olt v35
          (broadcast S1024x512 (Scalar.ofBits (F := Ideal) .f32 0x3E99999A#32)))
        (xori v13 (constantI S1024x512 1 1#1))) v29
      (broadcast S1024x512 (Scalar.ofBits (F := Ideal) .f32 0x7F800000#32)) :
        FVec Ideal S1024x512 .f32) (ix2 p q)
      = Scalar.select (IntOp.andi (Ideal.cmp .olt (v35 (ix2 p q)) Spec.negThresh)
          (IntOp.xori (v13 (ix2 p q)) 1#1)) (v29 (ix2 p q))
          (Ideal.ofBits .f32 0x7F800000#32) := rfl
  rw [key, select_eq_ite, Spec.posInf_eq_top]
  refine if_congr ?_ rfl rfl
  rw [andi_eq_one, cmp_olt_eq_one, xori_one_eq_one]

/-- The running maximum after a tile: the old value joined with the largest squared distance over the
    tile's columns that are more similar than the threshold and off the diagonal. -/
theorem pay1_apply (v13 : IVec S1024x512 1) (v29 v35 v36 : FVec Ideal S1024x512 .f32)
    (v52 : Vec Ideal S1024x1 .f32) (p : Fin 1024) :
    k0_pay1 v13 v29 v35 v36 v52 (ix2 p (0 : Fin 1))
      = max (v52 (ix2 p (0 : Fin 1))) (Finset.univ.sup fun q : Fin 512 =>
          if (v36 (ix2 p q) < v35 (ix2 p q) ∧ v13 (ix2 p q) ≠ 1#1) then v29 (ix2 p q)
          else (⊥ : EReal)) := by
  unfold k0_pay1
  rw [shapeCast_self]
  rw [maximumf_apply]
  rw [Cert.Rows.cast_col]
  rw [rowMax_sup]
  congr 1
  exact Finset.sup_congr rfl fun q _ => posMasked_apply v13 v29 v35 v36 p q

/-- The running minimum after a tile: the old value met with the smallest squared distance over the
    tile's columns that are less similar than the lower threshold and off the diagonal. -/
theorem pay2_apply (v13 : IVec S1024x512 1) (v29 v35 : FVec Ideal S1024x512 .f32)
    (v57 : Vec Ideal S1024x1 .f32) (p : Fin 1024) :
    k0_pay2 v13 v29 v35 v57 (ix2 p (0 : Fin 1))
      = min (v57 (ix2 p (0 : Fin 1))) (Finset.univ.inf fun q : Fin 512 =>
          if (v35 (ix2 p q) < Spec.negThresh ∧ v13 (ix2 p q) ≠ 1#1) then v29 (ix2 p q)
          else (⊤ : EReal)) := by
  unfold k0_pay2
  rw [shapeCast_self]
  rw [minimumf_apply]
  rw [Cert.Rows.cast_col]
  rw [rowMin_inf]
  congr 1
  exact Finset.inf_congr rfl fun q _ => negMasked_apply v13 v29 v35 p q

/-! ## The diagonal test -/

/-- Equality of two words as a bit. -/
theorem cmpi_eq_eq_one {w : ℕ} (x y : BitVec w) : IntOp.cmpi .eq x y = 1#1 ↔ x = y := by
  unfold IntOp.cmpi
  rw [ofBool_eq_one]
  exact beq_iff_eq

/-- The global row of a tile's row and the global column of a tile's column, as 32-bit words, agree
    exactly when the numbers do: with at most 8 row tiles of 1024 and 16 column tiles of 512 nothing
    wraps. -/
theorem word_eq_iff (a b p q : ℕ) (ha : a < 8) (hb : b < 16) (hp : p < 1024) (hq : q < 512) :
    BitVec.ofNat 32 a * 1024#32 + BitVec.ofNat 32 p = BitVec.ofNat 32 b * 512#32 + BitVec.ofNat 32 q
      ↔ a * 1024 + p = b * 512 + q := by
  rw [← BitVec.toNat_inj]
  simp only [BitVec.toNat_add, BitVec.toNat_mul, BitVec.toNat_ofNat, Nat.reducePow]
  omega

/-- The diagonal bit of a tile: set at `(p, q)` exactly when the global row `i₀ · 1024 + p` is the
    global column `i₁ · 512 + q`. -/
theorem pay8_eq_one_iff (i : grid0.Coords) (p : Fin 1024) (q : Fin 512) :
    k0_pay8 i (ix2 p q) = 1#1 ↔ (i 0).val * 1024 + p.val = (i 1).val * 512 + q.val := by
  have hi0 : iota .tc S1024x1 32 [0] iota_S1024x1_d0_w32 (ix2 p (0 : Fin 1)) = BitVec.ofNat 32 p.val :=
    iota_single_apply .tc S1024x1 32 0 iota_S1024x1_d0_w32 (ix2 p (0 : Fin 1))
  have hi1 : iota .tc S1x512 32 [1] iota_S1x512_d1_w32 (ix2 (0 : Fin 1) q) = BitVec.ofNat 32 q.val :=
    iota_single_apply .tc S1x512 32 1 iota_S1x512_d1_w32 (ix2 (0 : Fin 1) q)
  have hA : broadcastTo S1024x512
      (addi (broadcast S1024x1 (Scalar.muli (BitVec.ofNat 32 (i 0).val) 1024#32))
        (iota .tc S1024x1 32 [0] iota_S1024x1_d0_w32)) broadcasts_S1024x1_S1024x512 (ix2 p q)
      = BitVec.ofNat 32 (i 0).val * 1024#32 + BitVec.ofNat 32 p.val := by
    rw [Cert.Rows.bcast_col (by decide)]
    show IntOp.addi (Scalar.muli (BitVec.ofNat 32 (i 0).val) 1024#32)
      (iota .tc S1024x1 32 [0] iota_S1024x1_d0_w32 (ix2 p (0 : Fin 1))) = _
    rw [hi0]
    rfl
  have hB : broadcastTo S1024x512
      (addi (broadcast S1x512 (Scalar.muli (BitVec.ofNat 32 (i 1).val) 512#32))
        (iota .tc S1x512 32 [1] iota_S1x512_d1_w32)) broadcasts_S1x512_S1024x512 (ix2 p q)
      = BitVec.ofNat 32 (i 1).val * 512#32 + BitVec.ofNat 32 q.val := by
    rw [broadcastTo_1b_ab_apply]
    show IntOp.addi (Scalar.muli (BitVec.ofNat 32 (i 1).val) 512#32)
      (iota .tc S1x512 32 [1] iota_S1x512_d1_w32 (ix2 (0 : Fin 1) q)) = _
    rw [hi1]
    rfl
  have key : k0_pay8 i (ix2 p q)
      = IntOp.cmpi .eq
          (broadcastTo S1024x512
            (addi (broadcast S1024x1 (Scalar.muli (BitVec.ofNat 32 (i 0).val) 1024#32))
              (iota .tc S1024x1 32 [0] iota_S1024x1_d0_w32)) broadcasts_S1024x1_S1024x512 (ix2 p q))
          (broadcastTo S1024x512
            (addi (broadcast S1x512 (Scalar.muli (BitVec.ofNat 32 (i 1).val) 512#32))
              (iota .tc S1x512 32 [1] iota_S1x512_d1_w32)) broadcasts_S1x512_S1024x512 (ix2 p q)) := rfl
  have h0 : (i 0).val < 8 := (i 0).isLt
  have h1 : (i 1).val < 16 := (i 1).isLt
  rw [key, hA, hB, cmpi_eq_eq_one]
  exact word_eq_iff _ _ _ _ h0 h1 p.isLt q.isLt

end Cert.KernelIdeal.PayIdeal

end
-- ==== Proof.LibMaskedExtremaRoot.lean ====
import Mathlib
import Idealize.ShloMosaic.PureOps.Ideal
import proofs.«137539_j22351009809014_2_alg».proof.Proof.LibMaskedExtrema

/-!
# One row of batch-hard triplet mining: root after the maximum = maximum after the root

The clamped square root `x ↦ √(max x 0)` is monotone on all of `EReal`.  A monotone map commutes
with a masked maximum (a maximum of the entries selected by a mask, the others replaced by the
sentinel `⊥`) as soon as the mask selects something, and dually with a masked minimum.  Together
with the sentinel test this shows that the row loss computed from the squared distances with one
root at the end equals the row loss computed from the rooted distances.
-/

namespace Cert.Triplet.Math

open Idealize.ShloMosaic

/-! ## The clamped square root is monotone -/

/-- The square root of the extended reals is monotone on the half-line `[0, ⊤]`. -/
theorem sqrt_le_sqrt_of_nonneg {x y : EReal} (hx : 0 ≤ x) (hxy : x ≤ y) :
    Ideal.sqrt x ≤ Ideal.sqrt y := by
  induction x using EReal.rec with
  | bot => simp at hx
  | top =>
    have hy : y = ⊤ := top_le_iff.mp hxy
    rw [hy]
  | coe a =>
    have ha : 0 ≤ a := by exact_mod_cast hx
    induction y using EReal.rec with
    | bot => simp at hxy
    | top => simp
    | coe b =>
      have hab : a ≤ b := by exact_mod_cast hxy
      have hb : 0 ≤ b := ha.trans hab
      rw [Ideal.sqrt_coe, Ideal.sqrt_coe, if_neg (not_lt.mpr ha), if_neg (not_lt.mpr hb)]
      exact_mod_cast Real.sqrt_le_sqrt hab

/-- `x ↦ √(max x 0)` is monotone on all of `EReal`: clamping is monotone and lands in `[0, ⊤]`. -/
theorem clampSqrt_monotone : Monotone fun x : EReal => Ideal.sqrt (max x 0) := by
  intro x y hxy
  exact sqrt_le_sqrt_of_nonneg (le_max_right x 0) (max_le_max hxy le_rfl)

/-- The pointwise form of the monotonicity of the clamped root. -/
theorem clampSqrt_le {x y : EReal} (hxy : x ≤ y) :
    Ideal.sqrt (max x 0) ≤ Ideal.sqrt (max y 0) :=
  clampSqrt_monotone hxy

/-! ## A monotone map commutes with a masked maximum over a nonempty mask -/

section Commute
variable {ι : Type*} [Fintype ι]

/-- A monotone map commutes with the masked maximum when the mask is nonempty.  (With an empty
    mask the left side is the sentinel `⊥` and the right side is `r ⊥`.) -/
theorem masked_sup_map {r : EReal → EReal} (hr : Monotone r) (s : ι → EReal)
    (P : ι → Prop) [DecidablePred P] (hP : ∃ k, P k) :
    (Finset.univ.sup fun k => if P k then r (s k) else ⊥)
      = r (Finset.univ.sup fun k => if P k then s k else ⊥) := by
  have hle : ∀ k, P k → s k ≤ Finset.univ.sup fun k => if P k then s k else ⊥ := by
    intro k hk
    have h := Finset.le_sup (f := fun k => if P k then s k else ⊥) (Finset.mem_univ k)
    simpa only [if_pos hk] using h
  have hle' : ∀ k, P k → r (s k) ≤ Finset.univ.sup fun k => if P k then r (s k) else ⊥ := by
    intro k hk
    have h := Finset.le_sup (f := fun k => if P k then r (s k) else ⊥) (Finset.mem_univ k)
    simpa only [if_pos hk] using h
  apply le_antisymm
  · apply Finset.sup_le
    intro k _
    by_cases hk : P k
    · rw [if_pos hk]; exact hr (hle k hk)
    · rw [if_neg hk]; exact bot_le
  · obtain ⟨k0, hk0⟩ := hP
    obtain ⟨i, -, hi⟩ := Finset.exists_mem_eq_sup Finset.univ ⟨k0, Finset.mem_univ k0⟩
      (fun k => if P k then s k else ⊥)
    by_cases hPi : P i
    · have hi' : (Finset.univ.sup fun k => if P k then s k else ⊥) = s i := by
        rw [hi]; exact if_pos hPi
      rw [hi']; exact hle' i hPi
    · have hi' : (Finset.univ.sup fun k => if P k then s k else ⊥) = ⊥ := by
        rw [hi]; exact if_neg hPi
      have h0 : s k0 = ⊥ := le_bot_iff.mp ((hle k0 hk0).trans_eq hi')
      rw [hi']
      calc r ⊥ = r (s k0) := by rw [h0]
        _ ≤ _ := hle' k0 hk0

/-- A monotone map commutes with the masked minimum when the mask is nonempty. -/
theorem masked_inf_map {r : EReal → EReal} (hr : Monotone r) (s : ι → EReal)
    (N : ι → Prop) [DecidablePred N] (hN : ∃ k, N k) :
    (Finset.univ.inf fun k => if N k then r (s k) else ⊤)
      = r (Finset.univ.inf fun k => if N k then s k else ⊤) := by
  have hle : ∀ k, N k → (Finset.univ.inf fun k => if N k then s k else ⊤) ≤ s k := by
    intro k hk
    have h := Finset.inf_le (f := fun k => if N k then s k else ⊤) (Finset.mem_univ k)
    simpa only [if_pos hk] using h
  have hle' : ∀ k, N k → (Finset.univ.inf fun k => if N k then r (s k) else ⊤) ≤ r (s k) := by
    intro k hk
    have h := Finset.inf_le (f := fun k => if N k then r (s k) else ⊤) (Finset.mem_univ k)
    simpa only [if_pos hk] using h
  apply le_antisymm
  · obtain ⟨k0, hk0⟩ := hN
    obtain ⟨i, -, hi⟩ := Finset.exists_mem_eq_inf Finset.univ ⟨k0, Finset.mem_univ k0⟩
      (fun k => if N k then s k else ⊤)
    by_cases hNi : N i
    · have hi' : (Finset.univ.inf fun k => if N k then s k else ⊤) = s i := by
        rw [hi]; exact if_pos hNi
      rw [hi']; exact hle' i hNi
    · have hi' : (Finset.univ.inf fun k => if N k then s k else ⊤) = ⊤ := by
        rw [hi]; exact if_neg hNi
      have h0 : s k0 = ⊤ := top_le_iff.mp (hi'.symm.trans_le (hle k0 hk0))
      rw [hi']
      calc _ ≤ r (s k0) := hle' k0 hk0
        _ = r ⊤ := by rw [h0]
  · apply Finset.le_inf
    intro k _
    by_cases hk : N k
    · rw [if_pos hk]; exact hr (hle k hk)
    · rw [if_neg hk]; exact le_top

/-- The clamped root of the masked maximum of the squares is the masked maximum of the clamped
    roots, over a nonempty mask. -/
theorem masked_sup_sqrt (s : ι → EReal) (P : ι → Prop) [DecidablePred P] (hP : ∃ k, P k) :
    (Finset.univ.sup fun k => if P k then Ideal.sqrt (max (s k) 0) else ⊥)
      = Ideal.sqrt (max (Finset.univ.sup fun k => if P k then s k else ⊥) 0) :=
  masked_sup_map clampSqrt_monotone s P hP

/-- The clamped root of the masked minimum of the squares is the masked minimum of the clamped
    roots, over a nonempty mask. -/
theorem masked_inf_sqrt (s : ι → EReal) (N : ι → Prop) [DecidablePred N] (hN : ∃ k, N k) :
    (Finset.univ.inf fun k => if N k then Ideal.sqrt (max (s k) 0) else ⊤)
      = Ideal.sqrt (max (Finset.univ.inf fun k => if N k then s k else ⊤) 0) :=
  masked_inf_map clampSqrt_monotone s N hN

end Commute

/-! ## The row theorem -/

section Row
variable {ι : Type*} [Fintype ι]

/-- Both sentinels have been overwritten exactly when both masks are nonempty, for entries that
    are neither `⊥` nor `⊤`. -/
theorem valid_iff (s : ι → EReal) (P N : ι → Prop) [DecidablePred P] [DecidablePred N]
    (hs : ∀ k, s k ≠ ⊥ ∧ s k ≠ ⊤) :
    (⊥ < (Finset.univ.sup fun k => if P k then s k else ⊥)
        ∧ (Finset.univ.inf fun k => if N k then s k else ⊤) < ⊤)
      ↔ ((∃ k, P k) ∧ ∃ k, N k) := by
  rw [bot_lt_masked_sup_iff s P (fun k => (hs k).1),
    masked_inf_lt_top_iff s N (fun k => (hs k).2)]

/-- The row theorem for an arbitrary monotone map `r` in place of the clamped root, and with the
    two validity flags given as arbitrary decidable propositions equivalent to "both sentinels
    overwritten" (left, squares first and one `r` at the end) and to "both masks nonempty" (right,
    `r` entrywise first). -/
theorem row_eq_of_monotone {r : EReal → EReal} (hr : Monotone r) (s : ι → EReal)
    (P N : ι → Prop) [DecidablePred P] [DecidablePred N] (c : EReal)
    (hs : ∀ k, s k ≠ ⊥ ∧ s k ≠ ⊤) (vk vr : Prop) [Decidable vk] [Decidable vr]
    (hvk : vk ↔ (⊥ < (Finset.univ.sup fun k => if P k then s k else ⊥)
        ∧ (Finset.univ.inf fun k => if N k then s k else ⊤) < ⊤))
    (hvr : vr ↔ ((∃ k, P k) ∧ ∃ k, N k)) :
    (if vk then
        max (r (if vk then (Finset.univ.sup fun k => if P k then s k else ⊥) else 0)
          - r (if vk then (Finset.univ.inf fun k => if N k then s k else ⊤) else 0) + c) 0
      else 0)
    = (if vr then
        max ((if vr then (Finset.univ.sup fun k => if P k then r (s k) else ⊥) else 0)
          - (if vr then (Finset.univ.inf fun k => if N k then r (s k) else ⊤) else 0) + c) 0
      else 0) := by
  have hiff : vk ↔ vr := by rw [hvk, hvr]; exact valid_iff s P N hs
  by_cases h : vr
  · have hk : vk := hiff.mpr h
    obtain ⟨hP, hN⟩ := hvr.mp h
    simp only [if_pos h, if_pos hk]
    rw [masked_sup_map hr s P hP, masked_inf_map hr s N hN]
  · have hk : ¬ vk := fun hk => h (hiff.mp hk)
    rw [if_neg h, if_neg hk]

/-- THE ROW THEOREM.  With `HP` the masked maximum and `HN` the masked minimum of the squares, the
    loss `max (√(max HP 0) - √(max HN 0) + c) 0` guarded (twice) by "both sentinels overwritten" equals
    the loss `max (maxₖ √(max sₖ 0) - minₖ √(max sₖ 0) + c) 0` guarded (twice) by "both masks
    nonempty". -/
theorem row_loss_eq (s : ι → EReal) (P N : ι → Prop) [DecidablePred P] [DecidablePred N]
    (c : EReal) (hs : ∀ k, s k ≠ ⊥ ∧ s k ≠ ⊤) (vk vr : Prop) [Decidable vk] [Decidable vr]
    (hvk : vk ↔ (⊥ < (Finset.univ.sup fun k => if P k then s k else ⊥)
        ∧ (Finset.univ.inf fun k => if N k then s k else ⊤) < ⊤))
    (hvr : vr ↔ ((∃ k, P k) ∧ ∃ k, N k)) :
    (if vk then
        max (Ideal.sqrt (max (if vk then (Finset.univ.sup fun k => if P k then s k else ⊥) else 0) 0)
          - Ideal.sqrt (max (if vk then (Finset.univ.inf fun k => if N k then s k else ⊤) else 0) 0)
          + c) 0
      else 0)
    = (if vr then
        max ((if vr then
              (Finset.univ.sup fun k => if P k then Ideal.sqrt (max (s k) 0) else ⊥) else 0)
          - (if vr then
              (Finset.univ.inf fun k => if N k then Ideal.sqrt (max (s k) 0) else ⊤) else 0)
          + c) 0
      else 0) :=
  row_eq_of_monotone clampSqrt_monotone s P N c hs vk vr hvk hvr

/-- The row theorem with the two flags spelled out: `⊥ < HP ∧ HN < ⊤` on the left, and
    `(∃ k, P k) ∧ ∃ k, N k` on the right (any decidability instances). -/
theorem row_loss_eq' (s : ι → EReal) (P N : ι → Prop) [DecidablePred P] [DecidablePred N]
    (c : EReal) (hs : ∀ k, s k ≠ ⊥ ∧ s k ≠ ⊤)
    [Decidable (⊥ < (Finset.univ.sup fun k => if P k then s k else ⊥)
        ∧ (Finset.univ.inf fun k => if N k then s k else ⊤) < ⊤)]
    [Decidable ((∃ k, P k) ∧ ∃ k, N k)] :
    (if (⊥ < (Finset.univ.sup fun k => if P k then s k else ⊥)
          ∧ (Finset.univ.inf fun k => if N k then s k else ⊤) < ⊤) then
        max (Ideal.sqrt (max (if (⊥ < (Finset.univ.sup fun k => if P k then s k else ⊥)
                ∧ (Finset.univ.inf fun k => if N k then s k else ⊤) < ⊤)
              then (Finset.univ.sup fun k => if P k then s k else ⊥) else 0) 0)
          - Ideal.sqrt (max (if (⊥ < (Finset.univ.sup fun k => if P k then s k else ⊥)
                ∧ (Finset.univ.inf fun k => if N k then s k else ⊤) < ⊤)
              then (Finset.univ.inf fun k => if N k then s k else ⊤) else 0) 0)
          + c) 0
      else 0)
    = (if ((∃ k, P k) ∧ ∃ k, N k) then
        max ((if ((∃ k, P k) ∧ ∃ k, N k) then
              (Finset.univ.sup fun k => if P k then Ideal.sqrt (max (s k) 0) else ⊥) else 0)
          - (if ((∃ k, P k) ∧ ∃ k, N k) then
              (Finset.univ.inf fun k => if N k then Ideal.sqrt (max (s k) 0) else ⊤) else 0)
          + c) 0
      else 0) :=
  row_loss_eq s P N c hs _ _ Iff.rfl Iff.rfl

/-- The row theorem for masks given as Boolean functions. -/
theorem row_loss_eq_bool (s : ι → EReal) (p n : ι → Bool) (c : EReal)
    (hs : ∀ k, s k ≠ ⊥ ∧ s k ≠ ⊤) (vk vr : Prop) [Decidable vk] [Decidable vr]
    (hvk : vk ↔ (⊥ < (Finset.univ.sup fun k => if p k then s k else ⊥)
        ∧ (Finset.univ.inf fun k => if n k then s k else ⊤) < ⊤))
    (hvr : vr ↔ ((∃ k, p k = true) ∧ ∃ k, n k = true)) :
    (if vk then
        max (Ideal.sqrt (max (if vk then (Finset.univ.sup fun k => if p k then s k else ⊥) else 0) 0)
          - Ideal.sqrt (max (if vk then (Finset.univ.inf fun k => if n k then s k else ⊤) else 0) 0)
          + c) 0
      else 0)
    = (if vr then
        max ((if vr then
              (Finset.univ.sup fun k => if p k then Ideal.sqrt (max (s k) 0) else ⊥) else 0)
          - (if vr then
              (Finset.univ.inf fun k => if n k then Ideal.sqrt (max (s k) 0) else ⊤) else 0)
          + c) 0
      else 0) :=
  row_loss_eq s (fun k => p k = true) (fun k => n k = true) c hs vk vr hvk hvr

end Row

end Cert.Triplet.Math
-- ==== Proof.KAccum.lean ====
/-
  The running maximum and minimum, in closed form. With rows `R = 1024 a + p` (row block `a`) and columns
  `K = 512 j + q` (column tile `j`), the body's tile of squared distances at `(p, q)` is the squared distance of rows `R`
  and `K`, its tile of similarities their cosine similarity, and its diagonal mask says `R = K`. So after the last tile
  of a row block the first scratch buffer holds, in row `p`, the supremum over ALL columns `K` of the squared distances
  to the positives of row `R`, and the second the infimum over the negatives.
-/
import proofs.«137539_j22351009809014_2_alg».proof.Proof.KRecur
import proofs.«137539_j22351009809014_2_alg».proof.Proof.KHost
import proofs.«137539_j22351009809014_2_alg».proof.Proof.KPayloads2
import proofs.«137539_j22351009809014_2_alg».proof.Proof.LibMaskedExtremaRoot

set_option maxRecDepth 16384

noncomputable section

namespace Cert.KernelIdeal.HandI

open Cert.KernelIdeal Cert.KernelIdeal.Gen Cert.KernelIdeal.Hand
open Idealize.ShloMosaic Idealize.ShloMosaic.TcCoe Idealize.ShloMosaic.ValueIdx
open Idealize.SL.Sem
open Cert.Triplet

variable (m : (ℓ : Loc nD τ sig) → Buf (Elt Ideal) ℓ) (c : Dev nD)

open Cert.KernelIdeal.PayIdeal Cert.Triplet.Math

theorem hN128 : cfg0.N = 128 := N_0

/-- The grid point's two coordinates: its row block and its column tile. -/
theorem coords0 : ∀ t : Fin cfg0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)

/-- Row `p` of row block `a`, and column `q` of column tile `j`, among the 8192. -/
def rowIx (a : Fin 8) (p : Fin 1024) : Fin 8192 := ⟨1024 * a.val + p.val, by have := a.isLt; have := p.isLt; omega⟩
def colIx (j : Fin 16) (q : Fin 512) : Fin 8192 := ⟨512 * j.val + q.val, by have := j.isLt; have := q.isLt; omega⟩
def blkOf (t : Fin cfg0.N) : Fin 8 := ⟨t.val / 16, by have := t.isLt; have := hN128; omega⟩
def tileOf (t : Fin cfg0.N) : Fin 16 := ⟨t.val % 16, by omega⟩

theorem ite_iff {α : Type} {p q : Prop} [Decidable p] [Decidable q] (h : p ↔ q) (a b : α) : (if p then a else b) = if q then a else b :=
  if_congr h rfl rfl

/-- The tile of squared distances at `(p, q)` is the squared distance of the two rows. -/
theorem tileD_apply (t : Fin cfg0.N) (p : Fin 1024) (q : Fin 512) :
    k0_pay9 (F := Ideal) (iblk m c 0 t) (iblk m c 1 t) (iblk m c 4 t) (iblk m c 5 t) (ix2 p q)
      = Spec.sd (X0 m c) (rowIx (blkOf t) p) (colIx (tileOf t) q) := by
  rw [pay9_apply]
  rw [iblk4_apply m c t p (rowIx (blkOf t) p) rfl, iblk5_apply m c t q (colIx (tileOf t) q) rfl, V_v7_apply, V_v8_apply]
  unfold Spec.sd Spec.dot
  congr 2
  refine Finset.sum_congr rfl fun d _ => ?_
  rw [iblk0_apply m c t p d (rowIx (blkOf t) p) rfl, iblk1_apply m c t q d (colIx (tileOf t) q) rfl, V_arg0_apply, V_arg0_apply]

/-- The tile of similarities at `(p, q)` is the cosine similarity of the two rows' weights. -/
theorem tileS_apply (t : Fin cfg0.N) (p : Fin 1024) (q : Fin 512) :
    k0_pay10 (F := Ideal) (iblk m c 2 t) (iblk m c 3 t) (ix2 p q)
      = Spec.sim (X1 m c) (rowIx (blkOf t) p) (colIx (tileOf t) q) := by
  rw [pay10_apply]
  unfold Spec.sim
  refine Finset.sum_congr rfl fun e _ => ?_
  rw [iblk2_apply m c t p e (rowIx (blkOf t) p) rfl, iblk3_apply m c t q e (colIx (tileOf t) q) rfl, V_v4_apply, V_v4_apply]

/-- The diagonal mask at `(p, q)` says the two rows are one. -/
theorem eye_apply (t : Fin cfg0.N) (p : Fin 1024) (q : Fin 512) :
    k0_pay8 (grid0.coords t) (ix2 p q) = 1#1 ↔ rowIx (blkOf t) p = colIx (tileOf t) q := by
  rw [pay8_eq_one_iff]
  have hc := coords0 t
  rw [hc.1, hc.2]
  constructor
  · intro h; apply Fin.ext; show 1024 * (t.val / 16) + p.val = 512 * (t.val % 16) + q.val; omega
  · intro h; have := congrArg Fin.val h; change 1024 * (t.val / 16) + p.val = 512 * (t.val % 16) + q.val at this; omega

/-- The masks of the tile are the positives and the negatives of the row among the tile's columns. -/
theorem pos_iff (t : Fin cfg0.N) (p : Fin 1024) (q : Fin 512) :
    (k0_pay11 (F := Ideal) (ix2 p q) < k0_pay10 (F := Ideal) (iblk m c 2 t) (iblk m c 3 t) (ix2 p q) ∧ k0_pay8 (grid0.coords t) (ix2 p q) ≠ 1#1)
      ↔ Spec.Pos (X1 m c) (rowIx (blkOf t) p) (colIx (tileOf t) q) := by
  rw [pay11_apply, tileS_apply, Ne, eye_apply]; rfl

theorem neg_iff (t : Fin cfg0.N) (p : Fin 1024) (q : Fin 512) :
    (k0_pay10 (F := Ideal) (iblk m c 2 t) (iblk m c 3 t) (ix2 p q) < Spec.negThresh ∧ k0_pay8 (grid0.coords t) (ix2 p q) ≠ 1#1)
      ↔ Spec.Neg (X1 m c) (rowIx (blkOf t) p) (colIx (tileOf t) q) := by
  rw [tileS_apply, Ne, eye_apply]; rfl

open Classical in
/-- The masked maximum of one tile's squared distances, for row `R` and column tile `j`. -/
def tileSup (R : Fin 8192) (j : Fin 16) : EReal :=
  Finset.univ.sup fun q : Fin 512 => if Spec.Pos (X1 m c) R (colIx j q) then Spec.sd (X0 m c) R (colIx j q) else ⊥
open Classical in
def tileInf (R : Fin 8192) (j : Fin 16) : EReal :=
  Finset.univ.inf fun q : Fin 512 => if Spec.Neg (X1 m c) R (colIx j q) then Spec.sd (X0 m c) R (colIx j q) else ⊤
open Classical in
/-- The masked maximum and minimum over all the columns. -/
def rowSup (R : Fin 8192) : EReal :=
  Finset.univ.sup fun K : Fin 8192 => if Spec.Pos (X1 m c) R K then Spec.sd (X0 m c) R K else ⊥
open Classical in
def rowInf (R : Fin 8192) : EReal :=
  Finset.univ.inf fun K : Fin 8192 => if Spec.Neg (X1 m c) R K then Spec.sd (X0 m c) R K else ⊤

/-- The tile's term of the running maximum. -/
theorem tile_max (t : Fin cfg0.N) (p : Fin 1024) (prev : Vec Ideal S1024x1 .f32) :
    k0_pay1 (F := Ideal) (k0_pay8 (grid0.coords t)) (k0_pay9 (iblk m c 0 t) (iblk m c 1 t) (iblk m c 4 t) (iblk m c 5 t)) (k0_pay10 (iblk m c 2 t) (iblk m c 3 t)) (k0_pay11 (F := Ideal)) prev (ix2 p (0 : Fin 1))
      = max (prev (ix2 p (0 : Fin 1))) (tileSup m c (rowIx (blkOf t) p) (tileOf t)) := by
  classical
  rw [pay1_apply]
  unfold tileSup
  congr 1
  refine Finset.sup_congr rfl fun q _ => ?_
  rw [tileD_apply]
  exact ite_iff (pos_iff m c t p q) _ _

theorem tile_min (t : Fin cfg0.N) (p : Fin 1024) (prev : Vec Ideal S1024x1 .f32) :
    k0_pay2 (F := Ideal) (k0_pay8 (grid0.coords t)) (k0_pay9 (iblk m c 0 t) (iblk m c 1 t) (iblk m c 4 t) (iblk m c 5 t)) (k0_pay10 (iblk m c 2 t) (iblk m c 3 t)) prev (ix2 p (0 : Fin 1))
      = min (prev (ix2 p (0 : Fin 1))) (tileInf m c (rowIx (blkOf t) p) (tileOf t)) := by
  classical
  rw [pay2_apply]
  unfold tileInf
  congr 1
  refine Finset.inf_congr rfl fun q _ => ?_
  rw [tileD_apply]
  exact ite_iff (neg_iff m c t p q) _ _

/-- The 16 tiles of 512 columns are the 8192 columns. -/
theorem sup_tiles (R : Fin 8192) : (Finset.univ.sup fun j : Fin 16 => tileSup m c R j) = rowSup m c R := by
  classical
  unfold tileSup rowSup
  have h := sup_tiles_fin (m := 16) (n := 512) (fun K : Fin (16 * 512) => if Spec.Pos (X1 m c) R K then Spec.sd (X0 m c) R K else ⊥)
  refine Eq.trans ?_ h
  refine Finset.sup_congr rfl fun j _ => Finset.sup_congr rfl fun q _ => ?_
  have e : colIx j q = (finProdFinEquiv (j, q) : Fin (16 * 512)) := Fin.ext (by show 512 * j.val + q.val = q.val + 512 * j.val; omega)
  rw [e]

theorem inf_tiles (R : Fin 8192) : (Finset.univ.inf fun j : Fin 16 => tileInf m c R j) = rowInf m c R := by
  classical
  unfold tileInf rowInf
  have h := inf_tiles_fin (m := 16) (n := 512) (fun K : Fin (16 * 512) => if Spec.Neg (X1 m c) R K then Spec.sd (X0 m c) R K else ⊤)
  refine Eq.trans ?_ h
  refine Finset.inf_congr rfl fun j _ => Finset.inf_congr rfl fun q _ => ?_
  have e : colIx j q = (finProdFinEquiv (j, q) : Fin (16 * 512)) := Fin.ext (by show 512 * j.val + q.val = q.val + 512 * j.val; omega)
  rw [e]

end Cert.KernelIdeal.HandI

end
-- ==== Proof.KRows.lean ====
/-
  The recurrence solved: over the sixteen column tiles of a row block the running maximum (minimum) of a row is the
  join of the tiles' masked maxima (minima), which is the masked supremum (infimum) over all 8192 columns.
-/
import proofs.«137539_j22351009809014_2_alg».proof.Proof.KAccum

set_option maxRecDepth 16384

noncomputable section

namespace Cert.KernelIdeal.HandI

open Cert.KernelIdeal Cert.KernelIdeal.Gen Cert.KernelIdeal.Hand
open Idealize.ShloMosaic Idealize.ShloMosaic.TcCoe Idealize.ShloMosaic.ValueIdx
open Idealize.SL.Sem
open Cert.Triplet

variable (m : (ℓ : Loc nD τ sig) → Buf (Elt Ideal) ℓ) (c : Dev nD)

open Cert.KernelIdeal.PayIdeal Cert.Triplet.Math

theorem runMax_idx_first (t : Fin cfg0.N) (h0 : t.val % 16 = 0) (p : Fin 1024) :
    runMax m c t (ix2 p (0 : Fin 1)) = max ⊥ (tileSup m c (rowIx (blkOf t) p) (tileOf t)) := by
  rw [runMax_first m c t h0, tile_max, pay6_apply]

theorem runMax_idx_next (t : Fin cfg0.N) (h0 : ¬t.val % 16 = 0) (p : Fin 1024) :
    runMax m c t (ix2 p (0 : Fin 1)) = max (runMax m c (prevPt t) (ix2 p (0 : Fin 1))) (tileSup m c (rowIx (blkOf t) p) (tileOf t)) := by
  rw [runMax_next m c t h0, tile_max]

/-- After the last column tile of a row block the running maximum of row `p` is the masked supremum over all columns. -/
theorem runMax_last (t : Fin cfg0.N) (h15 : t.val % 16 = 15) (p : Fin 1024) :
    runMax m c t (ix2 p (0 : Fin 1)) = rowSup m c (rowIx (blkOf t) p) := by
  have hN := hN128
  have htlt := t.isLt
  have ha : (blkOf t).val = t.val / 16 := rfl
  have halt : (blkOf t).val < 8 := (blkOf t).isLt
  let aSeq : ℕ → EReal := fun j => if h : 16 * (blkOf t).val + j < cfg0.N then runMax m c ⟨16 * (blkOf t).val + j, h⟩ (ix2 p (0 : Fin 1)) else ⊥
  let gSeq : ℕ → EReal := fun j => tileSup m c (rowIx (blkOf t) p) ⟨j % 16, Nat.mod_lt _ (by norm_num)⟩
  have h0 : aSeq 0 = max ⊥ (gSeq 0) := by
    have hlt : 16 * (blkOf t).val + 0 < cfg0.N := by rw [hN]; omega
    show (if h : 16 * (blkOf t).val + 0 < cfg0.N then _ else _) = _
    rw [dif_pos hlt, runMax_idx_first m c ⟨16 * (blkOf t).val + 0, hlt⟩ (by show (16 * (blkOf t).val + 0) % 16 = 0; omega) p]
    have e1 : blkOf ⟨16 * (blkOf t).val + 0, hlt⟩ = blkOf t := Fin.ext (by show (16 * (blkOf t).val + 0) / 16 = (blkOf t).val; omega)
    have e2 : tileOf ⟨16 * (blkOf t).val + 0, hlt⟩ = ⟨0 % 16, Nat.mod_lt _ (by norm_num)⟩ := Fin.ext (by show (16 * (blkOf t).val + 0) % 16 = 0 % 16; omega)
    rw [e1, e2]
  have hs : ∀ j, j < 15 → aSeq (j + 1) = max (aSeq j) (gSeq (j + 1)) := by
    intro j hj
    have hlt1 : 16 * (blkOf t).val + (j + 1) < cfg0.N := by rw [hN]; omega
    have hlt0 : 16 * (blkOf t).val + j < cfg0.N := by rw [hN]; omega
    show (if h : 16 * (blkOf t).val + (j + 1) < cfg0.N then _ else _) = max (if h : 16 * (blkOf t).val + j < cfg0.N then _ else _) _
    rw [dif_pos hlt1, dif_pos hlt0, runMax_idx_next m c ⟨16 * (blkOf t).val + (j + 1), hlt1⟩ (by show ¬(16 * (blkOf t).val + (j + 1)) % 16 = 0; omega) p]
    have e0 : prevPt ⟨16 * (blkOf t).val + (j + 1), hlt1⟩ = ⟨16 * (blkOf t).val + j, hlt0⟩ := Fin.ext (by show 16 * (blkOf t).val + (j + 1) - 1 = 16 * (blkOf t).val + j; omega)
    have e1 : blkOf ⟨16 * (blkOf t).val + (j + 1), hlt1⟩ = blkOf t := Fin.ext (by show (16 * (blkOf t).val + (j + 1)) / 16 = (blkOf t).val; omega)
    have e2 : tileOf ⟨16 * (blkOf t).val + (j + 1), hlt1⟩ = ⟨(j + 1) % 16, Nat.mod_lt _ (by norm_num)⟩ := Fin.ext (by show (16 * (blkOf t).val + (j + 1)) % 16 = (j + 1) % 16; omega)
    rw [e0, e1, e2]
  have hlast := running_max_last gSeq aSeq 15 h0 hs
  have hlt15 : 16 * (blkOf t).val + 15 < cfg0.N := by rw [hN]; omega
  have et : t = ⟨16 * (blkOf t).val + 15, hlt15⟩ := Fin.ext (by show t.val = 16 * (t.val / 16) + 15; omega)
  have ea : aSeq 15 = runMax m c t (ix2 p (0 : Fin 1)) := by
    show (if h : 16 * (blkOf t).val + 15 < cfg0.N then _ else _) = _
    rw [dif_pos hlt15]; exact congrArg (fun s => runMax m c s (ix2 p (0 : Fin 1))) et.symm
  rw [← ea, hlast, ← sup_tiles m c (rowIx (blkOf t) p)]
  refine Finset.sup_congr rfl fun i _ => ?_
  show tileSup m c _ ⟨(i : ℕ) % 16, _⟩ = tileSup m c _ i
  congr 1
  exact Fin.ext (Nat.mod_eq_of_lt i.isLt)

theorem runMin_idx_first (t : Fin cfg0.N) (h0 : t.val % 16 = 0) (p : Fin 1024) :
    runMin m c t (ix2 p (0 : Fin 1)) = min ⊤ (tileInf m c (rowIx (blkOf t) p) (tileOf t)) := by
  rw [runMin_first m c t h0, tile_min, pay7_apply]

theorem runMin_idx_next (t : Fin cfg0.N) (h0 : ¬t.val % 16 = 0) (p : Fin 1024) :
    runMin m c t (ix2 p (0 : Fin 1)) = min (runMin m c (prevPt t) (ix2 p (0 : Fin 1))) (tileInf m c (rowIx (blkOf t) p) (tileOf t)) := by
  rw [runMin_next m c t h0, tile_min]

/-- After the last column tile of a row block the running minimum of row `p` is the masked infimum over all columns. -/
theorem runMin_last (t : Fin cfg0.N) (h15 : t.val % 16 = 15) (p : Fin 1024) :
    runMin m c t (ix2 p (0 : Fin 1)) = rowInf m c (rowIx (blkOf t) p) := by
  have hN := hN128
  have htlt := t.isLt
  have ha : (blkOf t).val = t.val / 16 := rfl
  have halt : (blkOf t).val < 8 := (blkOf t).isLt
  let aSeq : ℕ → EReal := fun j => if h : 16 * (blkOf t).val + j < cfg0.N then runMin m c ⟨16 * (blkOf t).val + j, h⟩ (ix2 p (0 : Fin 1)) else ⊤
  let gSeq : ℕ → EReal := fun j => tileInf m c (rowIx (blkOf t) p) ⟨j % 16, Nat.mod_lt _ (by norm_num)⟩
  have h0 : aSeq 0 = min ⊤ (gSeq 0) := by
    have hlt : 16 * (blkOf t).val + 0 < cfg0.N := by rw [hN]; omega
    show (if h : 16 * (blkOf t).val + 0 < cfg0.N then _ else _) = _
    rw [dif_pos hlt, runMin_idx_first m c ⟨16 * (blkOf t).val + 0, hlt⟩ (by show (16 * (blkOf t).val + 0) % 16 = 0; omega) p]
    have e1 : blkOf ⟨16 * (blkOf t).val + 0, hlt⟩ = blkOf t := Fin.ext (by show (16 * (blkOf t).val + 0) / 16 = (blkOf t).val; omega)
    have e2 : tileOf ⟨16 * (blkOf t).val + 0, hlt⟩ = ⟨0 % 16, Nat.mod_lt _ (by norm_num)⟩ := Fin.ext (by show (16 * (blkOf t).val + 0) % 16 = 0 % 16; omega)
    rw [e1, e2]
  have hs : ∀ j, j < 15 → aSeq (j + 1) = min (aSeq j) (gSeq (j + 1)) := by
    intro j hj
    have hlt1 : 16 * (blkOf t).val + (j + 1) < cfg0.N := by rw [hN]; omega
    have hlt0 : 16 * (blkOf t).val + j < cfg0.N := by rw [hN]; omega
    show (if h : 16 * (blkOf t).val + (j + 1) < cfg0.N then _ else _) = min (if h : 16 * (blkOf t).val + j < cfg0.N then _ else _) _
    rw [dif_pos hlt1, dif_pos hlt0, runMin_idx_next m c ⟨16 * (blkOf t).val + (j + 1), hlt1⟩ (by show ¬(16 * (blkOf t).val + (j + 1)) % 16 = 0; omega) p]
    have e0 : prevPt ⟨16 * (blkOf t).val + (j + 1), hlt1⟩ = ⟨16 * (blkOf t).val + j, hlt0⟩ := Fin.ext (by show 16 * (blkOf t).val + (j + 1) - 1 = 16 * (blkOf t).val + j; omega)
    have e1 : blkOf ⟨16 * (blkOf t).val + (j + 1), hlt1⟩ = blkOf t := Fin.ext (by show (16 * (blkOf t).val + (j + 1)) / 16 = (blkOf t).val; omega)
    have e2 : tileOf ⟨16 * (blkOf t).val + (j + 1), hlt1⟩ = ⟨(j + 1) % 16, Nat.mod_lt _ (by norm_num)⟩ := Fin.ext (by show (16 * (blkOf t).val + (j + 1)) % 16 = (j + 1) % 16; omega)
    rw [e0, e1, e2]
  have hlast := running_min_last gSeq aSeq 15 h0 hs
  have hlt15 : 16 * (blkOf t).val + 15 < cfg0.N := by rw [hN]; omega
  have et : t = ⟨16 * (blkOf t).val + 15, hlt15⟩ := Fin.ext (by show t.val = 16 * (t.val / 16) + 15; omega)
  have ea : aSeq 15 = runMin m c t (ix2 p (0 : Fin 1)) := by
    show (if h : 16 * (blkOf t).val + 15 < cfg0.N then _ else _) = _
    rw [dif_pos hlt15]; exact congrArg (fun s => runMin m c s (ix2 p (0 : Fin 1))) et.symm
  rw [← ea, hlast, ← inf_tiles m c (rowIx (blkOf t) p)]
  refine Finset.inf_congr rfl fun i _ => ?_
  show tileInf m c _ ⟨(i : ℕ) % 16, _⟩ = tileInf m c _ i
  congr 1
  exact Fin.ext (Nat.mod_eq_of_lt i.isLt)

end Cert.KernelIdeal.HandI

end
-- ==== Proof.KFinal.lean ====
/-
  From blocks to arrays: each of the two output arrays is written back once per row block, at the block's last column
  tile, and those eight blocks of 1024 rows tile its 8192 rows; so if what each such point leaves in the window is the
  block of one whole-array function, the array ends holding that function.
-/
import proofs.«137539_j22351009809014_2_alg».proof.Proof.KFrame
import proofs.«137539_j22351009809014_2_alg».proof.Proof.KBlocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem xsize0_6 : ∀ t : Fin cfg0.N, win0_6.xsize (grid0.coords t) (0 : Fin 2) = 1024 ∧ win0_6.xsize (grid0.coords t) (1 : Fin 2) = 1 :=
  (by decide +kernel : ∀ t : Fin grid0.N, win0_6.xsize (grid0.coords t) (0 : Fin 2) = 1024 ∧ win0_6.xsize (grid0.coords t) (1 : Fin 2) = 1)
theorem xsize0_7 : ∀ t : Fin cfg0.N, win0_7.xsize (grid0.coords t) (0 : Fin 2) = 1024 ∧ win0_7.xsize (grid0.coords t) (1 : Fin 2) = 1 :=
  (by decide +kernel : ∀ t : Fin grid0.N, win0_7.xsize (grid0.coords t) (0 : Fin 2) = 1024 ∧ win0_7.xsize (grid0.coords t) (1 : Fin 2) = 1)

/-- The one write-back of a row block's window 6, at the block's last column tile, writes the block of `G`. -/
theorem flushed6_eq (c : Dev nD) (G : S8192x1.Idx → Elt F .f32)
    (hG : ∀ (t : Fin cfg0.N), t.val % 16 = 15 → ∀ (p : Fin 1024) (r : Fin 8192), r.val = 1024 * (t.val / 16) + p.val →
      (outsAt0 m c t.val t.isLt).1 (ix2 p (0 : Fin 1)) = G (ix2 r (0 : Fin 1)))
    (t : Fin cfg0.N) (hf : (cfg0.win 6).flush t = true) :
    (dats m 0 c).flushed 6 t = ((cfg0.win 6).blk t).view.read (Elt F) G := by
  have h15 : t.val % 16 = 15 := (flush0_6 t).mp hf
  have hN : t.val < 128 := lt_of_lt_of_eq t.isLt (show cfg0.N = 128 from N_0)
  have hi := idx0_6 t
  show (cfg0.win 6).cut (grid0.coords t) ((dats m 0 c).after 6 t) = _
  rw [after0_6]
  funext y
  obtain ⟨p, z, rfl⟩ : ∃ (p : Fin 1024) (z : Fin 1), y = ix2 p z := ⟨y 0, y 1, eq_ix2 y⟩
  obtain rfl : z = 0 := Subsingleton.elim _ _
  rw [View.read_apply]
  refine (hG t h15 p ⟨1024 * (t.val / 16) + p.val, by have := p.isLt; omega⟩ rfl).trans ?_
  congr 1
  funext a
  apply Fin.ext
  match a with
  | ⟨0, _⟩ => show 1024 * (t.val / 16) + p.val = win0_6.index t 0 * 1024 + 1 * p.val; rw [hi.1]; omega
  | ⟨1, _⟩ => show 0 = win0_6.index t 1 * 1 + 1 * 0; rw [hi.2]

/-- Every row lies in the block its row block's last column tile writes back, so the array ends holding `G`. -/
theorem arr6_eq (c : Dev nD) (G : S8192x1.Idx → Elt F .f32)
    (hG : ∀ (t : Fin cfg0.N), t.val % 16 = 15 → ∀ (p : Fin 1024) (r : Fin 8192), r.val = 1024 * (t.val / 16) + p.val →
      (outsAt0 m c t.val t.isLt).1 (ix2 p (0 : Fin 1)) = G (ix2 r (0 : Fin 1))) :
    (dats m 0 c).arrAt 6 cfg0.N = G :=
  (dats m 0 c).arrAt_eq_of_cover 6 G (flushed6_eq m c G hG) fun i => by
    have h0 : (i 0 : Nat) < 8192 := (i 0).isLt
    have h1 : (i 1 : Nat) < 1 := (i 1).isLt
    have hN : cfg0.N = 128 := N_0
    have ht : 16 * ((i 0 : Nat) / 1024) + 15 < cfg0.N := by rw [hN]; omega
    refine ⟨⟨16 * ((i 0 : Nat) / 1024) + 15, ht⟩, (flush0_6 _).mpr (by show (16 * ((i 0 : Nat) / 1024) + 15) % 16 = 15; omega), ?_⟩
    show i ∈ ((View.whole main_v9_0).slice (win0_6.rect ⟨16 * ((i 0 : Nat) / 1024) + 15, ht⟩)).set
    rw [View.set_slice_whole, Rect.mem_set_unit]
    intro a
    have hi := idx0_6 ⟨16 * ((i 0 : Nat) / 1024) + 15, ht⟩
    have hx := xsize0_6 ⟨16 * ((i 0 : Nat) / 1024) + 15, ht⟩
    match a with
    | ⟨0, _⟩ =>
      show win0_6.index _ 0 * win0_6.size 0 ≤ (i 0 : Nat) ∧ (i 0 : Nat) < win0_6.index _ 0 * win0_6.size 0 + win0_6.xsize (grid0.coords _) 0
      rw [hi.1, hx.1, show win0_6.size 0 = 1024 from rfl]
      show (16 * ((i 0 : Nat) / 1024) + 15) / 16 * 1024 ≤ (i 0 : Nat) ∧ (i 0 : Nat) < (16 * ((i 0 : Nat) / 1024) + 15) / 16 * 1024 + 1024
      omega
    | ⟨1, _⟩ =>
      show win0_6.index _ 1 * win0_6.size 1 ≤ (i 1 : Nat) ∧ (i 1 : Nat) < win0_6.index _ 1 * win0_6.size 1 + win0_6.xsize (grid0.coords _) 1
      rw [hi.2, hx.2, show win0_6.size 1 = 1 from rfl]
      omega

/-- The one write-back of a row block's window 7, at the block's last column tile, writes the block of `G`. -/
theorem flushed7_eq (c : Dev nD) (G : S8192x1.Idx → Elt F .f32)
    (hG : ∀ (t : Fin cfg0.N), t.val % 16 = 15 → ∀ (p : Fin 1024) (r : Fin 8192), r.val = 1024 * (t.val / 16) + p.val →
      (outsAt0 m c t.val t.isLt).2.1 (ix2 p (0 : Fin 1)) = G (ix2 r (0 : Fin 1)))
    (t : Fin cfg0.N) (hf : (cfg0.win 7).flush t = true) :
    (dats m 0 c).flushed 7 t = ((cfg0.win 7).blk t).view.read (Elt F) G := by
  have h15 : t.val % 16 = 15 := (flush0_7 t).mp hf
  have hN : t.val < 128 := lt_of_lt_of_eq t.isLt (show cfg0.N = 128 from N_0)
  have hi := idx0_7 t
  show (cfg0.win 7).cut (grid0.coords t) ((dats m 0 c).after 7 t) = _
  rw [after0_7]
  funext y
  obtain ⟨p, z, rfl⟩ : ∃ (p : Fin 1024) (z : Fin 1), y = ix2 p z := ⟨y 0, y 1, eq_ix2 y⟩
  obtain rfl : z = 0 := Subsingleton.elim _ _
  rw [View.read_apply]
  refine (hG t h15 p ⟨1024 * (t.val / 16) + p.val, by have := p.isLt; omega⟩ rfl).trans ?_
  congr 1
  funext a
  apply Fin.ext
  match a with
  | ⟨0, _⟩ => show 1024 * (t.val / 16) + p.val = win0_7.index t 0 * 1024 + 1 * p.val; rw [hi.1]; omega
  | ⟨1, _⟩ => show 0 = win0_7.index t 1 * 1 + 1 * 0; rw [hi.2]

/-- Every row lies in the block its row block's last column tile writes back, so the array ends holding `G`. -/
theorem arr7_eq (c : Dev nD) (G : S8192x1.Idx → Elt F .f32)
    (hG : ∀ (t : Fin cfg0.N), t.val % 16 = 15 → ∀ (p : Fin 1024) (r : Fin 8192), r.val = 1024 * (t.val / 16) + p.val →
      (outsAt0 m c t.val t.isLt).2.1 (ix2 p (0 : Fin 1)) = G (ix2 r (0 : Fin 1))) :
    (dats m 0 c).arrAt 7 cfg0.N = G :=
  (dats m 0 c).arrAt_eq_of_cover 7 G (flushed7_eq m c G hG) fun i => by
    have h0 : (i 0 : Nat) < 8192 := (i 0).isLt
    have h1 : (i 1 : Nat) < 1 := (i 1).isLt
    have hN : cfg0.N = 128 := N_0
    have ht : 16 * ((i 0 : Nat) / 1024) + 15 < cfg0.N := by rw [hN]; omega
    refine ⟨⟨16 * ((i 0 : Nat) / 1024) + 15, ht⟩, (flush0_7 _).mpr (by show (16 * ((i 0 : Nat) / 1024) + 15) % 16 = 15; omega), ?_⟩
    show i ∈ ((View.whole main_v9_1).slice (win0_7.rect ⟨16 * ((i 0 : Nat) / 1024) + 15, ht⟩)).set
    rw [View.set_slice_whole, Rect.mem_set_unit]
    intro a
    have hi := idx0_7 ⟨16 * ((i 0 : Nat) / 1024) + 15, ht⟩
    have hx := xsize0_7 ⟨16 * ((i 0 : Nat) / 1024) + 15, ht⟩
    match a with
    | ⟨0, _⟩ =>
      show win0_7.index _ 0 * win0_7.size 0 ≤ (i 0 : Nat) ∧ (i 0 : Nat) < win0_7.index _ 0 * win0_7.size 0 + win0_7.xsize (grid0.coords _) 0
      rw [hi.1, hx.1, show win0_7.size 0 = 1024 from rfl]
      show (16 * ((i 0 : Nat) / 1024) + 15) / 16 * 1024 ≤ (i 0 : Nat) ∧ (i 0 : Nat) < (16 * ((i 0 : Nat) / 1024) + 15) / 16 * 1024 + 1024
      omega
    | ⟨1, _⟩ =>
      show win0_7.index _ 1 * win0_7.size 1 ≤ (i 1 : Nat) ∧ (i 1 : Nat) < win0_7.index _ 1 * win0_7.size 1 + win0_7.xsize (grid0.coords _) 1
      rw [hi.2, hx.2, show win0_7.size 1 = 1 from rfl]
      omega

end Cert.KernelIdeal.Hand

end
-- ==== Proof.KResult.lean ====
/-
  The two output arrays, and the kernel's result. Row `R` of the first output array is the hinge loss of row `R`: the
  kernel takes the root of the clamped masked supremum of the squared distances, the specification the masked supremum
  of the roots of the clamped squared distances; the root of the clamp is monotone, and the two sentinel tests say "some
  column is a positive" and "some column is a negative" because every squared distance of finite embeddings is a real.
  Row `R` of the second output array is the validity flag. The host operations after the region average the first over
  the second.
-/
import proofs.«137539_j22351009809014_2_alg».proof.Proof.KRows
import proofs.«137539_j22351009809014_2_alg».proof.Proof.KFinal

set_option maxRecDepth 16384

noncomputable section

namespace Cert.KernelIdeal.HandI

open Cert.KernelIdeal Cert.KernelIdeal.Gen Cert.KernelIdeal.Hand
open Idealize.ShloMosaic Idealize.ShloMosaic.TcCoe Idealize.ShloMosaic.ValueIdx
open Idealize.SL.Sem
open Cert.Triplet

variable (m : (ℓ : Loc nD τ sig) → Buf (Elt Ideal) ℓ) (c : Dev nD)

open Cert.KernelIdeal.PayIdeal Cert.Triplet.Math

/-- The factor two of the squared distance is a real number. -/
theorem two_real : ∃ y : ℝ, Spec.two = (y : EReal) := by
  refine ⟨(8388608 : ℝ) * ((2 : ℝ) ^ 22)⁻¹, ?_⟩
  simp [Spec.two, Ideal.ofBits, Ideal.ieee]

/-- Every squared distance of rows of finite embeddings is a real number. -/
theorem sd_real (hx : ∀ i, ∃ y : ℝ, X0 m c i = (y : EReal)) (R K : Fin 8192) :
    Spec.sd (X0 m c) R K ≠ ⊥ ∧ Spec.sd (X0 m c) R K ≠ ⊤ := by
  unfold Spec.sd Spec.sq Spec.dot
  exact sqdist_ne_bot_ne_top (fun (r : Fin 8192) (d : Fin 128) => X0 m c (ix2 r d)) (fun r d => hx _) _ _ _
    (isReal_sum _ fun d => IsReal.mul (hx _) (hx _)) (isReal_sum _ fun d => IsReal.mul (hx _) (hx _)) two_real R K

/-- At the last column tile of a row block, row `p` of the first output window is the loss of its row. -/
theorem out6_idx (hx : ∀ i, ∃ y : ℝ, X0 m c i = (y : EReal)) (t : Fin cfg0.N) (h15 : t.val % 16 = 15) (p : Fin 1024) :
    (outsAt0 m c t.val t.isLt).1 (ix2 p (0 : Fin 1)) = Spec.rowLoss (X0 m c) (X1 m c) (rowIx (blkOf t) p) := by
  classical
  rw [out6_last m c t h15, pay4_apply, runMax_last m c t h15, runMin_last m c t h15]
  unfold rowSup rowInf
  refine (row_loss_eq' (fun K => Spec.sd (X0 m c) (rowIx (blkOf t) p) K) (Spec.Pos (X1 m c) (rowIx (blkOf t) p))
    (Spec.Neg (X1 m c) (rowIx (blkOf t) p)) Spec.margin (sd_real m c hx _)).trans ?_
  unfold Spec.rowLoss Spec.hardestPos Spec.hardestNeg Spec.dist Spec.Valid
  by_cases hv : (∃ k, Spec.Pos (X1 m c) (rowIx (blkOf t) p) k) ∧ ∃ k, Spec.Neg (X1 m c) (rowIx (blkOf t) p) k
  · simp only [if_pos hv]
  · simp only [if_neg hv]

/-- And row `p` of the second output window is the validity flag of its row. -/
theorem out7_idx (hx : ∀ i, ∃ y : ℝ, X0 m c i = (y : EReal)) (t : Fin cfg0.N) (h15 : t.val % 16 = 15) (p : Fin 1024) :
    (outsAt0 m c t.val t.isLt).2.1 (ix2 p (0 : Fin 1)) = Spec.validF (X1 m c) (rowIx (blkOf t) p) := by
  classical
  rw [out7_last m c t h15, pay5_apply, runMax_last m c t h15, runMin_last m c t h15]
  unfold rowSup rowInf Spec.validF Spec.Valid
  have hiff := valid_iff (fun K => Spec.sd (X0 m c) (rowIx (blkOf t) p) K) (Spec.Pos (X1 m c) (rowIx (blkOf t) p))
    (Spec.Neg (X1 m c) (rowIx (blkOf t) p)) (sd_real m c hx _)
  by_cases hv : (∃ k, Spec.Pos (X1 m c) (rowIx (blkOf t) p) k) ∧ ∃ k, Spec.Neg (X1 m c) (rowIx (blkOf t) p) k
  · rw [if_pos hv, if_pos (hiff.mpr hv)]
  · rw [if_neg hv, if_neg (fun h => hv (hiff.mp h))]

/-- The first output array ends holding the row losses. -/
theorem arr6_value (hx : ∀ i, ∃ y : ℝ, X0 m c i = (y : EReal)) :
    (dats m 0 c).arrAt 6 cfg0.N = fun i : S8192x1.Idx => Spec.rowLoss (X0 m c) (X1 m c) (i 0) :=
  arr6_eq m c _ fun t h15 p r hr => (out6_idx m c hx t h15 p).trans
    (congrArg (Spec.rowLoss (X0 m c) (X1 m c)) (Fin.ext (by show 1024 * (t.val / 16) + p.val = r.val; omega)))

/-- The second output array ends holding the validity flags. -/
theorem arr7_value (hx : ∀ i, ∃ y : ℝ, X0 m c i = (y : EReal)) :
    (dats m 0 c).arrAt 7 cfg0.N = fun i : S8192x1.Idx => Spec.validF (X1 m c) (i 0) :=
  arr7_eq m c _ fun t h15 p r hr => (out7_idx m c hx t h15 p).trans
    (congrArg (Spec.validF (X1 m c)) (Fin.ext (by show 1024 * (t.val / 16) + p.val = r.val; omega)))

end Cert.KernelIdeal.HandI

end
-- ==== Proof.LaunchShared.lean ====
/-
  The launch of the kernel region when two windows read one array.

  The pallas_call hands its first argument to windows 0 and 1 and the normalised weights to windows 2 and 3, so the
  eight windows stand on six distinct buffers.  The full share of each of the two shared buffers is dealt in halves
  between the two input windows on it; the other four are held whole.  Since an input array is never written, both
  windows on a shared buffer read the contents the region found there, and the halves rejoin when the region is left.

  Contents: the six buffers at the full share are the proof data's arrays at the windows' shares, as an equation
  (`arrBufs_eq_arrays`), which serves the entry into the region and both directions at its exit; the buffers'
  contents at the exit (`exit_arr`, `exit_rest`); @main as host lines, the region, host lines (`hmain_shared`), and
  that the later lines touch unscoped buffers only, allocate nothing and write no array; the later lines run from the
  region's exit (`tail_shared`); and the run of @main (`run_region`), whose postcondition gives every array at what
  the proof data computes and every other unscoped buffer at what the later lines leave.  Everything is stated for
  any float instance.
-/
import proofs.«137539_j22351009809014_2_alg».proof.Proof.KShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' shares

Windows 0 and 1 read one array and windows 2 and 3 another: the full share of each of the two is dealt in halves
between the windows on it; the other four arrays are held whole. -/

section Shares

variable {c : Dev nD} (dat : Dat τ (Elt F) Unit ℕ (UR sig nD τ) ℕ cfg0 c)

theorem share_0 : dat.share 0 = dat.q 0 := by unfold Dat.share; exact if_neg (by decide)
theorem share_1 : dat.share 1 = dat.q 1 := by unfold Dat.share; exact if_neg (by decide)
theorem share_2 : dat.share 2 = dat.q 2 := by unfold Dat.share; exact if_neg (by decide)
theorem share_3 : dat.share 3 = dat.q 3 := by unfold Dat.share; exact if_neg (by decide)
theorem share_4 : dat.share 4 = dat.q 4 := by unfold Dat.share; exact if_neg (by decide)
theorem share_5 : dat.share 5 = dat.q 5 := by unfold Dat.share; exact if_neg (by decide)
theorem share_6 : dat.share 6 = fullShare := by unfold Dat.share; exact if_pos (by decide)
theorem share_7 : dat.share 7 = fullShare := by unfold Dat.share; exact if_pos (by decide)

/-- Every window's array is a whole buffer: the proof data's arrays are whole buffers at the windows' shares. -/
theorem arrays_whole (G : (w : Fin cfg0.W) → Buf (Elt F) ((cfg0.win w).arr.view.loc (c : Thread nD τ))) :
    (dat.arrays G : sProp 𝕄)
      = bigSep Finset.univ fun w : Fin cfg0.W => ((cfg0.win w).arr.view.loc (c : Thread nD τ) ↦{dat.share w} G w) := by
  unfold Dat.arrays
  exact bigSep_congr fun w _ => by rw [(arr_whole0 w).set_eq_univ]

/-- The proof data's arrays, window by window, each a whole buffer at the window's share. -/
theorem arrays_chain (G : (w : Fin cfg0.W) → Buf (Elt F) ((cfg0.win w).arr.view.loc (c : Thread nD τ))) :
    (dat.arrays G : sProp 𝕄)
      = iprop((((c : Thread nD τ).loc main_arg0) ↦{dat.q 0} G 0) ∗ (((c : Thread nD τ).loc main_arg0) ↦{dat.q 1} G 1)
          ∗ (((c : Thread nD τ).loc main_v4) ↦{dat.q 2} G 2) ∗ (((c : Thread nD τ).loc main_v4) ↦{dat.q 3} G 3)
          ∗ (((c : Thread nD τ).loc main_v7) ↦{dat.q 4} G 4) ∗ (((c : Thread nD τ).loc main_v8) ↦{dat.q 5} G 5)
          ∗ (((c : Thread nD τ).loc main_v9_0) ↦{fullShare} G 6) ∗ (((c : Thread nD τ).loc main_v9_1) ↦{fullShare} G 7)) := by
  rw [arrays_whole, bigSep_W0, share_0, share_1, share_2, share_3, share_4, share_5, share_6, share_7]
  try rfl

/-- The six distinct buffers behind the eight windows' arrays, each whole at the full share. -/
theorem arrBufs_chain (c : Dev nD) (Vb : (b : Ref sig .tc) → Buf (Elt F) ((c : Thread nD τ).loc b)) :
    (Pipeline.arrBufs spec0 c Vb : sProp 𝕄)
      = iprop((((c : Thread nD τ).loc main_arg0) ↦{fullShare} Vb main_arg0) ∗ (((c : Thread nD τ).loc main_v4) ↦{fullShare} Vb main_v4)
          ∗ (((c : Thread nD τ).loc main_v7) ↦{fullShare} Vb main_v7) ∗ (((c : Thread nD τ).loc main_v8) ↦{fullShare} Vb main_v8)
          ∗ (((c : Thread nD τ).loc main_v9_0) ↦{fullShare} Vb main_v9_0) ∗ (((c : Thread nD τ).loc main_v9_1) ↦{fullShare} Vb main_v9_1)) := by
  unfold Pipeline.arrBufs
  rw [bigSep_eq_bigSepL_of_eq [main_arg0, main_v4, main_v7, main_v8, main_v9_0, main_v9_1] (by decide) (by decide)]
  try rfl

/-- A buffer whole at the full share is the same buffer at the two halves of it. -/
theorem pointsTo_halves {ℓ : Loc nD τ sig} (f : Buf (Elt F) ℓ) :
    ((ℓ ↦{fullShare} f : sProp 𝕄)) = iprop((ℓ ↦{fullShare.left} f) ∗ (ℓ ↦{fullShare.right} f)) :=
  BI.equiv_iff.mp ⟨(pointsTo_share (PosShare.mem_left_op_right fullShare)).1, (pointsTo_share (PosShare.mem_left_op_right fullShare)).2⟩

theorem sep_assoc_eq (P Q R : sProp 𝕄) : iprop((P ∗ Q) ∗ R) = iprop(P ∗ Q ∗ R) := by
  have h₁ : iprop((P ∗ Q) ∗ R) ⊢ iprop(P ∗ Q ∗ R) := by
    iintro ⟨⟨HP, HQ⟩, HR⟩
    isplitl [HP]; · iexact HP
    isplitl [HQ]; · iexact HQ
    iexact HR
  have h₂ : iprop(P ∗ Q ∗ R) ⊢ iprop((P ∗ Q) ∗ R) := by
    iintro ⟨HP, HQ, HR⟩
    isplitr [HR]
    · isplitl [HP]; · iexact HP
      iexact HQ
    iexact HR
  exact BI.equiv_iff.mp ⟨h₁, h₂⟩

/-- The buffers behind the arrays, whole at the full share at contents `Vb`, are the proof data's arrays at the same
    contents (`hG`), the two shared arrays dealt in halves (`hq`). -/
theorem arrBufs_eq_arrays
    (hq : dat.q 0 = fullShare.left ∧ dat.q 1 = fullShare.right ∧ dat.q 2 = fullShare.left ∧ dat.q 3 = fullShare.right
      ∧ dat.q 4 = fullShare ∧ dat.q 5 = fullShare)
    (Vb : (b : Ref sig .tc) → Buf (Elt F) ((c : Thread nD τ).loc b))
    (G : (w : Fin cfg0.W) → Buf (Elt F) ((cfg0.win w).arr.view.loc (c : Thread nD τ)))
    (hG : ∀ w, G w = Vb (Pipeline.arrRef spec0 w)) :
    (Pipeline.arrBufs spec0 c Vb : sProp 𝕄) = dat.arrays G := by
  obtain ⟨h0, h1, h2, h3, h4, h5⟩ := hq
  rw [arrays_chain, arrBufs_chain, h0, h1, h2, h3, h4, h5, hG 0, hG 1, hG 2, hG 3, hG 4, hG 5, hG 6, hG 7,
    pointsTo_halves (Vb main_arg0), pointsTo_halves (Vb main_v4), sep_assoc_eq, sep_assoc_eq]
  try rfl

end Shares

/-! ## The buffers' contents when the region is left

The arrays at what the pipeline's write-backs leave, every other buffer as the region found it. Two windows on one
array are both inputs, and an input array is never written: the two read the same contents off it. -/

section Exit

/-- A valuation read at a buffer through an equation of buffers. -/
theorem cast_valuation (f : Valuation τ sig (Elt F)) {b b' : DevRef τ sig} (e : b' = b) :
    cast (congrArg (fun b'' : DevRef τ sig => b''.ty.Contents (Elt F)) e) (f b') = f b := by
  subst e; rfl

/-- `Pipeline.withArrays` at a window's array, the windows on one array agreeing on its contents (`hc`). -/
theorem withArrays_arr_of {gr W : Nat} (win : Fin W → Pipeline.WinSpec sig gr) (c : Dev nD) (Vv : Valuation τ sig (Elt F))
    (A : (w : Fin W) → Buf (Elt F) ((win w).arr.view.loc (c : Thread nD τ))) (w : Fin W)
    (hc : ∀ (w' : Fin W) (e : Proc.devRef (τ := τ) .tc (Pipeline.arrRef win w') = Proc.devRef .tc (Pipeline.arrRef win w)),
      cast (congrArg (fun b' : DevRef τ sig => b'.ty.Contents (Elt F)) e) (A w') = A w) :
    Pipeline.withArrays win c Vv A (Proc.devRef .tc (Pipeline.arrRef win w)) = A w := by
  unfold Pipeline.withArrays
  have h : ∃ w', Proc.devRef .tc (Pipeline.arrRef win w') = Proc.devRef (τ := τ) .tc (Pipeline.arrRef win w) := ⟨w, rfl⟩
  rw [dif_pos h]
  exact hc _ h.choose_spec

/-- An output window is alone on its array. -/
theorem out_alone : ∀ w' w : Fin 8, Pipeline.arrRef spec0 w' = Pipeline.arrRef spec0 w → (win0 w).isOut = true → w' = w := by decide
/-- The windows that share an array with an input window are input windows. -/
theorem in_shared : ∀ w' w : Fin 8, Pipeline.arrRef spec0 w' = Pipeline.arrRef spec0 w → (win0 w).isOut = false → (win0 w').isOut = false := by
  decide

variable {c : Dev nD} (dat : Dat τ (Elt F) Unit ℕ (UR sig nD τ) ℕ cfg0 c)

/-- When the region is left every window's array holds what the proof data computes for the window. -/
theorem exit_arr (hA : ∀ w, dat.A w = V m c (Pipeline.arrRef spec0 w)) (w : Fin cfg0.W) :
    Pipeline.withArrays spec0 c (V0 m c) (fun w => dat.arrAt w cfg0.N) (Proc.devRef .tc (Pipeline.arrRef spec0 w)) = dat.arrAt w cfg0.N := by
  refine withArrays_arr_of spec0 c _ _ w fun w' e => ?_
  have e' : Pipeline.arrRef spec0 w' = Pipeline.arrRef spec0 w := Proc.devRef_injective _ e
  by_cases hw : (win0 w).isOut = true
  · obtain rfl : w' = w := out_alone w' w e' hw
    rfl
  · have hw0 : (win0 w).isOut = false := by simpa using hw
    have hw' : (win0 w').isOut = false := in_shared w' w e' hw0
    rw [dat.arrAt_in w hw0, dat.arrAt_in w' hw', hA w, hA w']
    exact cast_valuation (V0 m c) e

/-- And every buffer that is no window's array what the region found in it. -/
theorem exit_rest (b : Ref sig .tc) (hb : ∀ w, Pipeline.arrRef spec0 w ≠ b) :
    Pipeline.withArrays spec0 c (V0 m c) (fun w => dat.arrAt w cfg0.N) (Proc.devRef .tc b) = V m c b :=
  Pipeline.withArrays_of_ne spec0 c (V0 m c) _ b hb

end Exit

/-! ## @main around the region -/

section Around

theorem fresh_hostOps0 : (hostOps0 : List (HloOp τ sig (Elt F))).Forall fun op => op.fresh = ∅ := by
  simp only [List.Forall]; repeat' constructor
theorem fresh_hostOps0_1 : (hostOps0_1 : List (HloOp τ sig (Elt F))).Forall fun op => op.fresh = ∅ := by
  simp only [List.Forall]; repeat' constructor
theorem fresh_hostOps1 : (hostOps1 : List (HloOp τ sig (Elt F))).Forall fun op => op.fresh = ∅ := by
  simp only [List.Forall]; repeat' constructor
theorem fresh_hostOps1_1 : (hostOps1_1 : List (HloOp τ sig (Elt F))).Forall fun op => op.fresh = ∅ := by
  simp only [List.Forall]; repeat' constructor

/-- @main is the host lines before the region, the region, and the host lines after it: it reduces to the region
    continued by the later lines, at the contents the earlier lines leave. -/
theorem hmain_shared (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0, hostOps0_1] [hostOps1, hostOps1_1]
    (by simp only [List.Forall]; exact ⟨hostOps0_sub, hostOps0_1_sub⟩)
    (by simp only [List.Forall]; exact ⟨fresh_hostOps0, fresh_hostOps0_1⟩) main_chain

/-- The lines after the region touch unscoped TensorCore buffers only. -/
theorem tail_sub : ∀ ops ∈ ([hostOps1, hostOps1_1] : List (List (HloOp τ sig (Elt F)))), ∀ op ∈ ops,
    op.bufs ⊆ Pipeline.ucRefs τ sig := by
  intro ops hops op hop
  simp only [List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)

/-- They allocate nothing. -/
theorem tail_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp fresh_hostOps1) op hop
  · exact (List.forall_iff_forall_mem.mp fresh_hostOps1_1) op hop

/-- And write no array of the pipeline: each writes its own result buffer, which is no array. -/
theorem tail_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_1, List.mem_cons, List.mem_nil_iff, or_false] at hop
    rcases hop with rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)

variable {c : Dev nD} (dat : Dat τ (Elt F) Unit ℕ (UR sig nD τ) ℕ cfg0 c)

/-- The core's unscoped buffers, held at a valuation that has every window's array at what the proof data computes
    after `n` points, are the proof data's arrays there and the buffers that bypass the region. -/
theorem held_eq_arrays
    (hq : dat.q 0 = fullShare.left ∧ dat.q 1 = fullShare.right ∧ dat.q 2 = fullShare.left ∧ dat.q 3 = fullShare.right
      ∧ dat.q 4 = fullShare ∧ dat.q 5 = fullShare)
    (n : Nat) (Wv : Valuation τ sig (Elt F))
    (hW : ∀ w, Wv (Proc.devRef .tc (Pipeline.arrRef spec0 w)) = dat.arrAt w n) :
    (StableHlo.held (c : Thread nD τ) (Pipeline.ucRefs τ sig) Wv : sProp 𝕄)
      = iprop(dat.arrays (dat.arrAt · n) ∗ Pipeline.unscopedRest spec0 c (fun b => Wv (Proc.devRef .tc b))) := by
  rw [← Pipeline.unscopedBufs_held (Ix := Unit) (Name := ℕ) (U := UR sig nD τ) (Lvl := ℕ) c Wv,
    Pipeline.unscopedBufs_split₀ cfgs (0 : Fin 1) winFacts₀0.arr_unscoped c,
    arrBufs_eq_arrays dat hq _ (dat.arrAt · n) fun w => (hW w).symm]

end Around

/-! ## The run -/

section Run

set_option backward.isDefEq.respectTransparency.types false in
/-- The lines after the region, run from the region's exit: holding the proof data's arrays at their final contents (the
    two shared arrays in halves) and the buffers that bypassed the region as the region found them, the lines run
    within the core's unscoped buffers — the halves rejoined, since both windows on a shared array read the contents the
    region found — and hand back the arrays, dealt as before, and the bypassing buffers at what the lines leave. -/
theorem tail_shared (𝒱₀ : Variants) (c : Dev nD) (dat : Dat τ (Elt F) Unit ℕ (UR sig nD τ) ℕ cfg0 c)
    (hq : dat.q 0 = fullShare.left ∧ dat.q 1 = fullShare.right ∧ dat.q 2 = fullShare.left ∧ dat.q 3 = fullShare.right
      ∧ dat.q 4 = fullShare ∧ dat.q 5 = fullShare)
    (hA : ∀ w, dat.A w = V m c (Pipeline.arrRef spec0 w)) (Q' : PUnit → sProp 𝕄) :
    iprop((iprop(dat.arrays (dat.arrAt · cfg0.N)
              ∗ Pipeline.unscopedRest spec0 c (fun b => StableHlo.after (List.flatten [hostOps1, hostOps1_1])
                  (Pipeline.withArrays spec0 c (V0 m c) fun w => dat.arrAt w cfg0.N) (Proc.devRef .tc b))) -∗ Q' ⟨⟩)
        ∗ boundary (c : Thread nD τ) ∗ dat.arrays (dat.arrAt · cfg0.N) ∗ Pipeline.unscopedRest spec0 c (V m c))
      ⊢ wp frame (wpE (Pipeline.defs (fun q => Cfg.toPCfg (Val := Elt F) (cfgs q)) defs₀) (Variants.lift 𝒱₀) (c : Thread nD τ) none) Set.univ
          (Pipeline.chain ([hostOps1, hostOps1_1].map StableHlo.seq)) Q' := by
  have hW := held_eq_arrays dat hq cfg0.N (Pipeline.withArrays spec0 c (V0 m c) fun w => dat.arrAt w cfg0.N) (exit_arr m dat hA)
  have hR : (Pipeline.unscopedRest spec0 c (fun b => Pipeline.withArrays spec0 c (V0 m c) (fun w => dat.arrAt w cfg0.N) (Proc.devRef .tc b)) : sProp 𝕄)
      = Pipeline.unscopedRest spec0 c (V m c) := by
    unfold Pipeline.unscopedRest
    exact bigSep_congr fun b hb => by
      beta_reduce
      rw [exit_rest m dat b fun w e => (Finset.mem_sdiff.mp hb).2 (Finset.mem_image.mpr ⟨w, Finset.mem_univ _, e⟩)]
  rw [hR] at hW
  have hW' := held_eq_arrays dat hq cfg0.N
    (StableHlo.after (List.flatten [hostOps1, hostOps1_1]) (Pipeline.withArrays spec0 c (V0 m c) fun w => dat.arrAt w cfg0.N))
    (fun w => by
      rw [StableHlo.after_of_forall_not_mem _ _ fun op hop => ?_, exit_arr m dat hA w]
      obtain ⟨ops, hops, hop⟩ := List.mem_flatten.mp hop
      exact tail_keeps ops hops op hop w)
  rw [← List.append_nil ([hostOps1, hostOps1_1].map StableHlo.seq), ← hW]
  iintro ⟨Hk, Hb⟩
  iapply (Pipeline.wp_seqs_then (fun q => Cfg.toPCfg (Val := Elt F) (cfgs q)) defs₀ 𝒱₀ c (Pipeline.ucRefs τ sig) [] [hostOps1, hostOps1_1]
    tail_sub tail_fresh _) $$ Hb
  iintro Hb
  rw [Pipeline.chain_nil, wp_pure, hW']
  imodintro
  iapply Hk
  icases Hb with ⟨-, H⟩
  iexact H

end Run

section Frame

set_option backward.isDefEq.respectTransparency.types false in
/-- THE RUN of @main — host lines, the region, host lines — for proof data that deals the two shared input arrays
    in halves between the windows on them (`hq`), with a tracking invariant (`hin`, `hout`): every weakly fair execution
    terminates, and every final state has every window's array at what the proof data computes and every other
    unscoped buffer at what the lines after the region leave, from the region's exit contents. -/
theorem run_region (𝒱₀ : Variants)
    (dats : Fin 1 → (c : Dev nD) → Dat τ (Elt F) Unit ℕ (UR sig nD τ) ℕ cfg0 c)
    (hq : ∀ c, (dats 0 c).q 0 = fullShare.left ∧ (dats 0 c).q 1 = fullShare.right ∧ (dats 0 c).q 2 = fullShare.left
      ∧ (dats 0 c).q 3 = fullShare.right ∧ (dats 0 c).q 4 = fullShare ∧ (dats 0 c).q 5 = fullShare)
    (hA : ∀ c w, (dats 0 c).A w = V m c (Pipeline.arrRef spec0 w))
    (howed : ∀ c t, (dats 0 c).owed t = 0)
    (hbody : ∀ c, Pipeline.BodyObligationLoose (dats 0 c) defs₀ 𝒱₀ () Set.univ)
    (hin : ∀ c, Pipeline.ΦA spec0 c ⊢ (dats 0 c).Φ 0)
    (hout : ∀ c, (dats 0 c).Φ (Fin.last cfg0.N) ⊢ Pipeline.ΦA spec0 c) :
    θ_run (defs (F := F)) (onTc (τ := τ) (main (F := F))) ⟨m, fun _ => 0, ρ⟩
      (Pipeline.FramePost cfgs dats 0 (Pipeline.afterTail₀ cfgs dats 0 (V0 m) [hostOps1, hostOps1_1])) := by
  classical
  exact Pipeline.θ_run_region_pf_tail (fun p => (cfgs p).toPCfg (Val := Elt F)) (fun p => (cfgs p).toPCfg_adm) dats () cellOf_inj 0
    winFacts₀0 (Pipeline.OwnSemFacts.none spec0) (Pipeline.PreFacts.none _) emb₁ defs₀ 𝒱₀ m ρ main
    (fun _ => Pipeline.chain ([hostOps1, hostOps1_1].map StableHlo.seq)) hbody block_pos0 arr_whole0 stage_whole0 howed
    (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain_shared m 𝒱₀)
    (hsplit := fun c => Entails.of_eq (arrBufs_eq_arrays (dats 0 c) (hq c) _ _ fun w => hA c w))
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c
      (Pipeline.afterTail₀ cfgs dats 0 (V0 m) [hostOps1, hostOps1_1] c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => by
      rw [Pipeline.unscopedRestP_none, Pipeline.unscopedRestP_none]
      exact tail_shared m 𝒱₀ c (dats 0 c) (hq c) (hA c) Q')
    (QY := fun c s => ∀ b ∈ Pipeline.restRefsP sig Pipeline.Prefetch.none spec0,
      s.mem ((c : Thread nD τ).loc b) = Pipeline.afterTail₀ cfgs dats 0 (V0 m) [hostOps1, hostOps1_1] c b)
    (hY := fun c s' => by
      iintro ⟨-, HU, HSI⟩
      unfold Pipeline.unscopedRestP
      imodintro
      iapply (pointsTo_read_all (Pipeline.restRefsP sig Pipeline.Prefetch.none spec0) (fun b => (c : Thread nD τ).loc b)
        (Pipeline.afterTail₀ cfgs dats 0 (V0 m) [hostOps1, hostOps1_1] c) s')
      isplitl [HU] <;> iassumption)
    (hQ := fun s h c => ⟨(h c).1, Pipeline.rest_of_restP Pipeline.Prefetch.none spec0 _ c
      (Pipeline.afterTail₀ cfgs dats 0 (V0 m) [hostOps1, hostOps1_1] c) s (fun k => k.elim0) (h c).2.1 (h c).2.2⟩)

end Frame

end Cert.KernelIdeal.Hand

end
-- ==== Proof.LaunchShared2.lean ====
/-
  The run of @main read at the arguments and the result.

  No host line writes an argument, the first argument is an input array of the region and the second is no array
  of it: both end as launched.  The result is written by the last host line; it holds what the lines after the region
  compute from the region's exit contents, in which the two output arrays hold what the proof data computes for the
  two output windows.
-/
import proofs.«137539_j22351009809014_2_alg».proof.Proof.LaunchShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The final memory read at the arguments and the result -/

section Read

/-- No host line before the region writes the first argument: the region finds it as launched. -/
theorem entry_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- Nor the second. -/
theorem entry_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- No host line after the region writes the second argument. -/
theorem tail_main_arg1 (Wv : Valuation τ sig (Elt F)) :
    StableHlo.after (List.flatten [hostOps1, hostOps1_1]) Wv (Proc.devRef .tc main_arg1) = Wv (Proc.devRef .tc main_arg1) :=
  StableHlo.after_of_forall_not_mem (b := Proc.devRef .tc main_arg1) _ _ (List.forall_iff_forall_mem.mp (by
    simp only [hostOps1, hostOps1_1, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

variable {c : Dev nD} (dat : Dat τ (Elt F) Unit ℕ (UR sig nD τ) ℕ cfg0 c)

/-- When the region is left the first output array holds what the proof data computes for window 6, -/
theorem exit_out0 (hA : ∀ w, dat.A w = V m c (Pipeline.arrRef spec0 w)) :
    Pipeline.withArrays spec0 c (V0 m c) (fun w => dat.arrAt w cfg0.N) (Proc.devRef .tc main_v9_0) = dat.arrAt 6 cfg0.N :=
  exit_arr m dat hA 6

/-- and the second what it computes for window 7. -/
theorem exit_out1 (hA : ∀ w, dat.A w = V m c (Pipeline.arrRef spec0 w)) :
    Pipeline.withArrays spec0 c (V0 m c) (fun w => dat.arrAt w cfg0.N) (Proc.devRef .tc main_v9_1) = dat.arrAt 7 cfg0.N :=
  exit_arr m dat hA 7

/-- The run of @main read at the two arguments and the result: both arguments end as launched, and the result holds
    what the lines after the region compute from the region's exit contents — the two output arrays at what the proof
    data computes for windows 6 and 7 (`exit_out0`, `exit_out1`). -/
theorem run_region_read (𝒱₀ : Variants)
    (dats : Fin 1 → (c : Dev nD) → Dat τ (Elt F) Unit ℕ (UR sig nD τ) ℕ cfg0 c)
    (hq : ∀ c, (dats 0 c).q 0 = fullShare.left ∧ (dats 0 c).q 1 = fullShare.right ∧ (dats 0 c).q 2 = fullShare.left
      ∧ (dats 0 c).q 3 = fullShare.right ∧ (dats 0 c).q 4 = fullShare ∧ (dats 0 c).q 5 = fullShare)
    (hA : ∀ c w, (dats 0 c).A w = V m c (Pipeline.arrRef spec0 w))
    (howed : ∀ c t, (dats 0 c).owed t = 0)
    (hbody : ∀ c, Pipeline.BodyObligationLoose (dats 0 c) defs₀ 𝒱₀ () Set.univ)
    (hin : ∀ c, Pipeline.ΦA spec0 c ⊢ (dats 0 c).Φ 0)
    (hout : ∀ c, (dats 0 c).Φ (Fin.last cfg0.N) ⊢ Pipeline.ΦA spec0 c) :
    θ_run (defs (F := F)) (onTc (τ := τ) (main (F := F))) ⟨m, fun _ => 0, ρ⟩ (fun r => ∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v17)
          = StableHlo.after (List.flatten [hostOps1, hostOps1_1])
              (Pipeline.withArrays spec0 c (V0 m c) fun w => (dats 0 c).arrAt w cfg0.N) (Proc.devRef .tc main_v17)) :=
  (θ_run defs _ _).mono (fun _ h c =>
    ⟨((h c).1 0).trans (((dats 0 c).arrAt_in 0 rfl _).trans ((hA c 0).trans (entry_main_arg0 m c))),
     ((h c).2 main_arg1 (Pipeline.mem_restRefs_of main_arg1 rfl (by decide))).trans
       ((tail_main_arg1 _).trans ((exit_rest m (dats 0 c) main_arg1 (by decide)).trans (entry_main_arg1 m c))),
     (h c).2 main_v17 (Pipeline.mem_restRefs_of main_v17 rfl (by decide))⟩)
    (run_region m ρ 𝒱₀ dats hq hA howed hbody hin hout)

end Read

end Cert.KernelIdeal.Hand

end
-- ==== Proof.KFrameRun.lean ====
/-
  The run of @main with the kernel's proof data: the frame, and the result as a function of the two output arrays.

  The launch of the region with two shared input arrays, applied to the proof data of the kernel body: @main runs,
  both arguments end as launched, and the result buffer holds what the fourteen host lines after the region compute
  from the two output arrays — the row losses and the validity flags —: the sum of the losses divided by the number
  of valid rows clamped below at one, and zero when no row is valid.
-/
import proofs.«137539_j22351009809014_2_alg».proof.Proof.KFrame
import proofs.«137539_j22351009809014_2_alg».proof.Proof.LaunchShared2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run of @main with the proof data of the kernel -/

section Run

-- the launch theorem's implicit arguments are found by unifying its conclusion with this one, which takes unfolding plain
-- definitions in a metavariable's type
set_option backward.isDefEq.respectTransparency.types false in
/-- Every weakly fair execution of @main terminates, and every final state has every array of the pipeline at what the
    proof data computes and every other unscoped buffer as the lines after the region leave it. -/
theorem run_main : θ_run defs (onTc (τ := τ) (main (F := F))) ⟨m, fun _ => 0, ρ⟩
    (Pipeline.FramePost cfgs (dats m) 0 (Pipeline.afterTail₀ cfgs (dats m) 0 (V0 m) [hostOps1, hostOps1_1])) :=
  run_region m ρ Variants.none (dats m) (fun c => ⟨rfl, rfl, rfl, rfl, rfl, rfl⟩) (A_eq m) (fun _ _ => rfl)
    (fun c => (body_obligation m c).loose) (hin m) (hout m)

set_option backward.isDefEq.respectTransparency.types false in
/-- The same run read at the arguments and the result. -/
theorem run_read : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v17)
          = StableHlo.after (List.flatten [hostOps1, hostOps1_1])
              (Pipeline.withArrays spec0 c (V0 m c) fun w => (dats m 0 c).arrAt w cfg0.N) (Proc.devRef .tc main_v17)) :=
  run_region_read m ρ Variants.none (dats m) (fun c => ⟨rfl, rfl, rfl, rfl, rfl, rfl⟩) (A_eq m) (fun _ _ => rfl)
    (fun c => (body_obligation m c).loose) (hin m) (hout m)

/-- THE FRAME: @main runs, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1, (h c).2.1⟩) (run_read m ρ)

end Run

/-! ## The result as a function of the two output arrays -/

section Value

/-- What the lines after the region leave in the result buffer, from the two output arrays: each array summed over
    its rows, the first sum divided by the second clamped below at one, and zero in place of the quotient unless the
    second sum is positive. -/
def tailTerm (L Vd : Vec F S8192x1 .f32) : Vec F S_ .f32 :=
  select
    (cmpf .ogt
      (Host.reduceAdd (fun i => shapeCast S8192 Vd shapeCasts_S8192x1_S8192 i) (constant (F := F) S_ .f32 0x00000000#32) reducesTo_S8192_S_d0 h_S_)
      (constant (F := F) S_ .f32 0x00000000#32))
    (Host.divf
      (Host.reduceAdd (fun i => shapeCast S8192 L shapeCasts_S8192x1_S8192 i) (constant (F := F) S_ .f32 0x00000000#32) reducesTo_S8192_S_d0 h_S_)
      (maximumf
        (Host.reduceAdd (fun i => shapeCast S8192 Vd shapeCasts_S8192x1_S8192 i) (constant (F := F) S_ .f32 0x00000000#32) reducesTo_S8192_S_d0 h_S_)
        (constant (F := F) S_ .f32 0x3F800000#32)))
    (id (constant (F := F) S_ .f32 0x00000000#32))

/-- The lines after the region compute the result from the two output arrays and from nothing else. -/
theorem tail_result (Wv : Valuation τ sig (Elt F)) :
    StableHlo.after (List.flatten [hostOps1, hostOps1_1]) Wv (Proc.devRef .tc main_v17)
      = tailTerm (Wv (Proc.devRef .tc main_v9_0)) (Wv (Proc.devRef .tc main_v9_1)) := by
  simp only [hostOps1, hostOps1_1, List.flatten_cons, List.flatten_nil, List.append_nil, List.cons_append, List.nil_append]
  after_results
  all_goals rfl

/-- THE VALUE RUN: @main runs; the result holds `tailTerm` of what the proof data computes for the two output windows,
    and both argument arrays end as launched. -/
theorem run_value : θ_run defs (onTc (τ := τ) (main (F := F))) ⟨m, fun _ => 0, ρ⟩ (fun r => ∀ c : Dev nD,
      r.2.mem ((c.tc : Thread nD τ).loc main_v17) = tailTerm ((dats m 0 c).arrAt 6 cfg0.N) ((dats m 0 c).arrAt 7 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2.2.trans ((tail_result _).trans (by rw [exit_out0 m (dats m 0 c) (A_eq m c), exit_out1 m (dats m 0 c) (A_eq m c)])),
     (h c).1, (h c).2.1⟩) (run_read m ρ)

end Value

end Cert.KernelIdeal.Hand

end
-- ==== Proof.FiniteInputs.lean ====
/-
  Finiteness of the inputs, read back from the precondition.  The precondition says that `|x| < +∞` holds at every
  entry of both argument arrays (two `all`-reductions joined by `and`).  On the extended reals `|x| = max x (-x)`
  is below `⊤` exactly when `x` is neither infinity, that is, when `x` is a real number.
-/
import proofs.«137539_j22351009809014_2_alg».proof.Defs
import proofs.«137539_j22351009809014_2_alg».proof.Proof.Gen.Pre_finite_inputs
import Idealize.ShloMosaic.Lib.ReduceAll
import Idealize.ShloMosaic.Lib.ValueIdx

noncomputable section

open Idealize.ShloMosaic Idealize.ShloMosaic.TcCoe Idealize.SL.Sem

namespace Cert.Triplet.Finite

/-- The scalar shape has one index. -/
instance : Subsingleton (⟨0, ![]⟩ : Shape).Idx := ⟨fun a b => funext fun d => d.elim0⟩

/-- An extended real whose absolute value compares below the float pattern of `+∞` is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ y : ℝ, x = (y : EReal) := by
  have htop : Ideal.ofBits .f32 0x7F800000#32 = (⊤ : EReal) := by simp [Ideal.ofBits, Ideal.ieee]
  have h' : Ideal.cmp .olt (max x (-x)) (Ideal.ofBits .f32 0x7F800000#32) = 1#1 := h
  rw [htop] at h'
  have hlt : max x (-x) < ⊤ := by
    unfold Ideal.cmp at h'
    by_contra hn
    simp [hn] at h'
  induction x using EReal.rec with
  | bot => simp at hlt
  | coe y => exact ⟨y, rfl⟩
  | top => simp at hlt

/-- Generically over the two arrays: if the finiteness predicate holds of them, every entry of both is real. -/
theorem real_of_pre (a0 : (⟨2, ![8192, 128]⟩ : Shape).Idx → EReal) (a1 : (⟨2, ![8192, 16]⟩ : Shape).Idx → EReal)
    (h : Cert.Pre_finite_inputs.fn (F := Ideal) a0 a1 = fun _ => 1#1) :
    (∀ i, ∃ y : ℝ, a0 i = (y : EReal)) ∧ (∀ i, ∃ y : ℝ, a1 i = (y : EReal)) := by
  have h0 := congrFun h ValueIdx.ix0
  dsimp only [Cert.Pre_finite_inputs.fn] at h0
  obtain ⟨h3, h7⟩ := IntOp.andi_eq_one.1 h0
  exact ⟨fun i => real_of_abs_lt_inf _ (Host.reduce_andi_all _ _ _ _ _ h3 i),
    fun i => real_of_abs_lt_inf _ (Host.reduce_andi_all _ _ _ _ _ h7 i)⟩

/-- For a memory of the idealized kernel satisfying its precondition: on every device both argument arrays hold real
    numbers only. -/
theorem real_of_pre_kernelIdeal
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ y : ℝ, (m ((c.tc : Thread Cert.KernelIdeal.nD Cert.KernelIdeal.τ).loc Cert.KernelIdeal.main_arg0)
        : (⟨2, ![8192, 128]⟩ : Shape).Idx → EReal) i = (y : EReal))
    ∧ (∀ i, ∃ y : ℝ, (m ((c.tc : Thread Cert.KernelIdeal.nD Cert.KernelIdeal.τ).loc Cert.KernelIdeal.main_arg1)
        : (⟨2, ![8192, 16]⟩ : Shape).Idx → EReal) i = (y : EReal)) :=
  real_of_pre _ _ (h c)

end Cert.Triplet.Finite

end
-- ==== Proof.KTail.lean ====
/-
  The kernel's result. The host operations after the region sum the row losses and the validity flags and divide; with
  the two output arrays holding the row losses and the flags this is the mean row loss over the valid rows.
-/
import proofs.«137539_j22351009809014_2_alg».proof.Proof.KResult
import proofs.«137539_j22351009809014_2_alg».proof.Proof.KFrameRun
import proofs.«137539_j22351009809014_2_alg».proof.Proof.FiniteInputs

set_option maxRecDepth 16384

noncomputable section

namespace Cert.KernelIdeal.HandI

open Cert.KernelIdeal Cert.KernelIdeal.Gen Cert.KernelIdeal.Hand
open Idealize.ShloMosaic Idealize.ShloMosaic.TcCoe Idealize.ShloMosaic.ValueIdx
open Idealize.SL.Sem
open Cert.Triplet

variable (m : (ℓ : Loc nD τ sig) → Buf (Elt Ideal) ℓ) (c : Dev nD)

/-- A column `[8192, 1]` recast as a vector reads, at `r`, the column at `(r, 0)`. -/
theorem cast_vec (L : S8192x1.Idx → EReal) (h : S8192x1.ShapeCasts S8192) (r : Fin 8192) :
    shapeCast S8192 L h (ix1 r) = L (ix2 r (0 : Fin 1)) :=
  shapeCast_apply L h (ix1 r) (ix2 r (0 : Fin 1)) (by
    rw [Shape.rowMajor_val_two, Shape.rowMajor_val_one]; show r.val * 1 + 0 = r.val; omega)

/-- The lines after the region, on two columns: the mean of the first over the count of the second. -/
theorem tail_value (L Vd : S8192x1.Idx → EReal) :
    tailTerm (F := Ideal) L Vd = fun _ => (if 0 < ∑ r : Fin 8192, Vd (ix2 r (0 : Fin 1)) then
      Ideal.div (∑ r : Fin 8192, L (ix2 r (0 : Fin 1))) (max (∑ r : Fin 8192, Vd (ix2 r (0 : Fin 1))) 1) else 0) := by
  funext i
  obtain rfl : i = ix0 := eq_ix0 i
  unfold tailTerm
  refine (HostPrelude.mean_ops (fun j => shapeCast S8192 L shapeCasts_S8192x1_S8192 j) (fun j => shapeCast S8192 Vd shapeCasts_S8192x1_S8192 j) _ _).trans ?_
  simp only [cast_vec]

/-- The kernel's result: the triplet loss of the two arguments. -/
theorem kernel_value (hx : ∀ i, ∃ y : ℝ, X0 m c i = (y : EReal)) :
    tailTerm (F := Ideal) ((dats m 0 c).arrAt 6 cfg0.N) ((dats m 0 c).arrAt 7 cfg0.N) = fun _ => Spec.loss (X0 m c) (X1 m c) := by
  rw [arr6_value m c hx, arr7_value m c hx, tail_value]
  funext _
  unfold Spec.loss Spec.count Spec.sumLoss
  exact ite_iff Iff.rfl _ _

/-- The idealized kernel's run: the result is the triplet loss of the two arguments, which end unchanged. -/
theorem kernel_run (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v17) = (fun _ => Spec.loss (X0 m c) (X1 m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun _ h c => ⟨(h c).1.trans (kernel_value m c (Cert.Triplet.Finite.real_of_pre_kernelIdeal m hpre c).1), (h c).2⟩)
    (run_value m ρ)

end Cert.KernelIdeal.HandI

end
-- ==== Proof.RefValue.lean ====
/-
  The reference computes the specification.  Stage by stage, each intermediate array of the reference, read at an
  entry, is the specification's function of the two argument arrays: the similarity matrix, the distance matrix, the two
  masks, the masked row maximum and minimum (the host's reductions over the column axis are folds over that axis's
  coordinates, and a fold of `max` from `⊥`, of `min` from `⊤`, is the supremum, the infimum), the row's validity
  (an `or`-reduction of a mask is 1 exactly when some column is in the mask), the row loss, and the mean.
-/
import proofs.«137539_j22351009809014_2_alg».proof.Proof.HostPrelude
import Idealize.ShloMosaic.Lib.WordArith
import Idealize.ShloMosaic.Lib.Affine
import Idealize.ShloMosaic.PureOps.Reduce

noncomputable section

open scoped BigOperators

namespace Cert.Triplet.RefValue

open Cert.ReferenceIdeal Cert.ReferenceIdeal.Gen Cert.ReferenceIdeal.ReadP Idealize.ShloMosaic Idealize.ShloMosaic.ValueIdx
open Cert.Triplet Cert.Triplet.HostPrelude Idealize.ShloMosaic.WordArith

/-! ## Index equations -/

theorem i_v6l (r k : Fin 8192) (e : Fin 16) : lidx_main_v6 (ix2 r k) e = ix2 r e :=
  funext fun a => Fin.ext (by match a with | ⟨0, _⟩ => rfl | ⟨1, _⟩ => rfl)
theorem i_v6r (r k : Fin 8192) (e : Fin 16) : idx_main_v5 (ridx_main_v6 (ix2 r k) e) = ix2 k e :=
  funext fun a => Fin.ext (by match a with | ⟨0, _⟩ => rfl | ⟨1, _⟩ => rfl)
theorem i_v15l (r k : Fin 8192) (d : Fin 128) : lidx_main_v15 (ix2 r k) d = ix2 r d :=
  funext fun a => Fin.ext (by match a with | ⟨0, _⟩ => rfl | ⟨1, _⟩ => rfl)
theorem i_v15r (r k : Fin 8192) (d : Fin 128) : idx_main_v14 (ridx_main_v15 (ix2 r k) d) = ix2 k d :=
  funext fun a => Fin.ext (by match a with | ⟨0, _⟩ => rfl | ⟨1, _⟩ => rfl)
theorem i_v11 (r k : Fin 8192) : idx_main_v9 (idx_main_v11 (ix2 r k)) = ix1 r :=
  funext fun a => Fin.ext (by match a with | ⟨0, _⟩ => rfl)
theorem i_v12 (r k : Fin 8192) : idx_main_v10 (idx_main_v12 (ix2 r k)) = ix1 k :=
  funext fun a => Fin.ext (by match a with | ⟨0, _⟩ => rfl)

/-- Row `r` of the square matrix with the column coordinate `k` inserted is the entry `(r, k)`. -/
theorem lift_row (h : S8192x8192.Reduces [1] S8192) (r k : Fin 8192) : h.lift (ix1 r) k = ix2 r k :=
  funext fun a => Fin.ext (by match a with | ⟨0, _⟩ => rfl | ⟨1, _⟩ => rfl)

/-! ## Similarity and distance -/

theorem sim_eq (x1 : Spec.Wts) (r k : Fin 8192) : val_main_v6 (F := Ideal) x1 (ix2 r k) = Spec.sim x1 r k := by
  rw [val_main_v6_apply]
  simp only [val_main_v5_apply, i_v6l, i_v6r, ewn_eq]
  rfl

theorem dot_eq (x0 : Spec.Emb) (r k : Fin 8192) : val_main_v15 (F := Ideal) x0 (ix2 r k) = Spec.dot x0 r k := by
  rw [val_main_v15_apply]
  simp only [val_main_v14_apply, i_v15l, i_v15r]
  rfl

theorem dist_eq (x0 : Spec.Emb) (r k : Fin 8192) : val_main_v21 (F := Ideal) x0 (ix2 r k) = Spec.dist x0 r k := by
  rw [val_main_v21_apply, val_main_v20_apply, val_main_v18_apply, val_main_v13_apply, val_main_v11_apply,
    val_main_v9_apply, i_v11, sq_eq, val_main_v12_apply, val_main_v10_apply, i_v12, sq_eq, val_main_v17_apply,
    val_main_v16_apply, val_main_cst_1_apply, dot_eq, val_main_v19_apply, val_main_cst_2_apply]
  simp only [Ideal.ofBits_def, Ideal.ofBits_zero_f32]
  rfl

/-! ## The masks -/

/-- The diagonal bit: the row and column numbers, as 32-bit words, are equal exactly when the coordinates are. -/
theorem eye_iff (r k : Fin 8192) : val_main_v26 (F := Ideal) (ix2 r k) = 1#1 ↔ r = k := by
  rw [val_main_v26_apply, val_main_v25_apply, val_main_v22_apply, val_main_v24_apply, val_main_c_apply,
    val_main_v23_apply, IntOp.cmpi_eq]
  show IntOp.addi (BitVec.ofNat 32 r.val) 0#32 = BitVec.ofNat 32 k.val ↔ r = k
  unfold IntOp.addi
  rw [BitVec.add_zero]
  constructor
  · intro h
    have h2 := congrArg BitVec.toNat h
    rw [BitVec.toNat_ofNat, BitVec.toNat_ofNat, Nat.mod_eq_of_lt (by have := r.isLt; omega),
      Nat.mod_eq_of_lt (by have := k.isLt; omega)] at h2
    exact Fin.ext h2
  · rintro rfl; rfl

theorem pos_iff (x1 : Spec.Wts) (r k : Fin 8192) : val_main_v30 (F := Ideal) x1 (ix2 r k) = 1#1 ↔ Spec.Pos x1 r k := by
  rw [val_main_v30_apply, IntOp.andi_eq_one, val_main_v29_apply, IntOp.not_eq_one, eye_iff, val_main_v28_apply, sim_eq,
    val_main_v27_apply, val_main_cst_3_apply]
  show Ideal.cmp .ogt (Spec.sim x1 r k) (Ideal.ofBits .f32 0x3F333333#32) = 1#1 ∧ ¬r = k ↔ _
  unfold Ideal.cmp Spec.Pos Spec.posThresh
  simp only [ofBool_eq_one_iff, decide_eq_true_eq]

theorem neg_iff (x1 : Spec.Wts) (r k : Fin 8192) : val_main_v34 (F := Ideal) x1 (ix2 r k) = 1#1 ↔ Spec.Neg x1 r k := by
  rw [val_main_v34_apply, IntOp.andi_eq_one, val_main_v33_apply, IntOp.not_eq_one, eye_iff, val_main_v32_apply, sim_eq,
    val_main_v31_apply, val_main_cst_4_apply]
  show Ideal.cmp .olt (Spec.sim x1 r k) (Ideal.ofBits .f32 0x3E99999A#32) = 1#1 ∧ ¬r = k ↔ _
  unfold Ideal.cmp Spec.Neg Spec.negThresh
  simp only [ofBool_eq_one_iff, decide_eq_true_eq]

/-! ## The masked distances and their row maximum and minimum -/

open Classical in
theorem v35_eq (x0 : Spec.Emb) (x1 : Spec.Wts) (r k : Fin 8192) :
    val_main_v35 (F := Ideal) x0 x1 (ix2 r k) = if Spec.Pos x1 r k then Spec.dist x0 r k else ⊥ := by
  rw [val_main_v35_apply]
  by_cases h : Spec.Pos x1 r k
  · rw [(pos_iff x1 r k).2 h, select_one, if_pos h, dist_eq]
  · rw [eq_zero_of_ne_one (mt (pos_iff x1 r k).1 h), select_zero, if_neg h, val_main_call1_v0_apply,
      val_main_cst_5_apply]
    exact Spec.negInf_eq_bot

open Classical in
theorem v37_eq (x0 : Spec.Emb) (x1 : Spec.Wts) (r k : Fin 8192) :
    val_main_v37 (F := Ideal) x0 x1 (ix2 r k) = if Spec.Neg x1 r k then Spec.dist x0 r k else ⊤ := by
  rw [val_main_v37_apply]
  by_cases h : Spec.Neg x1 r k
  · rw [(neg_iff x1 r k).2 h, select_one, if_pos h, dist_eq]
  · rw [eq_zero_of_ne_one (mt (neg_iff x1 r k).1 h), select_zero, if_neg h, val_main_call2_v0_apply,
      val_main_cst_7_apply]
    exact Spec.posInf_eq_top

theorem reduces_d1 : S8192x8192.Reduces [1] S8192 := by decide

open Classical in
/-- The masked row maximum is the specification's hardest positive. -/
theorem v36_eq (x0 : Spec.Emb) (x1 : Spec.Wts) (r : Fin 8192) :
    val_main_v36 (F := Ideal) x0 x1 (ix1 r) = Spec.hardestPos x0 x1 r := by
  unfold val_main_v36
  rw [Host.reduce_eq_fold_single (FloatOps.maximumf (F := Ideal) (φ := .f32)) _ _ reducesTo_S8192x8192_S8192_d1
    reduces_d1 h_S_ (ix1 r)]
  have hf : (val_main_v35 (F := Ideal) x0 x1 ∘ reduces_d1.lift (ix1 r))
      = fun k : Fin 8192 => if Spec.Pos x1 r k then Spec.dist x0 r k else ⊥ := by
    refine funext fun (k : Fin 8192) => ?_
    exact (congrArg (val_main_v35 (F := Ideal) x0 x1) (lift_row reduces_d1 r k)).trans (v35_eq x0 x1 r k)
  rw [hf, val_main_cst_6_apply]
  show Finset.fold (fun a b : EReal => max a b) (Ideal.ofBits .f32 0xFF800000#32) _ Finset.univ = _
  rw [Spec.negInf_eq_bot]
  rfl

open Classical in
/-- The masked row minimum is the specification's hardest negative. -/
theorem v38_eq (x0 : Spec.Emb) (x1 : Spec.Wts) (r : Fin 8192) :
    val_main_v38 (F := Ideal) x0 x1 (ix1 r) = Spec.hardestNeg x0 x1 r := by
  unfold val_main_v38
  rw [Host.reduce_eq_fold_single (FloatOps.minimumf (F := Ideal) (φ := .f32)) _ _ reducesTo_S8192x8192_S8192_d1
    reduces_d1 h_S_ (ix1 r)]
  have hf : (val_main_v37 (F := Ideal) x0 x1 ∘ reduces_d1.lift (ix1 r))
      = fun k : Fin 8192 => if Spec.Neg x1 r k then Spec.dist x0 r k else ⊤ := by
    refine funext fun (k : Fin 8192) => ?_
    exact (congrArg (val_main_v37 (F := Ideal) x0 x1) (lift_row reduces_d1 r k)).trans (v37_eq x0 x1 r k)
  rw [hf, val_main_cst_8_apply]
  show Finset.fold (fun a b : EReal => min a b) (Ideal.ofBits .f32 0x7F800000#32) _ Finset.univ = _
  rw [Spec.posInf_eq_top]
  rfl

/-! ## Validity -/

/-- A fold of `or` over one-bit words from 0 is 1 exactly when one of the words is. -/
theorem fold_ori_eq_one {ι : Type} [DecidableEq ι] (s : Finset ι) (g : ι → BitVec 1) :
    s.fold IntOp.ori 0#1 g = 1#1 ↔ ∃ k ∈ s, g k = 1#1 := by
  induction s using Finset.induction_on with
  | empty =>
    rw [Finset.fold_empty]
    constructor
    · intro h; exact absurd h (by decide)
    · rintro ⟨k, hk, _⟩; simp at hk
  | insert a s ha ih =>
    rw [Finset.fold_insert ha, IntOp.ori_eq_one, ih, Finset.exists_mem_insert]

theorem v39_iff (x1 : Spec.Wts) (r : Fin 8192) :
    val_main_v39 (F := Ideal) x1 (ix1 r) = 1#1 ↔ ∃ k, Spec.Pos x1 r k := by
  unfold val_main_v39
  rw [Host.reduce_eq_fold_single (IntOp.ori (w := 1)) _ _ reducesTo_S8192x8192_S8192_d1 reduces_d1 h_S_ (ix1 r),
    val_main_c_9_apply, fold_ori_eq_one]
  constructor
  · rintro ⟨k, _, hk⟩
    exact ⟨k, (pos_iff x1 r k).1 ((congrArg (val_main_v30 (F := Ideal) x1) (lift_row reduces_d1 r k)).symm.trans hk)⟩
  · rintro ⟨k, hk⟩
    exact ⟨k, Finset.mem_univ _,
      (congrArg (val_main_v30 (F := Ideal) x1) (lift_row reduces_d1 r k)).trans ((pos_iff x1 r k).2 hk)⟩

theorem v40_iff (x1 : Spec.Wts) (r : Fin 8192) :
    val_main_v40 (F := Ideal) x1 (ix1 r) = 1#1 ↔ ∃ k, Spec.Neg x1 r k := by
  unfold val_main_v40
  rw [Host.reduce_eq_fold_single (IntOp.ori (w := 1)) _ _ reducesTo_S8192x8192_S8192_d1 reduces_d1 h_S_ (ix1 r),
    val_main_c_10_apply, fold_ori_eq_one]
  constructor
  · rintro ⟨k, _, hk⟩
    exact ⟨k, (neg_iff x1 r k).1 ((congrArg (val_main_v34 (F := Ideal) x1) (lift_row reduces_d1 r k)).symm.trans hk)⟩
  · rintro ⟨k, hk⟩
    exact ⟨k, Finset.mem_univ _,
      (congrArg (val_main_v34 (F := Ideal) x1) (lift_row reduces_d1 r k)).trans ((neg_iff x1 r k).2 hk)⟩

theorem valid_iff (x1 : Spec.Wts) (r : Fin 8192) : val_main_v41 (F := Ideal) x1 (ix1 r) = 1#1 ↔ Spec.Valid x1 r := by
  rw [val_main_v41_apply, IntOp.andi_eq_one, v39_iff, v40_iff]
  exact Iff.rfl

/-! ## The row loss, the validity as a number -/

theorem rowLoss_eq (x0 : Spec.Emb) (x1 : Spec.Wts) (r : Fin 8192) :
    val_main_v49 (F := Ideal) x0 x1 (ix1 r) = Spec.rowLoss x0 x1 r := by
  rw [val_main_v49_apply]
  unfold Spec.rowLoss
  by_cases hv : Spec.Valid x1 r
  · have h1 := (valid_iff x1 r).2 hv
    rw [h1, select_one, if_pos hv, val_main_v48_apply, val_main_v46_apply, val_main_v44_apply, val_main_v42_apply,
      val_main_v43_apply, h1, select_one, select_one, v36_eq, v38_eq, val_main_v45_apply, val_main_cst_13_apply,
      val_main_v47_apply, val_main_cst_14_apply]
    simp only [Ideal.ofBits_def, Ideal.ofBits_zero_f32]
    rfl
  · have h0 := eq_zero_of_ne_one (mt (valid_iff x1 r).1 hv)
    rw [h0, select_zero, if_neg hv, val_main_call5_v1_apply, val_main_call5_v0_apply, val_main_cst_15_apply]
    exact Ideal.ofBits_zero_f32

theorem validF_eq (x1 : Spec.Wts) (r : Fin 8192) : val_main_v50 (F := Ideal) x1 (ix1 r) = Spec.validF x1 r := by
  rw [val_main_v50_apply]
  unfold Spec.validF
  by_cases hv : Spec.Valid x1 r
  · rw [(valid_iff x1 r).2 hv, if_pos hv]
    show (((1#1 : BitVec 1).toNat : ℝ) : EReal) = 1
    simp
  · rw [eq_zero_of_ne_one (mt (valid_iff x1 r).1 hv), if_neg hv]
    show (((0#1 : BitVec 1).toNat : ℝ) : EReal) = 0
    simp

/-! ## The result -/

/-- The reference's result, as a function of its two argument arrays, is the specification's loss at the one index
    of a scalar. -/
theorem ref_eq (x0 : Spec.Emb) (x1 : Spec.Wts) :
    val_main_v56 (F := Ideal) x0 x1 = fun _ => Spec.loss x0 x1 := by
  funext i
  obtain rfl : i = ix0 := eq_ix0 i
  refine (mean_ops (val_main_v49 (F := Ideal) x0 x1) (val_main_v50 (F := Ideal) x1) reducesTo_S8192_S_d0 h_S_).trans ?_
  simp only [rowLoss_eq, validF_eq]
  rfl

end Cert.Triplet.RefValue

end
-- ==== Proof.RefRun.lean ====
/-
  The reference program's run, read back.  The reference is a straight line of 93 host operations; every weakly fair
  execution of it terminates, leaves the two argument arrays as they were (its frame: the reference launches no kernel,
  so termination and the unchanged arguments are all its frame says), and leaves in the result buffer the fold of the
  operations' results over the launch contents.  That fold is the last stage of the reference read operation by
  operation, and so, by `RefValue.ref_eq`, the specification's loss of the two argument arrays.

  Twenty of the operations belong to functions the reference calls (the norm, the `where`s); their buffers are
  typed by a transport along "this buffer's type is the value's type", which is the identity for each of them.  The list
  `ops'` restates the 93 operations with every function at its buffer's literal type and no transport; it is the same
  list (`ops_eq`), and over it the fold opens, operation by operation, into exactly the composition of the stages.
-/
import proofs.«137539_j22351009809014_2_alg».proof.Defs
import proofs.«137539_j22351009809014_2_alg».proof.Proof.RefRunP
import proofs.«137539_j22351009809014_2_alg».proof.Proof.RefValue
import proofs.«137539_j22351009809014_2_alg».proof.Proof.Gen.Pre_finite_inputs

noncomputable section

namespace Cert.Triplet.RefResult

open Cert.ReferenceIdeal Cert.ReferenceIdeal.Gen Idealize.ShloMosaic Idealize.ShloMosaic.TcCoe Idealize.SL.Sem Idealize.ShloMosaic.StableHlo

variable {F : FTy → Type} [FloatOps F]

/-- The reference's 93 operations, in order, each function stated at the literal types of its buffers. -/
abbrev ops' : List (HloOp τ sig (Elt F)) :=
  [ binary main_arg1 main_arg1 main_call0_v0 (mulf : (⟨S8192x16, .f32⟩ : BufTy).Contents (Elt F) → (⟨S8192x16, .f32⟩ : BufTy).Contents (Elt F) → (⟨S8192x16, .f32⟩ : BufTy).Contents (Elt F)),
    nullary main_call0_cst ((constant S_ .f32 0x00000000#32) : (⟨S_, .f32⟩ : BufTy).Contents (Elt F)),
    binary main_call0_v0 main_call0_cst main_call0_v1 ((fun x v => Host.reduceAdd x v reducesTo_S8192x16_S8192_d1 h_S_) : (⟨S8192x16, .f32⟩ : BufTy).Contents (Elt F) → (⟨S_, .f32⟩ : BufTy).Contents (Elt F) → (⟨S8192, .f32⟩ : BufTy).Contents (Elt F)),
    unary main_call0_v1 main_call0_v2 ((broadcastInDim S8192x1 ![0] bcast_S8192_S8192x1_0) : (⟨S8192, .f32⟩ : BufTy).Contents (Elt F) → (⟨S8192x1, .f32⟩ : BufTy).Contents (Elt F)),
    unary main_call0_v2 main_v0 (Host.sqrt : (⟨S8192x1, .f32⟩ : BufTy).Contents (Elt F) → (⟨S8192x1, .f32⟩ : BufTy).Contents (Elt F)),
    nullary main_cst (constant S_ .f32 0x322BCC77#32),
    unary main_cst main_v1 (broadcastInDim S8192x1 ![] bcast_S_S8192x1 : (⟨S_, .f32⟩ : BufTy).Contents (Elt F) → (⟨S8192x1, .f32⟩ : BufTy).Contents (Elt F)),
    binary main_v0 main_v1 main_v2 (maximumf : (⟨S8192x1, .f32⟩ : BufTy).Contents (Elt F) → (⟨S8192x1, .f32⟩ : BufTy).Contents (Elt F) → (⟨S8192x1, .f32⟩ : BufTy).Contents (Elt F)),
    unary main_v2 main_v3 (broadcastInDim S8192x16 ![0, 1] bcast_S8192x1_S8192x16_0_1 : (⟨S8192x1, .f32⟩ : BufTy).Contents (Elt F) → (⟨S8192x16, .f32⟩ : BufTy).Contents (Elt F)),
    binary main_arg1 main_v3 main_v4 (Host.divf : (⟨S8192x16, .f32⟩ : BufTy).Contents (Elt F) → (⟨S8192x16, .f32⟩ : BufTy).Contents (Elt F) → (⟨S8192x16, .f32⟩ : BufTy).Contents (Elt F)),
    unary main_v4 main_v5 ((transpose S16x8192 [1, 0] · transposes_S8192x16_S16x8192_1_0) : (⟨S8192x16, .f32⟩ : BufTy).Contents (Elt F) → (⟨S16x8192, .f32⟩ : BufTy).Contents (Elt F)),
    binary main_v4 main_v5 main_v6 ((fun l r => Host.dotGeneral dot_S8192x16_S16x8192_S8192x8192_1_0_0_1_n_n none l r) : (⟨S8192x16, .f32⟩ : BufTy).Contents (Elt F) → (⟨S16x8192, .f32⟩ : BufTy).Contents (Elt F) → (⟨S8192x8192, .f32⟩ : BufTy).Contents (Elt F)),
    binary main_arg0 main_arg0 main_v7 (mulf : (⟨S8192x128, .f32⟩ : BufTy).Contents (Elt F) → (⟨S8192x128, .f32⟩ : BufTy).Contents (Elt F) → (⟨S8192x128, .f32⟩ : BufTy).Contents (Elt F)),
    nullary main_cst_0 (constant S_ .f32 0x00000000#32),
    binary main_v7 main_cst_0 main_v8 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    unary main_v8 main_v9 (broadcastInDim S8192x1 ![0] bcast_S8192_S8192x1_0 : (⟨S8192, .f32⟩ : BufTy).Contents (Elt F) → (⟨S8192x1, .f32⟩ : BufTy).Contents (Elt F)),
    unary main_v8 main_v10 (broadcastInDim S1x8192 ![1] bcast_S8192_S1x8192_1 : (⟨S8192, .f32⟩ : BufTy).Contents (Elt F) → (⟨S1x8192, .f32⟩ : BufTy).Contents (Elt F)),
    unary main_v9 main_v11 (broadcastInDim S8192x8192 ![0, 1] bcast_S8192x1_S8192x8192_0_1 : (⟨S8192x1, .f32⟩ : BufTy).Contents (Elt F) → (⟨S8192x8192, .f32⟩ : BufTy).Contents (Elt F)),
    unary main_v10 main_v12 (broadcastInDim S8192x8192 ![0, 1] bcast_S1x8192_S8192x8192_0_1 : (⟨S1x8192, .f32⟩ : BufTy).Contents (Elt F) → (⟨S8192x8192, .f32⟩ : BufTy).Contents (Elt F)),
    binary main_v11 main_v12 main_v13 (addf : (⟨S8192x8192, .f32⟩ : BufTy).Contents (Elt F) → (⟨S8192x8192, .f32⟩ : BufTy).Contents (Elt F) → (⟨S8192x8192, .f32⟩ : BufTy).Contents (Elt F)),
    unary main_arg0 main_v14 ((transpose S128x8192 [1, 0] · transposes_S8192x128_S128x8192_1_0) : (⟨S8192x128, .f32⟩ : BufTy).Contents (Elt F) → (⟨S128x8192, .f32⟩ : BufTy).Contents (Elt F)),
    binary main_arg0 main_v14 main_v15 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    nullary main_cst_1 (constant S_ .f32 0x40000000#32),
    unary main_cst_1 main_v16 (broadcastInDim S8192x8192 ![] bcast_S_S8192x8192 : (⟨S_, .f32⟩ : BufTy).Contents (Elt F) → (⟨S8192x8192, .f32⟩ : BufTy).Contents (Elt F)),
    binary main_v16 main_v15 main_v17 (mulf : (⟨S8192x8192, .f32⟩ : BufTy).Contents (Elt F) → (⟨S8192x8192, .f32⟩ : BufTy).Contents (Elt F) → (⟨S8192x8192, .f32⟩ : BufTy).Contents (Elt F)),
    binary main_v13 main_v17 main_v18 (subf : (⟨S8192x8192, .f32⟩ : BufTy).Contents (Elt F) → (⟨S8192x8192, .f32⟩ : BufTy).Contents (Elt F) → (⟨S8192x8192, .f32⟩ : BufTy).Contents (Elt F)),
    nullary main_cst_2 (constant S_ .f32 0x00000000#32),
    unary main_cst_2 main_v19 (broadcastInDim S8192x8192 ![] bcast_S_S8192x8192 : (⟨S_, .f32⟩ : BufTy).Contents (Elt F) → (⟨S8192x8192, .f32⟩ : BufTy).Contents (Elt F)),
    binary main_v18 main_v19 main_v20 (maximumf : (⟨S8192x8192, .f32⟩ : BufTy).Contents (Elt F) → (⟨S8192x8192, .f32⟩ : BufTy).Contents (Elt F) → (⟨S8192x8192, .f32⟩ : BufTy).Contents (Elt F)),
    unary main_v20 main_v21 (Host.sqrt : (⟨S8192x8192, .f32⟩ : BufTy).Contents (Elt F) → (⟨S8192x8192, .f32⟩ : BufTy).Contents (Elt F)),
    nullary main_v22 (iotaInDim S8192x8192 32 0),
    nullary main_v23 (iotaInDim S8192x8192 32 1),
    nullary main_c (constantI S_ 32 0#32),
    unary main_c main_v24 (broadcastInDim S8192x8192 ![] bcast_S_S8192x8192 : (⟨S_, .i32⟩ : BufTy).Contents (Elt F) → (⟨S8192x8192, .i32⟩ : BufTy).Contents (Elt F)),
    binary main_v22 main_v24 main_v25 (addi : (⟨S8192x8192, .i32⟩ : BufTy).Contents (Elt F) → (⟨S8192x8192, .i32⟩ : BufTy).Contents (Elt F) → (⟨S8192x8192, .i32⟩ : BufTy).Contents (Elt F)),
    binary main_v25 main_v23 main_v26 (cmpi .eq : (⟨S8192x8192, .i32⟩ : BufTy).Contents (Elt F) → (⟨S8192x8192, .i32⟩ : BufTy).Contents (Elt F) → (⟨S8192x8192, .i1⟩ : BufTy).Contents (Elt F)),
    nullary main_cst_3 (constant S_ .f32 0x3F333333#32),
    unary main_cst_3 main_v27 (broadcastInDim S8192x8192 ![] bcast_S_S8192x8192 : (⟨S_, .f32⟩ : BufTy).Contents (Elt F) → (⟨S8192x8192, .f32⟩ : BufTy).Contents (Elt F)),
    binary main_v6 main_v27 main_v28 (cmpf .ogt : (⟨S8192x8192, .f32⟩ : BufTy).Contents (Elt F) → (⟨S8192x8192, .f32⟩ : BufTy).Contents (Elt F) → (⟨S8192x8192, .i1⟩ : BufTy).Contents (Elt F)),
    unary main_v26 main_v29 (noti : (⟨S8192x8192, .i1⟩ : BufTy).Contents (Elt F) → (⟨S8192x8192, .i1⟩ : BufTy).Contents (Elt F)),
    binary main_v28 main_v29 main_v30 (andi : (⟨S8192x8192, .i1⟩ : BufTy).Contents (Elt F) → (⟨S8192x8192, .i1⟩ : BufTy).Contents (Elt F) → (⟨S8192x8192, .i1⟩ : BufTy).Contents (Elt F)),
    nullary main_cst_4 (constant S_ .f32 0x3E99999A#32),
    unary main_cst_4 main_v31 (broadcastInDim S8192x8192 ![] bcast_S_S8192x8192 : (⟨S_, .f32⟩ : BufTy).Contents (Elt F) → (⟨S8192x8192, .f32⟩ : BufTy).Contents (Elt F)),
    binary main_v6 main_v31 main_v32 (cmpf .olt : (⟨S8192x8192, .f32⟩ : BufTy).Contents (Elt F) → (⟨S8192x8192, .f32⟩ : BufTy).Contents (Elt F) → (⟨S8192x8192, .i1⟩ : BufTy).Contents (Elt F)),
    unary main_v26 main_v33 (noti : (⟨S8192x8192, .i1⟩ : BufTy).Contents (Elt F) → (⟨S8192x8192, .i1⟩ : BufTy).Contents (Elt F)),
    binary main_v32 main_v33 main_v34 (andi : (⟨S8192x8192, .i1⟩ : BufTy).Contents (Elt F) → (⟨S8192x8192, .i1⟩ : BufTy).Contents (Elt F) → (⟨S8192x8192, .i1⟩ : BufTy).Contents (Elt F)),
    nullary main_cst_5 (constant S_ .f32 0xFF800000#32),
    unary main_cst_5 main_call1_v0 ((broadcastInDim S8192x8192 ![] bcast_S_S8192x8192) : (⟨S_, .f32⟩ : BufTy).Contents (Elt F) → (⟨S8192x8192, .f32⟩ : BufTy).Contents (Elt F)),
    ternary main_v30 main_v21 main_call1_v0 main_v35 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    nullary main_cst_6 (constant S_ .f32 0xFF800000#32),
    binary main_v35 main_cst_6 main_v36 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_7 (constant S_ .f32 0x7F800000#32),
    unary main_cst_7 main_call2_v0 ((broadcastInDim S8192x8192 ![] bcast_S_S8192x8192) : (⟨S_, .f32⟩ : BufTy).Contents (Elt F) → (⟨S8192x8192, .f32⟩ : BufTy).Contents (Elt F)),
    ternary main_v34 main_v21 main_call2_v0 main_v37 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    nullary main_cst_8 (constant S_ .f32 0x7F800000#32),
    binary main_v37 main_cst_8 main_v38 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_c_9 (constantI S_ 1 0#1),
    binary main_v30 main_c_9 main_v39 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    nullary main_c_10 (constantI S_ 1 0#1),
    binary main_v34 main_c_10 main_v40 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    binary main_v39 main_v40 main_v41 (andi : (⟨S8192, .i1⟩ : BufTy).Contents (Elt F) → (⟨S8192, .i1⟩ : BufTy).Contents (Elt F) → (⟨S8192, .i1⟩ : BufTy).Contents (Elt F)),
    nullary main_cst_11 (constant S_ .f32 0x00000000#32),
    unary main_cst_11 main_call3_v0 (id : (⟨S_, .f32⟩ : BufTy).Contents (Elt F) → (⟨S_, .f32⟩ : BufTy).Contents (Elt F)),
    unary main_call3_v0 main_call3_v1 ((broadcastInDim S8192 ![] bcast_S_S8192) : (⟨S_, .f32⟩ : BufTy).Contents (Elt F) → (⟨S8192, .f32⟩ : BufTy).Contents (Elt F)),
    ternary main_v41 main_v36 main_call3_v1 main_v42 (select : (⟨S8192, .i1⟩ : BufTy).Contents (Elt F) → (⟨S8192, .f32⟩ : BufTy).Contents (Elt F) → (⟨S8192, .f32⟩ : BufTy).Contents (Elt F) → (⟨S8192, .f32⟩ : BufTy).Contents (Elt F)),
    nullary main_cst_12 (constant S_ .f32 0x00000000#32),
    unary main_cst_12 main_call4_v0 (id : (⟨S_, .f32⟩ : BufTy).Contents (Elt F) → (⟨S_, .f32⟩ : BufTy).Contents (Elt F)),
    unary main_call4_v0 main_call4_v1 ((broadcastInDim S8192 ![] bcast_S_S8192) : (⟨S_, .f32⟩ : BufTy).Contents (Elt F) → (⟨S8192, .f32⟩ : BufTy).Contents (Elt F)),
    ternary main_v41 main_v38 main_call4_v1 main_v43 (select : (⟨S8192, .i1⟩ : BufTy).Contents (Elt F) → (⟨S8192, .f32⟩ : BufTy).Contents (Elt F) → (⟨S8192, .f32⟩ : BufTy).Contents (Elt F) → (⟨S8192, .f32⟩ : BufTy).Contents (Elt F)),
    binary main_v42 main_v43 main_v44 (subf : (⟨S8192, .f32⟩ : BufTy).Contents (Elt F) → (⟨S8192, .f32⟩ : BufTy).Contents (Elt F) → (⟨S8192, .f32⟩ : BufTy).Contents (Elt F)),
    nullary main_cst_13 (constant S_ .f32 0x3F000000#32),
    unary main_cst_13 main_v45 (broadcastInDim S8192 ![] bcast_S_S8192 : (⟨S_, .f32⟩ : BufTy).Contents (Elt F) → (⟨S8192, .f32⟩ : BufTy).Contents (Elt F)),
    binary main_v44 main_v45 main_v46 (addf : (⟨S8192, .f32⟩ : BufTy).Contents (Elt F) → (⟨S8192, .f32⟩ : BufTy).Contents (Elt F) → (⟨S8192, .f32⟩ : BufTy).Contents (Elt F)),
    nullary main_cst_14 (constant S_ .f32 0x00000000#32),
    unary main_cst_14 main_v47 (broadcastInDim S8192 ![] bcast_S_S8192 : (⟨S_, .f32⟩ : BufTy).Contents (Elt F) → (⟨S8192, .f32⟩ : BufTy).Contents (Elt F)),
    binary main_v46 main_v47 main_v48 (maximumf : (⟨S8192, .f32⟩ : BufTy).Contents (Elt F) → (⟨S8192, .f32⟩ : BufTy).Contents (Elt F) → (⟨S8192, .f32⟩ : BufTy).Contents (Elt F)),
    nullary main_cst_15 (constant S_ .f32 0x00000000#32),
    unary main_cst_15 main_call5_v0 (id : (⟨S_, .f32⟩ : BufTy).Contents (Elt F) → (⟨S_, .f32⟩ : BufTy).Contents (Elt F)),
    unary main_call5_v0 main_call5_v1 ((broadcastInDim S8192 ![] bcast_S_S8192) : (⟨S_, .f32⟩ : BufTy).Contents (Elt F) → (⟨S8192, .f32⟩ : BufTy).Contents (Elt F)),
    ternary main_v41 main_v48 main_call5_v1 main_v49 (select : (⟨S8192, .i1⟩ : BufTy).Contents (Elt F) → (⟨S8192, .f32⟩ : BufTy).Contents (Elt F) → (⟨S8192, .f32⟩ : BufTy).Contents (Elt F) → (⟨S8192, .f32⟩ : BufTy).Contents (Elt F)),
    unary main_v41 main_v50 (uitofp .f32 : (⟨S8192, .i1⟩ : BufTy).Contents (Elt F) → (⟨S8192, .f32⟩ : BufTy).Contents (Elt F)),
    nullary main_cst_16 (constant S_ .f32 0x00000000#32),
    binary main_v50 main_cst_16 main_v51 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_17 (constant S_ .f32 0x00000000#32),
    binary main_v51 main_cst_17 main_v52 (cmpf .ogt : (⟨S_, .f32⟩ : BufTy).Contents (Elt F) → (⟨S_, .f32⟩ : BufTy).Contents (Elt F) → (⟨S_, .i1⟩ : BufTy).Contents (Elt F)),
    nullary main_cst_18 (constant S_ .f32 0x00000000#32),
    binary main_v49 main_cst_18 main_v53 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_19 (constant S_ .f32 0x3F800000#32),
    binary main_v51 main_cst_19 main_v54 (maximumf : (⟨S_, .f32⟩ : BufTy).Contents (Elt F) → (⟨S_, .f32⟩ : BufTy).Contents (Elt F) → (⟨S_, .f32⟩ : BufTy).Contents (Elt F)),
    binary main_v53 main_v54 main_v55 (Host.divf : (⟨S_, .f32⟩ : BufTy).Contents (Elt F) → (⟨S_, .f32⟩ : BufTy).Contents (Elt F) → (⟨S_, .f32⟩ : BufTy).Contents (Elt F)),
    nullary main_cst_20 (constant S_ .f32 0x00000000#32),
    unary main_cst_20 main_call6_v0 (id : (⟨S_, .f32⟩ : BufTy).Contents (Elt F) → (⟨S_, .f32⟩ : BufTy).Contents (Elt F)),
    ternary main_v52 main_v55 main_call6_v0 main_v56 (select : (⟨S_, .i1⟩ : BufTy).Contents (Elt F) → (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- It is the list of operations the run is stated over: a called function's operation at a typed buffer is the plain
    operation, the transport being the identity. -/
theorem ops_eq : (Cert.ReferenceIdeal.ValueP.ops (F := F)) = ops' := rfl

set_option maxRecDepth 8192 in
set_option maxHeartbeats 37200000 in
/-- The fold of the operations over any contents `V` leaves in the result buffer the last stage of the reference,
    applied to `V`'s two argument arrays: each operation's result buffer holds its function of its operands' buffers,
    which no later operation writes. -/
theorem result_eq (V : Valuation τ sig (Elt F)) :
    after (ops' (F := F)) V (Proc.devRef .tc main_v56)
      = Cert.ReferenceIdeal.ReadP.val_main_v56 (F := F) (V (Proc.devRef .tc main_arg0)) (V (Proc.devRef .tc main_arg1)) := by
  after_results_simp
  rfl

end Cert.Triplet.RefResult

open Idealize.ShloMosaic Idealize.ShloMosaic.TcCoe Idealize.SL.Sem

namespace Cert.Triplet

/-- The reference terminates from every memory, faults nowhere, and ends with both argument arrays unchanged: its
    run's postcondition is a conjunction "result ∧ first argument kept ∧ second argument kept" per device, and the
    frame keeps the last two conjuncts.  The finiteness precondition is not used. -/
theorem frame_ri : Cert.frame_ReferenceIdeal := fun m ρ _ =>
  (θ_run Cert.ReferenceIdeal.defs _ _).mono (fun _ h c => (h c).2)
    (Cert.ReferenceIdeal.ValueP.run (F := Ideal) m ρ)

/-- The reference's run with its result named: from any memory `m`, on every device, the result buffer ends at the
    specification's loss of the two argument arrays as `m` holds them (a scalar: the constant function on the one
    index), and both argument arrays end unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v56)
          = (fun _ => Spec.loss
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run Cert.ReferenceIdeal.defs _ _).mono (fun _ h c =>
    ⟨(h c).1.trans (((congrArg (fun l => StableHlo.after l (StableHlo.launchContents m c)
        (Proc.devRef .tc Cert.ReferenceIdeal.main_v56)) RefResult.ops_eq).trans
        (RefResult.result_eq (StableHlo.launchContents m c))).trans (RefValue.ref_eq _ _)), (h c).2⟩)
    (Cert.ReferenceIdeal.ValueP.run (F := Ideal) m ρ)

end Cert.Triplet

end
-- ==== Proof.lean ====
/-
  The certificate of the batch-hard triplet-mining kernel against its reference.

  The kernel tiles the 8192 × 8192 matrix of pairwise squared distances into blocks of 1024 rows by 512 columns. For a
  row block it runs over the sixteen column tiles, keeping per row the running maximum of the squared distances to the
  row's positives (columns whose expert-weight cosine similarity is above the upper threshold) and the running minimum
  over its negatives (similarity below the lower threshold), the diagonal excluded; at the last tile it takes the square
  roots of the clamped extrema, forms the hinge loss, and writes it out with a 0/1 validity flag. The host then averages
  the losses over the valid rows. The reference forms every distance first, as the root of the clamped squared distance,
  and takes the masked maximum and minimum over whole rows.

  Over the extended reals the two agree: a maximum over sixteen tiles of 512 is the maximum over 8192 columns; the
  root of the clamp is monotone, so it commutes with a maximum or minimum over a nonempty set; and the kernel's test
  for "some positive, some negative" — the running extrema differ from the infinities they started at — is exact because
  the squared distances of finite embeddings are real numbers. That is where the precondition (finite inputs) is used.

  The three frames: each program terminates without fault and leaves its two arguments as they were. The kernel's two
  windows on the embeddings share that array half and half, and so do the two windows on the normalised weights. The
  idealization rewrote nothing, so its preservation claim is trivial.
-/
import proofs.«137539_j22351009809014_2_alg».proof.Defs
import proofs.«137539_j22351009809014_2_alg».proof.Proof.Gen.Kernel
import proofs.«137539_j22351009809014_2_alg».proof.Proof.Gen.KernelIdeal
import proofs.«137539_j22351009809014_2_alg».proof.Proof.Gen.ReferenceIdeal
import proofs.«137539_j22351009809014_2_alg».proof.Proof.Gen.Pre_finite_inputs
import proofs.«137539_j22351009809014_2_alg».proof.Proof.BFrameRun
import proofs.«137539_j22351009809014_2_alg».proof.Proof.KTail
import proofs.«137539_j22351009809014_2_alg».proof.Proof.RefRun

noncomputable section

namespace Cert.Proof

open Idealize.ShloMosaic Idealize.ShloMosaic.TcCoe Idealize.SL.Sem Cert.Triplet

/-- The kernel as printed runs to the end and keeps its arguments. -/
theorem frame_k : @Cert.frame_Kernel Cert.Kernel.Gen.facts Cert.Pre_finite_inputs.Gen.facts :=
  fun m g _ => Cert.Kernel.Hand.frame (F := Bits) m g

/-- So does its idealization. -/
theorem frame_ki : @Cert.frame_KernelIdeal Cert.KernelIdeal.Gen.facts Cert.Pre_finite_inputs.Gen.facts :=
  fun m g _ => Cert.KernelIdeal.Hand.frame (F := Ideal) m g

/-- Both idealized programs end with the triplet loss of the two arguments. -/
theorem algebraic : @Cert.algebraic_KernelIdeal_ReferenceIdeal Cert.KernelIdeal.Gen.facts Cert.ReferenceIdeal.Gen.facts Cert.Pre_finite_inputs.Gen.facts := by
  intro m g m' g' hpre hagree
  refine ⟨fun c => fun _ => Spec.loss (Cert.KernelIdeal.HandI.X0 m c) (Cert.KernelIdeal.HandI.X1 m c),
    Cert.KernelIdeal.HandI.kernel_run m g hpre, ?_⟩
  refine (θ_run (Cert.ReferenceIdeal.defs (F := Ideal)) _ _).mono (fun _ h c => ⟨(h c).1.trans ?_, (h c).2⟩)
    (Cert.Triplet.ref_run m' g')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, Cert.Triplet.frame_ri, trivial, algebraic⟩

end Cert.Proof

end
